-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x1024 : Shape := ⟨3, ![4, 4096, 1024]⟩
abbrev S1024x1024 : Shape := ⟨2, ![1024, 1024]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  main_v18

def fn {F : FTy → Type} [FloatOps F] (main_arg0 : FVec F S4x4096x1024 .f32) (main_arg1 : FVec F S4x4096x1024 .f32) (main_arg2 : FVec F S4x4096x1024 .f32) (main_arg3 : FVec F S1024x1024 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S4x4096x1024 .f32 := Host.absf main_arg1
  let main_cst_0 : FVec F S_ .f32 := constant S_ .f32 0x7F800000#32
  let main_v5 : FVec F S4x4096x1024 .f32 := broadcastInDim S4x4096x1024 ![] bcast_S_S4x4096x1024 main_cst_0
  let main_v6 : IVec S4x4096x1024 1 := cmpf .olt main_v4 main_v5
  let main_c_1 : IVec S_ 1 := constantI S_ 1 1#1
  let main_v7 : IVec S_ 1 := (fun x v => Host.reduce IntOp.andi x v reducesTo_S4x4096x1024_S_d0_1_2 h_S_) main_v6 main_c_1
  let main_v8 : IVec S_ 1 := andi main_v3 main_v7
  let main_v9 : FVec F S4x4096x1024 .f32 := Host.absf main_arg2
  let main_cst_2 : FVec F S_ .f32 := constant S_ .f32 0x7F800000#32
  let main_v10 : FVec F S4x4096x1024 .f32 := broadcastInDim S4x4096x1024 ![] bcast_S_S4x4096x1024 main_cst_2
  let main_v11 : IVec S4x4096x1024 1 := cmpf .olt main_v9 main_v10
  let main_c_3 : IVec S_ 1 := constantI S_ 1 1#1
  let main_v12 : IVec S_ 1 := (fun x v => Host.reduce IntOp.andi x v reducesTo_S4x4096x1024_S_d0_1_2 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_v13 main_v16
-- ==== Kernel.lean ====
abbrev S4x4096x1024 : Shape := ⟨3, ![4, 4096, 1024]⟩
abbrev S1024x1024 : Shape := ⟨2, ![1024, 1024]⟩
abbrev S4x1024x1024 : Shape := ⟨3, ![4, 1024, 1024]⟩
abbrev S1x256x1024 : Shape := ⟨3, ![1, 256, 1024]⟩
abbrev S1x1024x1024 : Shape := ⟨3, ![1, 1024, 1024]⟩
abbrev S256x1024 : Shape := ⟨2, ![256, 1024]⟩
abbrev S1x512x1024 : Shape := ⟨3, ![1, 512, 1024]⟩
abbrev S512x1024 : Shape := ⟨2, ![512, 1024]⟩
abbrev S512 : Shape := ⟨1, ![512]⟩
abbrev S512x1 : Shape := ⟨2, ![512, 1]⟩

abbrev nBuf : Space → Nat
  | .hbm => 7
  | .vmem => 21
  | .smem => 0
  | _ => 0

abbrev bufTy : (tb : Table) → Fin (tcTables nBuf tb) → BufTy
  | .hbm, ⟨0, _⟩ => ⟨S4x4096x1024, .f32⟩
  | .hbm, ⟨1, _⟩ => ⟨S4x4096x1024, .f32⟩
  | .hbm, ⟨2, _⟩ => ⟨S4x4096x1024, .f32⟩
  | .hbm, ⟨3, _⟩ => ⟨S1024x1024, .f32⟩
  | .hbm, ⟨4, _⟩ => ⟨S4x1024x1024, .f32⟩
  | .hbm, ⟨5, _⟩ => ⟨S4x1024x1024, .bf16⟩
  | .hbm, ⟨6, _⟩ => ⟨S4x4096x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x1024x1024, .f32⟩
  | .local _ .vmem, ⟨7, _⟩ => ⟨S1x1024x1024, .f32⟩
  | .local _ .vmem, ⟨8, _⟩ => ⟨S1x1024x1024, .bf16⟩
  | .local _ .vmem, ⟨9, _⟩ => ⟨S1x1024x1024, .bf16⟩
  | .local _ .vmem, ⟨10, _⟩ => ⟨S1024x1024, .f32⟩
  | .local _ .vmem, ⟨11, _⟩ => ⟨S1024x1024, .f32⟩
  | .local _ .vmem, ⟨12, _⟩ => ⟨S1x512x1024, .f32⟩
  | .local _ .vmem, ⟨13, _⟩ => ⟨S1x512x1024, .f32⟩
  | .local _ .vmem, ⟨14, _⟩ => ⟨S1024x1024, .f32⟩
  | .local _ .vmem, ⟨15, _⟩ => ⟨S1x1024x1024, .f32⟩
  | .local _ .vmem, ⟨16, _⟩ => ⟨S1x1024x1024, .f32⟩
  | .local _ .vmem, ⟨17, _⟩ => ⟨S1x1024x1024, .bf16⟩
  | .local _ .vmem, ⟨18, _⟩ => ⟨S1x1024x1024, .bf16⟩
  | .local _ .vmem, ⟨19, _⟩ => ⟨S1x512x1024, .f32⟩
  | .local _ .vmem, ⟨20, _⟩ => ⟨S1x512x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_stg4_0 : Ref sig .tc := ⟨.vmem, 19, rfl⟩
abbrev cc1_stg4_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem2_1 : DmaSem sig := 14
abbrev cc1_sem3_0 : DmaSem sig := 15
abbrev cc1_sem3_1 : DmaSem sig := 16
abbrev cc1_sem4_0 : DmaSem sig := 17
abbrev cc1_sem4_1 : DmaSem sig := 18

abbrev nD : Nat := 1
abbrev τ : Topo := Topo.v7x

variable {F : FTy → Type} [FloatOps F]

abbrev grid0 : Pipeline.Grid := ⟨2, ![4, 16], ![false, false]⟩

def k0_cond2 (i : grid0.Coords) : BitVec 1 :=
  let arg1 : BitVec 32 := BitVec.ofNat 32 (i 1).val
  let c15_i32 : BitVec 32 := 15#32
  let v23 : BitVec 1 := Scalar.cmpi .eq arg1 c15_i32
  let v24 : BitVec 32 := Scalar.extui v23
  let c0_i32_18 : BitVec 32 := 0#32
  let v25 : BitVec 1 := Scalar.cmpi .ne v24 c0_i32_18
  v25

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨2, ![4, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S1024x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S1x1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x1024x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x512x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

class Facts₀ : Prop where
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  bitsLt_bf16_f32 : FTy.bits .bf16 < FTy.bits .f32
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  shapeCasts_S1024x1024_S1x1024x1024 : S1024x1024.ShapeCasts S1x1024x1024
  packedbf16_S1x1024x1024_S1x1024x1024_0_0_0 : (Rect.unit (s := S1x1024x1024) ![0, 0, 0] S1x1024x1024.size inb_S1x1024x1024_S1x1024x1024_0_0_0).PackedRows (EltTy.packing .bf16)
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  reduces_S512x1024_S512 : S512x1024.Reduces [1] S512
  shapeCasts_S512_S512x1 : S512.ShapeCasts S512x1
  broadcasts_S512x1_S512x1024 : S512x1.Broadcasts S512x1024
  shapeCasts_S512x1024_S1x512x1024 : S512x1024.ShapeCasts S1x512x1024
  dot_S256x1024_S256x1024_S1024x1024_0_0_1_1_n_n_wf : DotDims.WF S256x1024 S256x1024 S1024x1024 [0] [0] [1] [1] [] []
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x1024.size a ≤ S4x4096x1024.size a
  hwx0_0 : ∀ i : grid0.Coords, EltTy.bits .f32 = 32 ∨ (Rect.block (s := S4x4096x1024) S1x256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x1024.size a ≤ S4x4096x1024.size a
  hwx0_1 : ∀ i : grid0.Coords, EltTy.bits .f32 = 32 ∨ (Rect.block (s := S4x4096x1024) S1x256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x1024.size a ≤ S4x4096x1024.size a
  hwx0_2 : ∀ i : grid0.Coords, EltTy.bits .f32 = 32 ∨ (Rect.block (s := S4x4096x1024) S1x256x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x1024.size a ≤ S4x1024x1024.size a
  hwx0_3 : ∀ i : grid0.Coords, EltTy.bits .f32 = 32 ∨ (Rect.block (s := S4x1024x1024) S1x1024x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x1024.size a ≤ S4x1024x1024.size a
  hwx0_4 : ∀ i : grid0.Coords, EltTy.bits .bf16 = 32 ∨ (Rect.block (s := S4x1024x1024) S1x1024x1024.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x1024.size a ≤ S4x4096x1024.size a
  hwx1_0 : ∀ i : grid1.Coords, EltTy.bits .f32 = 32 ∨ (Rect.block (s := S4x4096x1024) S1x512x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .f32 = 32 ∨ (Rect.block (s := S1024x1024) S1024x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024x1024.size a ≤ S4x1024x1024.size a
  hwx1_2 : ∀ i : grid1.Coords, EltTy.bits .f32 = 32 ∨ (Rect.block (s := S4x1024x1024) S1x1024x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x1024.size a ≤ S4x1024x1024.size a
  hwx1_3 : ∀ i : grid1.Coords, EltTy.bits .bf16 = 32 ∨ (Rect.block (s := S4x1024x1024) S1x1024x1024.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x512x1024.size a ≤ S4x4096x1024.size a
  hwx1_4 : ∀ i : grid1.Coords, EltTy.bits .f32 = 32 ∨ (Rect.block (s := S4x4096x1024) S1x512x1024.size (cc1_transform_4 i) (hinb1_4 i)).WholeWords (EltTy.packing .f32)

variable [Facts₀]

def dot_S256x1024_S256x1024_S1024x1024_0_0_1_1_n_n : DotDims S256x1024 S256x1024 S1024x1024 where
  lhsContracting := [0]
  rhsContracting := [0]
  lhsNonContracting := [1]
  rhsNonContracting := [1]
  lhsBatch := []
  rhsBatch := []
  wf := dot_S256x1024_S256x1024_S1024x1024_0_0_1_1_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_arg0) S1x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S1x1024x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S1x1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun i => !(k0_cond2 i == 1#1) | 4 => fun i => !(k0_cond2 i == 1#1) | ⟨_ + 5, h⟩ => absurd h (Nat.not_lt.2 (Nat.le_add_left _ _))

abbrev win1_0 : Pipeline.Window sig grid1 :=
  Pipeline.Window.ofSpec (Memref.whole main_arg0) S1x512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v0_0) S1x1024x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v0_1) S1x1024x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v1) S1x512x1024.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S4x4096x1024 : Shape := ⟨3, ![4, 4096, 1024]⟩
abbrev S1024x1024 : Shape := ⟨2, ![1024, 1024]⟩
abbrev S4x1024x1024 : Shape := ⟨3, ![4, 1024, 1024]⟩
abbrev S_ : Shape := ⟨0, ![]⟩
abbrev S4x4096 : Shape := ⟨2, ![4, 4096]⟩
abbrev S4x4096x1 : Shape := ⟨3, ![4, 4096, 1]⟩

abbrev nBuf : Space → Nat
  | .hbm => 23
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x4096x1024, .f32⟩
  | .hbm, ⟨2, _⟩ => ⟨S4x4096x1024, .f32⟩
  | .hbm, ⟨3, _⟩ => ⟨S1024x1024, .f32⟩
  | .hbm, ⟨4, _⟩ => ⟨S4x4096x1024, .f32⟩
  | .hbm, ⟨5, _⟩ => ⟨S4x1024x1024, .f32⟩
  | .hbm, ⟨6, _⟩ => ⟨S4x1024x1024, .f32⟩
  | .hbm, ⟨7, _⟩ => ⟨S4x4096x1024, .f32⟩
  | .hbm, ⟨8, _⟩ => ⟨S_, .f32⟩
  | .hbm, ⟨9, _⟩ => ⟨S4x4096, .f32⟩
  | .hbm, ⟨10, _⟩ => ⟨S_, .f32⟩
  | .hbm, ⟨11, _⟩ => ⟨S4x4096, .f32⟩
  | .hbm, ⟨12, _⟩ => ⟨S4x4096, .f32⟩
  | .hbm, ⟨13, _⟩ => ⟨S4x4096x1, .f32⟩
  | .hbm, ⟨14, _⟩ => ⟨S4x4096x1024, .f32⟩
  | .hbm, ⟨15, _⟩ => ⟨S4x4096x1024, .f32⟩
  | .hbm, ⟨16, _⟩ => ⟨S4x4096x1024, .f32⟩
  | .hbm, ⟨17, _⟩ => ⟨S_, .f32⟩
  | .hbm, ⟨18, _⟩ => ⟨S4x4096, .f32⟩
  | .hbm, ⟨19, _⟩ => ⟨S4x4096x1, .f32⟩
  | .hbm, ⟨20, _⟩ => ⟨S4x4096x1024, .f32⟩
  | .hbm, ⟨21, _⟩ => ⟨S4x4096x1024, .f32⟩
  | .hbm, ⟨22, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]

class Facts₀ : Prop where
  reducesTo_S4x4096x1024_S4x4096_d2 : S4x4096x1024.ReducesTo [2] S4x4096
  h_S_ : 0 < S_.numel
  bcast_S_S4x4096 : S_.BroadcastsInDim S4x4096 (![] : Fin 0 → Fin S4x4096.rank)
  bcast_S4x4096_S4x4096x1_0_1 : S4x4096.BroadcastsInDim S4x4096x1 (![0, 1] : Fin 2 → Fin S4x4096x1.rank)
  bcast_S4x4096x1_S4x4096x1024_0_1_2 : S4x4096x1.BroadcastsInDim S4x4096x1024 (![0, 1, 2] : Fin 3 → Fin S4x4096x1024.rank)
  dot_S4x4096x1024_S1024x1024_S4x4096x1024_2_0_01_1_n_n_wf : DotDims.WF S4x4096x1024 S1024x1024 S4x4096x1024 [2] [0] [0, 1] [1] [] []
  dot_S4x4096x1024_S4x4096x1024_S4x1024x1024_1_1_2_2_0_0_wf : DotDims.WF S4x4096x1024 S4x4096x1024 S4x1024x1024 [1] [1] [2] [2] [0] [0]
  dot_S4x4096x1024_S4x1024x1024_S4x4096x1024_2_1_1_2_0_0_wf : DotDims.WF S4x4096x1024 S4x1024x1024 S4x4096x1024 [2] [1] [1] [2] [0] [0]

variable [Facts₀]

def dot_S4x4096x1024_S1024x1024_S4x4096x1024_2_0_01_1_n_n : DotDims S4x4096x1024 S1024x1024 S4x4096x1024 where
  lhsContracting := [2]
  rhsContracting := [0]
  lhsNonContracting := [0, 1]
  rhsNonContracting := [1]
  lhsBatch := []
  rhsBatch := []
  wf := dot_S4x4096x1024_S1024x1024_S4x4096x1024_2_0_01_1_n_n_wf
def dot_S4x4096x1024_S4x4096x1024_S4x1024x1024_1_1_2_2_0_0 : DotDims S4x4096x1024 S4x4096x1024 S4x1024x1024 where
  lhsContracting := [1]
  rhsContracting := [1]
  lhsNonContracting := [2]
  rhsNonContracting := [2]
  lhsBatch := [0]
  rhsBatch := [0]
  wf := dot_S4x4096x1024_S4x4096x1024_S4x1024x1024_1_1_2_2_0_0_wf
def dot_S4x4096x1024_S4x1024x1024_S4x4096x1024_2_1_1_2_0_0 : DotDims S4x4096x1024 S4x1024x1024 S4x4096x1024 where
  lhsContracting := [2]
  rhsContracting := [1]
  lhsNonContracting := [1]
  rhsNonContracting := [2]
  lhsBatch := [0]
  rhsBatch := [0]
  wf := dot_S4x4096x1024_S4x1024x1024_S4x4096x1024_2_1_1_2_0_0_wf

class Facts : Prop extends Facts₀ where

variable [Facts]
-- ==== Proof.K.R0Base.lean ====
/-
  The first kernel region (the accumulation of the two 1024 × 1024 matrices over the 16 blocks of 256 sequence
  positions of each batch): what its runs share.  The grid has 4 · 16 points, point t = 16 · b + j being block j of
  batch b.  At j = 0 the body clears its two accumulators, at every point it adds the block's two products to them, and
  at j = 15 it copies them into the two output blocks of batch b, which are written back there and nowhere else.
-/
import proofs.«175285_j78357383348331_2_alg».proof.Proof.Gen.Kernel.Launch
import proofs.«175285_j78357383348331_2_alg».proof.Proof.Gen.Kernel.Skeleton
import proofs.«175285_j78357383348331_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
-- the buffer contents when the region is entered: a parameter
variable (V : (c : Dev nD) → (b : Ref sig .tc) → Buf (Elt F) ((c : Thread nD τ).loc b))

/-- Window w's block at point t, read off its array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point (all three inputs are fetched at every
    point, never cut, never idle), for any proof data over the entry contents that leaves the block in place. -/
theorem before0_in0 {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)
theorem before0_in1 {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)
theorem before0_in2 {c : Dev nD} (dat : Dat τ (Elt F) Unit ℕ (UR sig nD τ) ℕ cfg0 c) (hA : dat.A 2 = V c (Pipeline.arrRef spec0 2))
    (hafter : ∀ t, dat.after 2 t = blk0 V c 2 t) (t : Fin cfg0.N) (d) : dat.before 2 t d = blk0 V c 2 t :=
  (dat.before_in_eq_fetched 2 rfl (fun _ => rfl) (fun _ _ _ => rfl) (fun t => by rw [hafter]; unfold Dat.blockOf blk0; rw [hA]; try rfl) t d).trans
    (by unfold Dat.fetched Dat.blockOf blk0; rw [hA]; try rfl)

end

/-! ## The body's two branches, decided over the grid -/

/-- The body clears the accumulators: the block number is 0. -/
abbrev isFirst (i : grid0.Coords) : Prop := (Scalar.cmpi .ne (Scalar.extui (Scalar.cmpi .eq (BitVec.ofNat 32 (i 1).val) 0#32)) 0#32) = 1#1
theorem isFirst_iff : ∀ t : Fin cfg0.N, isFirst (grid0.coords t) ↔ t.val % 16 = 0 :=
  (by decide +kernel : ∀ t : Fin grid0.N, isFirst (grid0.coords t) ↔ t.val % 16 = 0)
/-- The body copies the accumulators out: the block number is 15. -/
abbrev isLast (i : grid0.Coords) : Prop := k0_cond2 i = 1#1
theorem isLast_iff : ∀ t : Fin cfg0.N, isLast (grid0.coords t) ↔ t.val % 16 = 15 :=
  (by decide +kernel : ∀ t : Fin grid0.N, isLast (grid0.coords t) ↔ t.val % 16 = 15)

/-! ## Where the windows are idle -/

theorem live0_0 : ∀ t : Fin cfg0.N, cfg0.idle 0 (grid0.coords t) = false := by decide +kernel
theorem live0_1 : ∀ t : Fin cfg0.N, cfg0.idle 1 (grid0.coords t) = false := by decide +kernel
theorem live0_2 : ∀ t : Fin cfg0.N, cfg0.idle 2 (grid0.coords t) = false := by decide +kernel
/-- Away from the last block of a batch the two outputs are idle and not written back; at the last block they are live. -/
theorem idle0_3 : ∀ t : Fin cfg0.N, ¬isLast (grid0.coords t) → cfg0.idle 3 (grid0.coords t) = true := by decide +kernel
theorem idle0_4 : ∀ t : Fin cfg0.N, ¬isLast (grid0.coords t) → cfg0.idle 4 (grid0.coords t) = true := by decide +kernel
theorem noflush0_3 : ∀ t : Fin cfg0.N, ¬isLast (grid0.coords t) → (cfg0.win 3).flush t = false := by decide +kernel
theorem noflush0_4 : ∀ t : Fin cfg0.N, ¬isLast (grid0.coords t) → (cfg0.win 4).flush t = false := by decide +kernel
theorem live0_3 : ∀ t : Fin cfg0.N, isLast (grid0.coords t) → cfg0.idle 3 (grid0.coords t) = false := by decide +kernel
theorem live0_4 : ∀ t : Fin cfg0.N, isLast (grid0.coords t) → cfg0.idle 4 (grid0.coords t) = false := by decide +kernel

/-! ## The memrefs the body is called with -/

abbrev sm0_0 (t : Fin cfg0.N) : Memref sig .tc .vmem S1x256x1024 .f32 := win0_0.stage (cfg0.slots t 0)
abbrev hsm0_0 (t : Fin cfg0.N) : (sm0_0 t).IsWhole := Facts₀.hstage0_0 ((cfg0.slots t 0).cast Facts₀.nbuf0_0)
abbrev sm0_1 (t : Fin cfg0.N) : Memref sig .tc .vmem S1x256x1024 .f32 := win0_1.stage (cfg0.slots t 1)
abbrev hsm0_1 (t : Fin cfg0.N) : (sm0_1 t).IsWhole := Facts₀.hstage0_1 ((cfg0.slots t 1).cast Facts₀.nbuf0_1)
abbrev sm0_2 (t : Fin cfg0.N) : Memref sig .tc .vmem S1x256x1024 .f32 := win0_2.stage (cfg0.slots t 2)
abbrev hsm0_2 (t : Fin cfg0.N) : (sm0_2 t).IsWhole := Facts₀.hstage0_2 ((cfg0.slots t 2).cast Facts₀.nbuf0_2)
abbrev sm0_3 (t : Fin cfg0.N) : Memref sig .tc .vmem S1x1024x1024 .f32 := win0_3.stage (cfg0.slots t 3)
abbrev hsm0_3 (t : Fin cfg0.N) : (sm0_3 t).IsWhole := Facts₀.hstage0_3 ((cfg0.slots t 3).cast Facts₀.nbuf0_3)
abbrev sm0_4 (t : Fin cfg0.N) : Memref sig .tc .vmem S1x1024x1024 .bf16 := win0_4.stage (cfg0.slots t 4)
abbrev hsm0_4 (t : Fin cfg0.N) : (sm0_4 t).IsWhole := Facts₀.hstage0_4 ((cfg0.slots t 4).cast Facts₀.nbuf0_4)
/-- The two accumulators: whole scoped buffers of the kernel's own. -/
abbrev accC : Memref sig .tc .vmem S1024x1024 .f32 := Memref.whole cc0_scratch0
abbrev accX : Memref sig .tc .vmem S1024x1024 .f32 := Memref.whole cc0_scratch1
/-- Views through which buffer contents are stated (which buffer of a pair is immaterial). -/
abbrev viewC : View sig .tc .vmem S1024x1024 .f32 := accC.view
abbrev viewX : View sig .tc .vmem S1024x1024 .f32 := accX.view
abbrev viewO3 : View sig .tc .vmem S1x1024x1024 .f32 := (Memref.whole cc0_stg3_0 : Memref sig .tc .vmem S1x1024x1024 .f32).view
abbrev viewO4 : View sig .tc .vmem S1x1024x1024 .bf16 := (Memref.whole cc0_stg4_0 : Memref sig .tc .vmem S1x1024x1024 .bf16).view

/-- The core's other scoped buffers (the second region's staging buffers), each whole at some contents: the first region
    never touches them. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f))

/-- The region's plain invariant (every scoped buffer that is no staging buffer at some contents, the generator register at
    some state) with the two accumulators split off as memrefs. -/
theorem PhiA0_eq (c : Dev nD) :
    (Pipeline.ΦA spec0 c : sProp 𝕄)
      = iprop(iprop((∃ d, owns (c : Thread nD τ) accC fullShare d) ∗ (∃ d, owns (c : Thread nD τ) accX fullShare d) ∗ others0 (F := F) c) ∗ (∃ r, prngReg c r)) := by
  unfold Pipeline.ΦA others0; rw [scopedRest0_eq]; simp only [accC, accX, owns_whole]; try rfl

end Cert.Kernel.Hand

end
-- ==== Proof.K.R0RunFirst.lean ====
/-
  The first kernel's body at the first block of a batch: it clears both accumulators and adds the block's two products;
  the two output blocks are left as found.  The stores it leaves in each accumulator are found by running the body.
-/
import proofs.«175285_j78357383348331_2_alg».proof.Proof.K.R0Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- At the first block of a batch (the clearing branch taken, the copying branch not): from the three input blocks at
    their contents, the two output buffers at anything (handed back untouched) and the accumulators at anything, the body
    runs to the end leaving each accumulator with the listed stores written. -/
noncomputable def runFirst (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x256x1024 .f32) (harg4 : arg4.IsWhole) (arg5 : Memref sig .tc .vmem S1x1024x1024 .f32) (harg5 : arg5.IsWhole) (arg6 : Memref sig .tc .vmem S1x1024x1024 .bf16) (harg6 : arg6.IsWhole) (arg7 : Memref sig .tc .vmem S1024x1024 .f32) (harg7 : arg7.IsWhole) (arg8 : Memref sig .tc .vmem S1024x1024 .f32) (harg8 : arg8.IsWhole) (hc0 : isFirst i) (hc1 : ¬isLast i)
    (x0 x1 x2 : Vec F S1x256x1024 .f32) :
    Σ' (LC : List (View.Piece (Elt F) S1024x1024 .f32)), { LX : List (View.Piece (Elt F) S1024x1024 .f32) //
      ∀ (xi3 : Vec F S1x1024x1024 .f32) (xi4 : Vec F S1x1024x1024 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4
            ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ f, arg7.view.loc (c : Thread nD τ) ↦[arg7.view.set]{fullShare} arg7.view.writes (Elt F) f LC) ∗ (∃ f, arg8.view.loc (c : Thread nD τ) ↦[arg8.view.set]{fullShare} arg8.view.writes (Elt F) f LX)) -∗ K ⟨⟩))
          ⊢ wp frame (wpE (defs₀ (F := F)) Variants.none c none) E (cc0__kernel1 i arg2 harg2 arg3 harg3 arg4 harg4 arg5 harg5 arg6 harg6 arg7 harg7 arg8 harg8) K } := by
  refine ⟨?_, ?_, fun xi3 xi4 E K => ?run⟩
  case run =>
    simp only [cc0__kernel1_eq_skeleton]; unfold cc0__kernel1_skel
    unfold owns
    iintro ⟨⟨%f0, %hf0, H0⟩, ⟨%f1, %hf1, H1⟩, ⟨%f2, %hf2, H2⟩, ⟨%f3, %hf3, H3⟩, ⟨%f4, %hf4, H4⟩, ⟨%dC, %fC, -, HC⟩, ⟨%dX, %fX, -, HX⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HC]; · iexists _; iexact HC
    iexists _; iexact HX

end Cert.Kernel.Hand

end
-- ==== Proof.K.R0RunMiddle.lean ====
/-
  The first kernel's body at a block of a batch that is neither the first nor the last: it adds the block's two products
  to the accumulators; the two output blocks are left as found.
-/
import proofs.«175285_j78357383348331_2_alg».proof.Proof.K.R0Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- At a middle block of a batch (neither branch taken): from the three input blocks, the two output buffers at anything
    (handed back untouched) and the accumulators at what the block before left, the body runs to the end leaving each
    accumulator with the listed stores written. -/
noncomputable def runMiddle (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x256x1024 .f32) (harg4 : arg4.IsWhole) (arg5 : Memref sig .tc .vmem S1x1024x1024 .f32) (harg5 : arg5.IsWhole) (arg6 : Memref sig .tc .vmem S1x1024x1024 .bf16) (harg6 : arg6.IsWhole) (arg7 : Memref sig .tc .vmem S1024x1024 .f32) (harg7 : arg7.IsWhole) (arg8 : Memref sig .tc .vmem S1024x1024 .f32) (harg8 : arg8.IsWhole) (hc0 : ¬isFirst i) (hc1 : ¬isLast i)
    (x0 x1 x2 : Vec F S1x256x1024 .f32) (aC aX : Vec F S1024x1024 .f32) :
    Σ' (LC : List (View.Piece (Elt F) S1024x1024 .f32)), { LX : List (View.Piece (Elt F) S1024x1024 .f32) //
      ∀ (xi3 : Vec F S1x1024x1024 .f32) (xi4 : Vec F S1x1024x1024 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4
            ∗ owns (c : Thread nD τ) arg7 fullShare aC ∗ owns (c : Thread nD τ) arg8 fullShare aX
            ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ f, arg7.view.loc (c : Thread nD τ) ↦[arg7.view.set]{fullShare} arg7.view.writes (Elt F) f LC) ∗ (∃ f, arg8.view.loc (c : Thread nD τ) ↦[arg8.view.set]{fullShare} arg8.view.writes (Elt F) f LX)) -∗ K ⟨⟩))
          ⊢ wp frame (wpE (defs₀ (F := F)) Variants.none c none) E (cc0__kernel1 i arg2 harg2 arg3 harg3 arg4 harg4 arg5 harg5 arg6 harg6 arg7 harg7 arg8 harg8) K } := by
  refine ⟨?_, ?_, fun xi3 xi4 E K => ?run⟩
  case run =>
    simp only [cc0__kernel1_eq_skeleton]; unfold cc0__kernel1_skel
    unfold owns
    iintro ⟨⟨%f0, %hf0, H0⟩, ⟨%f1, %hf1, H1⟩, ⟨%f2, %hf2, H2⟩, ⟨%f3, %hf3, H3⟩, ⟨%f4, %hf4, H4⟩, ⟨%fC, %hfC, HC⟩, ⟨%fX, %hfX, HX⟩, Hk⟩
    obtain rfl := harg2.eq_unread hf0; obtain rfl := harg3.eq_unread hf1; obtain rfl := harg4.eq_unread hf2
    obtain rfl := harg5.eq_unread hf3; obtain rfl := harg6.eq_unread hf4
    obtain rfl := harg7.eq_unread hfC; obtain rfl := harg8.eq_unread hfX
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HC]; · iexists _; iexact HC
    iexists _; iexact HX

end Cert.Kernel.Hand

end
-- ==== Proof.K.R0RunLast.lean ====
/-
  The first kernel's body at the last block of a batch: it adds the block's two products to the accumulators and copies
  the accumulators into the two output blocks.
-/
import proofs.«175285_j78357383348331_2_alg».proof.Proof.K.R0Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- At the last block of a batch (the copying branch taken, the clearing branch not): from the three input blocks, the
    two output buffers at anything and the accumulators at what the block before left, the body runs to the end leaving
    each output buffer and each accumulator with the listed stores written. -/
noncomputable def runLast (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x256x1024 .f32) (harg4 : arg4.IsWhole) (arg5 : Memref sig .tc .vmem S1x1024x1024 .f32) (harg5 : arg5.IsWhole) (arg6 : Memref sig .tc .vmem S1x1024x1024 .bf16) (harg6 : arg6.IsWhole) (arg7 : Memref sig .tc .vmem S1024x1024 .f32) (harg7 : arg7.IsWhole) (arg8 : Memref sig .tc .vmem S1024x1024 .f32) (harg8 : arg8.IsWhole) (hc0 : ¬isFirst i) (hc1 : isLast i)
    (x0 x1 x2 : Vec F S1x256x1024 .f32) (aC aX : Vec F S1024x1024 .f32) :
    Σ' (L3 : List (View.Piece (Elt F) S1x1024x1024 .f32)) (L4 : List (View.Piece (Elt F) S1x1024x1024 .bf16))
      (LC : List (View.Piece (Elt F) S1024x1024 .f32)), { LX : List (View.Piece (Elt F) S1024x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d)
            ∗ owns (c : Thread nD τ) arg7 fullShare aC ∗ owns (c : Thread nD τ) arg8 fullShare aX
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LC) ∗ (∃ f, arg8.view.loc (c : Thread nD τ) ↦[arg8.view.set]{fullShare} arg8.view.writes (Elt F) f LX)) -∗ K ⟨⟩))
          ⊢ wp frame (wpE (defs₀ (F := F)) Variants.none c none) E (cc0__kernel1 i arg2 harg2 arg3 harg3 arg4 harg4 arg5 harg5 arg6 harg6 arg7 harg7 arg8 harg8) K } := by
  refine ⟨?_, ?_, ?_, ?_, fun E K => ?run⟩
  case run =>
    simp only [cc0__kernel1_eq_skeleton]; unfold cc0__kernel1_skel
    unfold owns
    iintro ⟨⟨%f0, %hf0, H0⟩, ⟨%f1, %hf1, H1⟩, ⟨%f2, %hf2, H2⟩, ⟨%d3, %f3, -, H3⟩, ⟨%d4, %f4, -, H4⟩, ⟨%fC, %hfC, HC⟩, ⟨%fX, %hfX, HX⟩, Hk⟩
    obtain rfl := harg2.eq_unread hf0; obtain rfl := harg3.eq_unread hf1; obtain rfl := harg4.eq_unread hf2
    obtain rfl := harg7.eq_unread hfC; obtain rfl := harg8.eq_unread hfX
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    isplitl [HC]; · iexists _; iexact HC
    iexists _; iexact HX

end Cert.Kernel.Hand

end
-- ==== Proof.K.R0Data.lean ====
/-
  The first kernel region, point by point: what the two accumulators hold after each grid point (a recursion over the
  points: cleared and restarted at the first block of a batch, added to at the others), what the two output buffers hold
  after the last block of a batch (copies of the accumulators), and the region's proof data over these.
-/
import proofs.«175285_j78357383348331_2_alg».proof.Proof.K.R0RunFirst
import proofs.«175285_j78357383348331_2_alg».proof.Proof.K.R0RunMiddle
import proofs.«175285_j78357383348331_2_alg».proof.Proof.K.R0RunLast

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## One point's effect on the accumulators -/

theorem notLast_of_first (t : Fin cfg0.N) (h0 : t.val % 16 = 0) : ¬isLast (grid0.coords t) :=
  fun h => by have := (isLast_iff t).mp h; omega

/-- The first block of a batch: the accumulators after the body, whatever they held. -/
def stepFirst (c : Dev nD) (t : Fin cfg0.N) (h0 : t.val % 16 = 0) : Vec F S1024x1024 .f32 × Vec F S1024x1024 .f32 :=
  (viewC.read (Elt F) (viewC.writes (Elt F) viewC.junk (runFirst (F := F) c (grid0.coords t) (sm0_0 t) (hsm0_0 t) (sm0_1 t) (hsm0_1 t) (sm0_2 t) (hsm0_2 t) (sm0_3 t) (hsm0_3 t) (sm0_4 t) (hsm0_4 t) accC (Memref.isWhole_whole _) accX (Memref.isWhole_whole _) ((isFirst_iff t).mpr h0) (notLast_of_first t h0) (blk0 V c 0 t) (blk0 V c 1 t) (blk0 V c 2 t)).1),
   viewX.read (Elt F) (viewX.writes (Elt F) viewX.junk (runFirst (F := F) c (grid0.coords t) (sm0_0 t) (hsm0_0 t) (sm0_1 t) (hsm0_1 t) (sm0_2 t) (hsm0_2 t) (sm0_3 t) (hsm0_3 t) (sm0_4 t) (hsm0_4 t) accC (Memref.isWhole_whole _) accX (Memref.isWhole_whole _) ((isFirst_iff t).mpr h0) (notLast_of_first t h0) (blk0 V c 0 t) (blk0 V c 1 t) (blk0 V c 2 t)).2.1))

/-- A middle block: the accumulators after the body, from what the block before left. -/
def stepMiddle (c : Dev nD) (t : Fin cfg0.N) (h0 : ¬t.val % 16 = 0) (h1 : ¬t.val % 16 = 15) (a : Vec F S1024x1024 .f32 × Vec F S1024x1024 .f32) :
    Vec F S1024x1024 .f32 × Vec F S1024x1024 .f32 :=
  (viewC.read (Elt F) (viewC.writes (Elt F) viewC.junk (runMiddle (F := F) c (grid0.coords t) (sm0_0 t) (hsm0_0 t) (sm0_1 t) (hsm0_1 t) (sm0_2 t) (hsm0_2 t) (sm0_3 t) (hsm0_3 t) (sm0_4 t) (hsm0_4 t) accC (Memref.isWhole_whole _) accX (Memref.isWhole_whole _) (fun h => h0 ((isFirst_iff t).mp h)) (fun h => h1 ((isLast_iff t).mp h)) (blk0 V c 0 t) (blk0 V c 1 t) (blk0 V c 2 t) a.1 a.2).1),
   viewX.read (Elt F) (viewX.writes (Elt F) viewX.junk (runMiddle (F := F) c (grid0.coords t) (sm0_0 t) (hsm0_0 t) (sm0_1 t) (hsm0_1 t) (sm0_2 t) (hsm0_2 t) (sm0_3 t) (hsm0_3 t) (sm0_4 t) (hsm0_4 t) accC (Memref.isWhole_whole _) accX (Memref.isWhole_whole _) (fun h => h0 ((isFirst_iff t).mp h)) (fun h => h1 ((isLast_iff t).mp h)) (blk0 V c 0 t) (blk0 V c 1 t) (blk0 V c 2 t) a.1 a.2).2.1))

/-- The last block: the accumulators after the body, from what the block before left. -/
def stepLast (c : Dev nD) (t : Fin cfg0.N) (h0 : ¬t.val % 16 = 0) (h1 : t.val % 16 = 15) (a : Vec F S1024x1024 .f32 × Vec F S1024x1024 .f32) :
    Vec F S1024x1024 .f32 × Vec F S1024x1024 .f32 :=
  (viewC.read (Elt F) (viewC.writes (Elt F) viewC.junk (runLast (F := F) c (grid0.coords t) (sm0_0 t) (hsm0_0 t) (sm0_1 t) (hsm0_1 t) (sm0_2 t) (hsm0_2 t) (sm0_3 t) (hsm0_3 t) (sm0_4 t) (hsm0_4 t) accC (Memref.isWhole_whole _) accX (Memref.isWhole_whole _) (fun h => h0 ((isFirst_iff t).mp h)) ((isLast_iff t).mpr h1) (blk0 V c 0 t) (blk0 V c 1 t) (blk0 V c 2 t) a.1 a.2).2.2.1),
   viewX.read (Elt F) (viewX.writes (Elt F) viewX.junk (runLast (F := F) c (grid0.coords t) (sm0_0 t) (hsm0_0 t) (sm0_1 t) (hsm0_1 t) (sm0_2 t) (hsm0_2 t) (sm0_3 t) (hsm0_3 t) (sm0_4 t) (hsm0_4 t) accC (Memref.isWhole_whole _) accX (Memref.isWhole_whole _) (fun h => h0 ((isFirst_iff t).mp h)) ((isLast_iff t).mpr h1) (blk0 V c 0 t) (blk0 V c 1 t) (blk0 V c 2 t) a.1 a.2).2.2.2.1))

/-- The last block: what the body leaves in the two output buffers, from what the block before left in the accumulators. -/
def copyLast3 (c : Dev nD) (t : Fin cfg0.N) (h0 : ¬t.val % 16 = 0) (h1 : t.val % 16 = 15) (a : Vec F S1024x1024 .f32 × Vec F S1024x1024 .f32) :
    Vec F S1x1024x1024 .f32 :=
  viewO3.read (Elt F) (viewO3.writes (Elt F) viewO3.junk (runLast (F := F) c (grid0.coords t) (sm0_0 t) (hsm0_0 t) (sm0_1 t) (hsm0_1 t) (sm0_2 t) (hsm0_2 t) (sm0_3 t) (hsm0_3 t) (sm0_4 t) (hsm0_4 t) accC (Memref.isWhole_whole _) accX (Memref.isWhole_whole _) (fun h => h0 ((isFirst_iff t).mp h)) ((isLast_iff t).mpr h1) (blk0 V c 0 t) (blk0 V c 1 t) (blk0 V c 2 t) a.1 a.2).1)
def copyLast4 (c : Dev nD) (t : Fin cfg0.N) (h0 : ¬t.val % 16 = 0) (h1 : t.val % 16 = 15) (a : Vec F S1024x1024 .f32 × Vec F S1024x1024 .f32) :
    Vec F S1x1024x1024 .bf16 :=
  viewO4.read (Elt F) (viewO4.writes (Elt F) viewO4.junk (runLast (F := F) c (grid0.coords t) (sm0_0 t) (hsm0_0 t) (sm0_1 t) (hsm0_1 t) (sm0_2 t) (hsm0_2 t) (sm0_3 t) (hsm0_3 t) (sm0_4 t) (hsm0_4 t) accC (Memref.isWhole_whole _) accX (Memref.isWhole_whole _) (fun h => h0 ((isFirst_iff t).mp h)) ((isLast_iff t).mpr h1) (blk0 V c 0 t) (blk0 V c 1 t) (blk0 V c 2 t) a.1 a.2).2.1)

/-! ## The accumulators after each point -/

/-- What the two accumulators hold after the body at position n. -/
def accAt (c : Dev nD) : (n : ℕ) → n < cfg0.N → Vec F S1024x1024 .f32 × Vec F S1024x1024 .f32
  | 0, hn => stepFirst V c ⟨0, hn⟩ (Nat.zero_mod _)
  | n + 1, hn =>
    if h0 : (n + 1) % 16 = 0 then stepFirst V c ⟨n + 1, hn⟩ h0
    else if h1 : (n + 1) % 16 = 15 then stepLast V c ⟨n + 1, hn⟩ h0 h1 (accAt c n (Nat.lt_of_succ_lt hn))
    else stepMiddle V c ⟨n + 1, hn⟩ h0 h1 (accAt c n (Nat.lt_of_succ_lt hn))

theorem pred_lt (t : Fin cfg0.N) : t.val - 1 < cfg0.N := Nat.lt_of_le_of_lt (Nat.sub_le _ _) t.isLt

theorem accAt_first (c : Dev nD) (t : Fin cfg0.N) (h0 : t.val % 16 = 0) : accAt V c t.val t.isLt = stepFirst V c t h0 := by
  obtain ⟨n, hn⟩ := t
  cases n with
  | zero => rfl
  | succ n => exact (dif_pos h0).trans rfl

theorem accAt_middle (c : Dev nD) (t : Fin cfg0.N) (h0 : ¬t.val % 16 = 0) (h1 : ¬t.val % 16 = 15) :
    accAt V c t.val t.isLt = stepMiddle V c t h0 h1 (accAt V c (t.val - 1) (pred_lt t)) := by
  obtain ⟨n, hn⟩ := t
  cases n with
  | zero => exact absurd (Nat.zero_mod _) h0
  | succ n => exact (dif_neg h0).trans ((dif_neg h1).trans rfl)

theorem accAt_last (c : Dev nD) (t : Fin cfg0.N) (h0 : ¬t.val % 16 = 0) (h1 : t.val % 16 = 15) :
    accAt V c t.val t.isLt = stepLast V c t h0 h1 (accAt V c (t.val - 1) (pred_lt t)) := by
  obtain ⟨n, hn⟩ := t
  cases n with
  | zero => exact absurd (Nat.zero_mod _) h0
  | succ n => exact (dif_neg h0).trans ((dif_pos h1).trans rfl)

/-- What the two output buffers hold after the body at point t: at the last block of a batch the copies of the
    accumulators; elsewhere the windows are idle and this value is never consulted. -/
def outC (c : Dev nD) (t : Fin cfg0.N) : Vec F S1x1024x1024 .f32 :=
  if h1 : t.val % 16 = 15 then copyLast3 V c t (by omega) h1 (accAt V c (t.val - 1) (pred_lt t)) else viewO3.read (Elt F) viewO3.junk
def outX (c : Dev nD) (t : Fin cfg0.N) : Vec F S1x1024x1024 .bf16 :=
  if h1 : t.val % 16 = 15 then copyLast4 V c t (by omega) h1 (accAt V c (t.val - 1) (pred_lt t)) else viewO4.read (Elt F) viewO4.junk

theorem outC_last (c : Dev nD) (t : Fin cfg0.N) (h0 : ¬t.val % 16 = 0) (h1 : t.val % 16 = 15) :
    outC V c t = copyLast3 V c t h0 h1 (accAt V c (t.val - 1) (pred_lt t)) := dif_pos h1
theorem outX_last (c : Dev nD) (t : Fin cfg0.N) (h0 : ¬t.val % 16 = 0) (h1 : t.val % 16 = 15) :
    outX V c t = copyLast4 V c t h0 h1 (accAt V c (t.val - 1) (pred_lt t)) := dif_pos h1

/-! ## The region invariant -/

/-- Before position n: before the very first point the plain invariant (the accumulators at anything); afterwards the
    accumulators at what the point before left, the other scoped buffers at anything, the generator register at some state. -/
def PhiS (c : Dev nD) : (n : ℕ) → n ≤ cfg0.N → sProp 𝕄
  | 0, _ => Pipeline.ΦA spec0 c
  | n + 1, hn => iprop(iprop(owns (c : Thread nD τ) accC fullShare (accAt V c n hn).1 ∗ owns (c : Thread nD τ) accX fullShare (accAt V c n hn).2 ∗ others0 (F := F) c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) accC fullShare (accAt V c n hn).1 ∗ owns (c : Thread nD τ) accX fullShare (accAt V c n hn).2 ∗ others0 (F := F) c) ∗ (∃ r, prngReg c r)) := rfl
theorem PhiS_pos (c : Dev nD) (n : ℕ) (h : n ≤ cfg0.N) (hz : n ≠ 0) :
    PhiS V c n h = iprop(iprop(owns (c : Thread nD τ) accC fullShare (accAt V c (n - 1) (by omega)).1 ∗ owns (c : Thread nD τ) accX fullShare (accAt V c (n - 1) (by omega)).2 ∗ others0 (F := F) c) ∗ (∃ r, prngReg c r)) := by
  cases n with
  | zero => exact absurd rfl hz
  | succ n => rfl

/-! ## The proof data -/

/-- The first region's proof data on core c: the arrays as the region finds them; after the body each input's buffer at
    its block, the outputs' at the copies (last block) or unconsulted; the invariant above; nothing owed; full shares. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => outC V c t
    | ⟨4, _⟩ => outX V c t
  Φ t := PhiS V c t.val (Nat.le_of_lt_succ t.isLt)
  q _ := fullShare
  owed _ := 0

theorem dat0_A (c : Dev nD) (w : Fin cfg0.W) : (dat0 V c).A w = V c (Pipeline.arrRef spec0 w) := by dsimp only [dat0]
theorem dat0_Phi_castSucc (c : Dev nD) (t : Fin cfg0.N) : (dat0 V c).Φ t.castSucc = PhiS V c t.val (Nat.le_of_lt t.isLt) := by
  dsimp only [dat0]; simp only [Fin.coe_castSucc]
theorem dat0_after0 (c : Dev nD) (t : Fin cfg0.N) : (dat0 V c).after 0 t = blk0 V c 0 t := by dsimp only [dat0]
theorem dat0_after1 (c : Dev nD) (t : Fin cfg0.N) : (dat0 V c).after 1 t = blk0 V c 1 t := by dsimp only [dat0]
theorem dat0_after2 (c : Dev nD) (t : Fin cfg0.N) : (dat0 V c).after 2 t = blk0 V c 2 t := by dsimp only [dat0]
theorem dat0_after3 (c : Dev nD) (t : Fin cfg0.N) : (dat0 V c).after 3 t = outC V c t := by dsimp only [dat0]
theorem dat0_after4 (c : Dev nD) (t : Fin cfg0.N) : (dat0 V c).after 4 t = outX V c t := by dsimp only [dat0]
theorem dat0_before0 (c : Dev nD) (t : Fin cfg0.N) (d) : (dat0 V c).before 0 t d = blk0 V c 0 t :=
  before0_in0 V (dat0 V c) (dat0_A V c 0) (dat0_after0 V c) t d
theorem dat0_before1 (c : Dev nD) (t : Fin cfg0.N) (d) : (dat0 V c).before 1 t d = blk0 V c 1 t :=
  before0_in1 V (dat0 V c) (dat0_A V c 1) (dat0_after1 V c) t d
theorem dat0_before2 (c : Dev nD) (t : Fin cfg0.N) (d) : (dat0 V c).before 2 t d = blk0 V c 2 t :=
  before0_in2 V (dat0 V c) (dat0_A V c 2) (dat0_after2 V c) t d

end

end Cert.Kernel.Hand

end
-- ==== Proof.K.R0Body.lean ====
/-
  The first kernel region: the body's obligation at every grid point, from the three runs of the body (first, middle and
  last block of a batch), and the region invariant's two ends.
-/
import proofs.«175285_j78357383348331_2_alg».proof.Proof.K.R0Data

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The stores of each run cover the buffer they go to -/

theorem coverC_first (c : Dev nD) (t : Fin cfg0.N) (h0 : t.val % 16 = 0) (y : S1024x1024.Idx) :
    ∃ pc ∈ (runFirst (F := F) c (grid0.coords t) (sm0_0 t) (hsm0_0 t) (sm0_1 t) (hsm0_1 t) (sm0_2 t) (hsm0_2 t) (sm0_3 t) (hsm0_3 t) (sm0_4 t) (hsm0_4 t) accC (Memref.isWhole_whole _) accX (Memref.isWhole_whole _) ((isFirst_iff t).mpr h0) (notLast_of_first t h0) (blk0 V c 0 t) (blk0 V c 1 t) (blk0 V c 2 t)).1, y ∈ pc.1.set :=
  View.cover_of_tiledL (runFirst (F := F) c (grid0.coords t) (sm0_0 t) (hsm0_0 t) (sm0_1 t) (hsm0_1 t) (sm0_2 t) (hsm0_2 t) (sm0_3 t) (hsm0_3 t) (sm0_4 t) (hsm0_4 t) accC (Memref.isWhole_whole _) accX (Memref.isWhole_whole _) ((isFirst_iff t).mpr h0) (notLast_of_first t h0) (blk0 V c 0 t) (blk0 V c 1 t) (blk0 V c 2 t)).1 S1024x1024.size (by sl_kernel_rfl) y
theorem coverX_first (c : Dev nD) (t : Fin cfg0.N) (h0 : t.val % 16 = 0) (y : S1024x1024.Idx) :
    ∃ pc ∈ (runFirst (F := F) c (grid0.coords t) (sm0_0 t) (hsm0_0 t) (sm0_1 t) (hsm0_1 t) (sm0_2 t) (hsm0_2 t) (sm0_3 t) (hsm0_3 t) (sm0_4 t) (hsm0_4 t) accC (Memref.isWhole_whole _) accX (Memref.isWhole_whole _) ((isFirst_iff t).mpr h0) (notLast_of_first t h0) (blk0 V c 0 t) (blk0 V c 1 t) (blk0 V c 2 t)).2.1, y ∈ pc.1.set :=
  View.cover_of_tiledL (runFirst (F := F) c (grid0.coords t) (sm0_0 t) (hsm0_0 t) (sm0_1 t) (hsm0_1 t) (sm0_2 t) (hsm0_2 t) (sm0_3 t) (hsm0_3 t) (sm0_4 t) (hsm0_4 t) accC (Memref.isWhole_whole _) accX (Memref.isWhole_whole _) ((isFirst_iff t).mpr h0) (notLast_of_first t h0) (blk0 V c 0 t) (blk0 V c 1 t) (blk0 V c 2 t)).2.1 S1024x1024.size (by sl_kernel_rfl) y
theorem coverC_middle (c : Dev nD) (t : Fin cfg0.N) (h0 : ¬t.val % 16 = 0) (h1 : ¬t.val % 16 = 15) (a : Vec F S1024x1024 .f32 × Vec F S1024x1024 .f32) (y : S1024x1024.Idx) :
    ∃ pc ∈ (runMiddle (F := F) c (grid0.coords t) (sm0_0 t) (hsm0_0 t) (sm0_1 t) (hsm0_1 t) (sm0_2 t) (hsm0_2 t) (sm0_3 t) (hsm0_3 t) (sm0_4 t) (hsm0_4 t) accC (Memref.isWhole_whole _) accX (Memref.isWhole_whole _) (fun h => h0 ((isFirst_iff t).mp h)) (fun h => h1 ((isLast_iff t).mp h)) (blk0 V c 0 t) (blk0 V c 1 t) (blk0 V c 2 t) a.1 a.2).1, y ∈ pc.1.set :=
  View.cover_of_tiledL (runMiddle (F := F) c (grid0.coords t) (sm0_0 t) (hsm0_0 t) (sm0_1 t) (hsm0_1 t) (sm0_2 t) (hsm0_2 t) (sm0_3 t) (hsm0_3 t) (sm0_4 t) (hsm0_4 t) accC (Memref.isWhole_whole _) accX (Memref.isWhole_whole _) (fun h => h0 ((isFirst_iff t).mp h)) (fun h => h1 ((isLast_iff t).mp h)) (blk0 V c 0 t) (blk0 V c 1 t) (blk0 V c 2 t) a.1 a.2).1 S1024x1024.size (by sl_kernel_rfl) y
theorem coverX_middle (c : Dev nD) (t : Fin cfg0.N) (h0 : ¬t.val % 16 = 0) (h1 : ¬t.val % 16 = 15) (a : Vec F S1024x1024 .f32 × Vec F S1024x1024 .f32) (y : S1024x1024.Idx) :
    ∃ pc ∈ (runMiddle (F := F) c (grid0.coords t) (sm0_0 t) (hsm0_0 t) (sm0_1 t) (hsm0_1 t) (sm0_2 t) (hsm0_2 t) (sm0_3 t) (hsm0_3 t) (sm0_4 t) (hsm0_4 t) accC (Memref.isWhole_whole _) accX (Memref.isWhole_whole _) (fun h => h0 ((isFirst_iff t).mp h)) (fun h => h1 ((isLast_iff t).mp h)) (blk0 V c 0 t) (blk0 V c 1 t) (blk0 V c 2 t) a.1 a.2).2.1, y ∈ pc.1.set :=
  View.cover_of_tiledL (runMiddle (F := F) c (grid0.coords t) (sm0_0 t) (hsm0_0 t) (sm0_1 t) (hsm0_1 t) (sm0_2 t) (hsm0_2 t) (sm0_3 t) (hsm0_3 t) (sm0_4 t) (hsm0_4 t) accC (Memref.isWhole_whole _) accX (Memref.isWhole_whole _) (fun h => h0 ((isFirst_iff t).mp h)) (fun h => h1 ((isLast_iff t).mp h)) (blk0 V c 0 t) (blk0 V c 1 t) (blk0 V c 2 t) a.1 a.2).2.1 S1024x1024.size (by sl_kernel_rfl) y
theorem cover3_last (c : Dev nD) (t : Fin cfg0.N) (h0 : ¬t.val % 16 = 0) (h1 : t.val % 16 = 15) (a : Vec F S1024x1024 .f32 × Vec F S1024x1024 .f32) (y : S1x1024x1024.Idx) :
    ∃ pc ∈ (runLast (F := F) c (grid0.coords t) (sm0_0 t) (hsm0_0 t) (sm0_1 t) (hsm0_1 t) (sm0_2 t) (hsm0_2 t) (sm0_3 t) (hsm0_3 t) (sm0_4 t) (hsm0_4 t) accC (Memref.isWhole_whole _) accX (Memref.isWhole_whole _) (fun h => h0 ((isFirst_iff t).mp h)) ((isLast_iff t).mpr h1) (blk0 V c 0 t) (blk0 V c 1 t) (blk0 V c 2 t) a.1 a.2).1, y ∈ pc.1.set :=
  View.cover_of_tiledL (runLast (F := F) c (grid0.coords t) (sm0_0 t) (hsm0_0 t) (sm0_1 t) (hsm0_1 t) (sm0_2 t) (hsm0_2 t) (sm0_3 t) (hsm0_3 t) (sm0_4 t) (hsm0_4 t) accC (Memref.isWhole_whole _) accX (Memref.isWhole_whole _) (fun h => h0 ((isFirst_iff t).mp h)) ((isLast_iff t).mpr h1) (blk0 V c 0 t) (blk0 V c 1 t) (blk0 V c 2 t) a.1 a.2).1 S1x1024x1024.size (by sl_kernel_rfl) y
theorem cover4_last (c : Dev nD) (t : Fin cfg0.N) (h0 : ¬t.val % 16 = 0) (h1 : t.val % 16 = 15) (a : Vec F S1024x1024 .f32 × Vec F S1024x1024 .f32) (y : S1x1024x1024.Idx) :
    ∃ pc ∈ (runLast (F := F) c (grid0.coords t) (sm0_0 t) (hsm0_0 t) (sm0_1 t) (hsm0_1 t) (sm0_2 t) (hsm0_2 t) (sm0_3 t) (hsm0_3 t) (sm0_4 t) (hsm0_4 t) accC (Memref.isWhole_whole _) accX (Memref.isWhole_whole _) (fun h => h0 ((isFirst_iff t).mp h)) ((isLast_iff t).mpr h1) (blk0 V c 0 t) (blk0 V c 1 t) (blk0 V c 2 t) a.1 a.2).2.1, y ∈ pc.1.set :=
  View.cover_of_tiledL (runLast (F := F) c (grid0.coords t) (sm0_0 t) (hsm0_0 t) (sm0_1 t) (hsm0_1 t) (sm0_2 t) (hsm0_2 t) (sm0_3 t) (hsm0_3 t) (sm0_4 t) (hsm0_4 t) accC (Memref.isWhole_whole _) accX (Memref.isWhole_whole _) (fun h => h0 ((isFirst_iff t).mp h)) ((isLast_iff t).mpr h1) (blk0 V c 0 t) (blk0 V c 1 t) (blk0 V c 2 t) a.1 a.2).2.1 S1x1024x1024.size (by sl_kernel_rfl) y
theorem coverC_last (c : Dev nD) (t : Fin cfg0.N) (h0 : ¬t.val % 16 = 0) (h1 : t.val % 16 = 15) (a : Vec F S1024x1024 .f32 × Vec F S1024x1024 .f32) (y : S1024x1024.Idx) :
    ∃ pc ∈ (runLast (F := F) c (grid0.coords t) (sm0_0 t) (hsm0_0 t) (sm0_1 t) (hsm0_1 t) (sm0_2 t) (hsm0_2 t) (sm0_3 t) (hsm0_3 t) (sm0_4 t) (hsm0_4 t) accC (Memref.isWhole_whole _) accX (Memref.isWhole_whole _) (fun h => h0 ((isFirst_iff t).mp h)) ((isLast_iff t).mpr h1) (blk0 V c 0 t) (blk0 V c 1 t) (blk0 V c 2 t) a.1 a.2).2.2.1, y ∈ pc.1.set :=
  View.cover_of_tiledL (runLast (F := F) c (grid0.coords t) (sm0_0 t) (hsm0_0 t) (sm0_1 t) (hsm0_1 t) (sm0_2 t) (hsm0_2 t) (sm0_3 t) (hsm0_3 t) (sm0_4 t) (hsm0_4 t) accC (Memref.isWhole_whole _) accX (Memref.isWhole_whole _) (fun h => h0 ((isFirst_iff t).mp h)) ((isLast_iff t).mpr h1) (blk0 V c 0 t) (blk0 V c 1 t) (blk0 V c 2 t) a.1 a.2).2.2.1 S1024x1024.size (by sl_kernel_rfl) y
theorem coverX_last (c : Dev nD) (t : Fin cfg0.N) (h0 : ¬t.val % 16 = 0) (h1 : t.val % 16 = 15) (a : Vec F S1024x1024 .f32 × Vec F S1024x1024 .f32) (y : S1024x1024.Idx) :
    ∃ pc ∈ (runLast (F := F) c (grid0.coords t) (sm0_0 t) (hsm0_0 t) (sm0_1 t) (hsm0_1 t) (sm0_2 t) (hsm0_2 t) (sm0_3 t) (hsm0_3 t) (sm0_4 t) (hsm0_4 t) accC (Memref.isWhole_whole _) accX (Memref.isWhole_whole _) (fun h => h0 ((isFirst_iff t).mp h)) ((isLast_iff t).mpr h1) (blk0 V c 0 t) (blk0 V c 1 t) (blk0 V c 2 t) a.1 a.2).2.2.2.1, y ∈ pc.1.set :=
  View.cover_of_tiledL (runLast (F := F) c (grid0.coords t) (sm0_0 t) (hsm0_0 t) (sm0_1 t) (hsm0_1 t) (sm0_2 t) (hsm0_2 t) (sm0_3 t) (hsm0_3 t) (sm0_4 t) (hsm0_4 t) accC (Memref.isWhole_whole _) accX (Memref.isWhole_whole _) (fun h => h0 ((isFirst_iff t).mp h)) ((isLast_iff t).mpr h1) (blk0 V c 0 t) (blk0 V c 1 t) (blk0 V c 2 t) a.1 a.2).2.2.2.1 S1024x1024.size (by sl_kernel_rfl) y

/-! ## The body obligation at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (sm0_0 t) fullShare ((dat0 V c).before 0 t d))
    ∗ (∃ d, owns (c : Thread nD τ) (sm0_1 t) fullShare ((dat0 V c).before 1 t d))
    ∗ (∃ d, owns (c : Thread nD τ) (sm0_2 t) fullShare ((dat0 V c).before 2 t d))
    ∗ (∃ d, owns (c : Thread nD τ) (sm0_3 t) fullShare ((dat0 V c).before 3 t d))
    ∗ (∃ d, owns (c : Thread nD τ) (sm0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t
    ∗ (dat0 V c).leavesExact 3 t ∗ (dat0 V c).leavesExact 4 t)

set_option maxHeartbeats 4800000 in
/-- The body at any point: the inputs' buffers hold their blocks; the block number says which of the three runs applies;
    the invariant hands the body the accumulators at what the point before left (at anything before the very first
    point) and takes them back at this point's contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [dat0_before0, dat0_before1, dat0_before2]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (sm0_0 t) fullShare ((dat0 V c).after 0 t) from by
    unfold Dat.leavesExact; rw [live0_0 t], dat0_after0]
  rw [show (dat0 V c).leavesExact 1 t = owns (c : Thread nD τ) (sm0_1 t) fullShare ((dat0 V c).after 1 t) from by
    unfold Dat.leavesExact; rw [live0_1 t], dat0_after1]
  rw [show (dat0 V c).leavesExact 2 t = owns (c : Thread nD τ) (sm0_2 t) fullShare ((dat0 V c).after 2 t) from by
    unfold Dat.leavesExact; rw [live0_2 t], dat0_after2]
  have hN : t.val < 64 := lt_of_lt_of_eq t.isLt (show cfg0.N = 64 from N_0)
  by_cases h0 : t.val % 16 = 0
  · have h1 : ¬t.val % 16 = 15 := by omega
    have hnl : ¬isLast (grid0.coords t) := notLast_of_first t h0
    rw [Dat.leavesExact_idle (dat0 V c) 3 t (idle0_3 t hnl) (noflush0_3 t hnl),
      Dat.leavesExact_idle (dat0 V c) 4 t (idle0_4 t hnl) (noflush0_4 t hnl)]
    rw [accAt_first V c t h0]
    unfold stepFirst; (try dsimp only)
    by_cases hz : t.val = 0
    · rw [dat0_Phi_castSucc V c t, PhiS_zero V c _ _ hz, PhiA0_eq]
      iintro ⟨⟨⟨HC, HX, Hoth⟩, Hg⟩, Ho, ⟨%d0, H0⟩, ⟨%d1, H1⟩, ⟨%d2, H2⟩, ⟨%d3, H3⟩, ⟨%d4, H4⟩⟩
      iapply ((runFirst (F := F) c (grid0.coords t) (sm0_0 t) (hsm0_0 t) (sm0_1 t) (hsm0_1 t) (sm0_2 t) (hsm0_2 t) (sm0_3 t) (hsm0_3 t) (sm0_4 t) (hsm0_4 t) accC (Memref.isWhole_whole _) accX (Memref.isWhole_whole _) ((isFirst_iff t).mpr h0) (notLast_of_first t h0) (blk0 V c 0 t) (blk0 V c 1 t) (blk0 V c 2 t)).2.2 _ _ Set.univ _)
      isplitl [H0]; · iexact H0
      isplitl [H1]; · iexact H1
      isplitl [H2]; · iexact H2
      isplitl [H3]; · iexact H3
      isplitl [H4]; · iexact H4
      isplitl [HC]; · iexact HC
      isplitl [HX]; · iexact HX
      iintro ⟨H0, H1, H2, H3, H4, ⟨%eC, HC⟩, ⟨%eX, HX⟩⟩
      isplitl [HC HX Hoth Hg]
      · isplitl [HC HX Hoth]
        · isplitl [HC]
          · unfold owns; iexists _; isplitr
            swap; · iexact HC
            ipureintro; exact View.read_writes_of_cover _ _ _ _ _ (coverC_first V c t h0)
          isplitl [HX]
          · unfold owns; iexists _; isplitr
            swap; · iexact HX
            ipureintro; exact View.read_writes_of_cover _ _ _ _ _ (coverX_first V c t h0)
          iexact Hoth
        iexact Hg
      isplitl [Ho]; · iexact Ho
      isplitl [H0]; · iexact H0
      isplitl [H1]; · iexact H1
      isplitl [H2]; · iexact H2
      isplitl [H3]; · iexists _; iexact H3
      iexists _; iexact H4
    · rw [dat0_Phi_castSucc V c t, PhiS_pos V c _ _ hz]
      iintro ⟨⟨⟨HC, HX, Hoth⟩, Hg⟩, Ho, ⟨%d0, H0⟩, ⟨%d1, H1⟩, ⟨%d2, H2⟩, ⟨%d3, H3⟩, ⟨%d4, H4⟩⟩
      iapply ((runFirst (F := F) c (grid0.coords t) (sm0_0 t) (hsm0_0 t) (sm0_1 t) (hsm0_1 t) (sm0_2 t) (hsm0_2 t) (sm0_3 t) (hsm0_3 t) (sm0_4 t) (hsm0_4 t) accC (Memref.isWhole_whole _) accX (Memref.isWhole_whole _) ((isFirst_iff t).mpr h0) (notLast_of_first t h0) (blk0 V c 0 t) (blk0 V c 1 t) (blk0 V c 2 t)).2.2 _ _ Set.univ _)
      isplitl [H0]; · iexact H0
      isplitl [H1]; · iexact H1
      isplitl [H2]; · iexact H2
      isplitl [H3]; · iexact H3
      isplitl [H4]; · iexact H4
      isplitl [HC]; · iexists _; iexact HC
      isplitl [HX]; · iexists _; iexact HX
      iintro ⟨H0, H1, H2, H3, H4, ⟨%eC, HC⟩, ⟨%eX, HX⟩⟩
      isplitl [HC HX Hoth Hg]
      · isplitl [HC HX Hoth]
        · isplitl [HC]
          · unfold owns; iexists _; isplitr
            swap; · iexact HC
            ipureintro; exact View.read_writes_of_cover _ _ _ _ _ (coverC_first V c t h0)
          isplitl [HX]
          · unfold owns; iexists _; isplitr
            swap; · iexact HX
            ipureintro; exact View.read_writes_of_cover _ _ _ _ _ (coverX_first V c t h0)
          iexact Hoth
        iexact Hg
      isplitl [Ho]; · iexact Ho
      isplitl [H0]; · iexact H0
      isplitl [H1]; · iexact H1
      isplitl [H2]; · iexact H2
      isplitl [H3]; · iexists _; iexact H3
      iexists _; iexact H4
  · have hz : t.val ≠ 0 := fun h => h0 (by rw [h])
    by_cases h1 : t.val % 16 = 15
    · have hl : isLast (grid0.coords t) := (isLast_iff t).mpr h1
      rw [show (dat0 V c).leavesExact 3 t = owns (c : Thread nD τ) (sm0_3 t) fullShare ((dat0 V c).after 3 t) from by
        unfold Dat.leavesExact; rw [live0_3 t hl], dat0_after3]
      rw [show (dat0 V c).leavesExact 4 t = owns (c : Thread nD τ) (sm0_4 t) fullShare ((dat0 V c).after 4 t) from by
        unfold Dat.leavesExact; rw [live0_4 t hl], dat0_after4]
      rw [accAt_last V c t h0 h1, outC_last V c t h0 h1, outX_last V c t h0 h1]
      unfold stepLast copyLast3 copyLast4; (try dsimp only)
      rw [dat0_Phi_castSucc V c t, PhiS_pos V c _ _ hz]
      iintro ⟨⟨⟨HC, HX, Hoth⟩, Hg⟩, Ho, ⟨%d0, H0⟩, ⟨%d1, H1⟩, ⟨%d2, H2⟩, ⟨%d3, H3⟩, ⟨%d4, H4⟩⟩
      iapply ((runLast (F := F) c (grid0.coords t) (sm0_0 t) (hsm0_0 t) (sm0_1 t) (hsm0_1 t) (sm0_2 t) (hsm0_2 t) (sm0_3 t) (hsm0_3 t) (sm0_4 t) (hsm0_4 t) accC (Memref.isWhole_whole _) accX (Memref.isWhole_whole _) (fun h => h0 ((isFirst_iff t).mp h)) ((isLast_iff t).mpr h1) (blk0 V c 0 t) (blk0 V c 1 t) (blk0 V c 2 t) (accAt V c (t.val - 1) (pred_lt t)).1 (accAt V c (t.val - 1) (pred_lt t)).2).2.2.2.2 Set.univ _)
      isplitl [H0]; · iexact H0
      isplitl [H1]; · iexact H1
      isplitl [H2]; · iexact H2
      isplitl [H3]; · iexists _; iexact H3
      isplitl [H4]; · iexists _; iexact H4
      isplitl [HC]; · iexact HC
      isplitl [HX]; · iexact HX
      iintro ⟨H0, H1, H2, ⟨%e3, H3⟩, ⟨%e4, H4⟩, ⟨%eC, HC⟩, ⟨%eX, HX⟩⟩
      isplitl [HC HX Hoth Hg]
      · isplitl [HC HX Hoth]
        · isplitl [HC]
          · unfold owns; iexists _; isplitr
            swap; · iexact HC
            ipureintro; exact View.read_writes_of_cover _ _ _ _ _ (coverC_last V c t h0 h1 _)
          isplitl [HX]
          · unfold owns; iexists _; isplitr
            swap; · iexact HX
            ipureintro; exact View.read_writes_of_cover _ _ _ _ _ (coverX_last V c t h0 h1 _)
          iexact Hoth
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover3_last V c t h0 h1 _)
      unfold owns; iexists _; isplitr
      swap; · iexact H4
      ipureintro; exact View.read_writes_of_cover _ _ _ _ _ (cover4_last V c t h0 h1 _)
    · have hnl : ¬isLast (grid0.coords t) := fun h => h1 ((isLast_iff t).mp h)
      rw [Dat.leavesExact_idle (dat0 V c) 3 t (idle0_3 t hnl) (noflush0_3 t hnl),
        Dat.leavesExact_idle (dat0 V c) 4 t (idle0_4 t hnl) (noflush0_4 t hnl)]
      rw [accAt_middle V c t h0 h1]
      unfold stepMiddle; (try dsimp only)
      rw [dat0_Phi_castSucc V c t, PhiS_pos V c _ _ hz]
      iintro ⟨⟨⟨HC, HX, Hoth⟩, Hg⟩, Ho, ⟨%d0, H0⟩, ⟨%d1, H1⟩, ⟨%d2, H2⟩, ⟨%d3, H3⟩, ⟨%d4, H4⟩⟩
      iapply ((runMiddle (F := F) c (grid0.coords t) (sm0_0 t) (hsm0_0 t) (sm0_1 t) (hsm0_1 t) (sm0_2 t) (hsm0_2 t) (sm0_3 t) (hsm0_3 t) (sm0_4 t) (hsm0_4 t) accC (Memref.isWhole_whole _) accX (Memref.isWhole_whole _) (fun h => h0 ((isFirst_iff t).mp h)) (fun h => h1 ((isLast_iff t).mp h)) (blk0 V c 0 t) (blk0 V c 1 t) (blk0 V c 2 t) (accAt V c (t.val - 1) (pred_lt t)).1 (accAt V c (t.val - 1) (pred_lt t)).2).2.2 _ _ Set.univ _)
      isplitl [H0]; · iexact H0
      isplitl [H1]; · iexact H1
      isplitl [H2]; · iexact H2
      isplitl [H3]; · iexact H3
      isplitl [H4]; · iexact H4
      isplitl [HC]; · iexact HC
      isplitl [HX]; · iexact HX
      iintro ⟨H0, H1, H2, H3, H4, ⟨%eC, HC⟩, ⟨%eX, HX⟩⟩
      isplitl [HC HX Hoth Hg]
      · isplitl [HC HX Hoth]
        · isplitl [HC]
          · unfold owns; iexists _; isplitr
            swap; · iexact HC
            ipureintro; exact View.read_writes_of_cover _ _ _ _ _ (coverC_middle V c t h0 h1 _)
          isplitl [HX]
          · unfold owns; iexists _; isplitr
            swap; · iexact HX
            ipureintro; exact View.read_writes_of_cover _ _ _ _ _ (coverX_middle V c t h0 h1 _)
          iexact Hoth
        iexact Hg
      isplitl [Ho]; · iexact Ho
      isplitl [H0]; · iexact H0
      isplitl [H1]; · iexact H1
      isplitl [H2]; · iexact H2
      isplitl [H3]; · iexists _; iexact H3
      iexists _; iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem phi_in0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the plain one back: the accumulators' contents are forgotten. -/
theorem phi_out0 (c : Dev nD) : (dat0 V c).Φ (Fin.last cfg0.N) ⊢ Pipeline.ΦA spec0 c := by
  have hN : cfg0.N = 64 := N_0
  rw [show (dat0 V c).Φ (Fin.last cfg0.N) = PhiS V c (Fin.last cfg0.N).val (Nat.le_of_lt_succ (Fin.last cfg0.N).isLt) from rfl,
    PhiS_pos V c _ _ (by rw [Fin.val_last]; omega), PhiA0_eq]
  iintro ⟨⟨HC, HX, Hoth⟩, Hg⟩
  isplitl [HC HX Hoth]
  · isplitl [HC]; · iexists _; iexact HC
    isplitl [HX]; · iexists _; iexact HX
    iexact Hoth
  iexact Hg

end

end Cert.Kernel.Hand

end
-- ==== Proof.K.R1Frame.lean ====
/- The second kernel region (the softmax-and-product kernel on its 4 × 8 grid): its proof data at a parameter
   V — the contents of the core's buffers when the region is entered — and its body obligation.

   At a grid point the body reads four whole staging buffers (a 512-row slab of the first operand, the
   square weight matrix, a square f32 block and a square bf16 block), reads the output's buffer without
   using what it finds, and overwrites the output's buffer with one whole-buffer value computed from the
   four inputs. So: every input buffer holds its window's block of the array it stages, whether the
   pipeline moved it there at this point or at an earlier one with the same block index; and the output
   buffer ends at a value that is a function of the four blocks alone. -/
import proofs.«175285_j78357383348331_2_alg».proof.Proof.Gen.Kernel.Launch
import proofs.«175285_j78357383348331_2_alg».proof.Proof.Gen.Kernel.Skeleton
import proofs.«175285_j78357383348331_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle with a 1024-long axis is looked at coordinate by coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- window w's block at point t, read off its array as the region finds it -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input's buffer holds the input's block at EVERY point. Where the pipeline fetched at this point that is
    what the fetch wrote. Where it did not, the block index is the one of the point before, the body there left
    the buffer as it found it, and so the buffer still holds the same block. Stated for any proof data whose
    array is V's and whose body leaves the block in place, one statement per input window. -/

theorem holds1_0 {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)

theorem holds1_1 {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)

theorem holds1_2 {c : Dev nD} (dat : Dat τ (Elt F) Unit ℕ (UR sig nD τ) ℕ cfg1 c) (hA : dat.A 2 = V c (Pipeline.arrRef spec1 2))
    (hafter : ∀ t, dat.after 2 t = blk1 V c 2 t) (t : Fin cfg1.N) (d) : dat.before 2 t d = blk1 V c 2 t :=
  (dat.before_in_eq_fetched 2 rfl (fun _ => rfl) (fun _ _ _ => rfl) (fun t => by rw [hafter]; unfold Dat.blockOf blk1; rw [hA]; try rfl) t d).trans
    (by unfold Dat.fetched Dat.blockOf blk1; rw [hA]; try rfl)

theorem holds1_3 {c : Dev nD} (dat : Dat τ (Elt F) Unit ℕ (UR sig nD τ) ℕ cfg1 c) (hA : dat.A 3 = V c (Pipeline.arrRef spec1 3))
    (hafter : ∀ t, dat.after 3 t = blk1 V c 3 t) (t : Fin cfg1.N) (d) : dat.before 3 t d = blk1 V c 3 t :=
  (dat.before_in_eq_fetched 3 rfl (fun _ => rfl) (fun _ _ _ => rfl) (fun t => by rw [hafter]; unfold Dat.blockOf blk1; rw [hA]; try rfl) t d).trans
    (by unfold Dat.fetched Dat.blockOf blk1; rw [hA]; try rfl)

/-! ## The body's accesses: each is the whole of its buffer -/

abbrev rA : Rect S1x512x1024 := Rect.unit (s := S1x512x1024) ![0, 0, 0] S1x512x1024.size inb_S1x512x1024_S1x512x1024_0_0_0
abbrev rB : Rect S1024x1024 := Rect.unit (s := S1024x1024) ![0, 0] S1024x1024.size inb_S1024x1024_S1024x1024_0_0
abbrev rC : Rect S1x1024x1024 := Rect.unit (s := S1x1024x1024) ![0, 0, 0] S1x1024x1024.size inb_S1x1024x1024_S1x1024x1024_0_0_0

/-! ## What the body leaves in the output's buffer -/

/-- what the body leaves in the output's staging buffer, from the four input blocks: its one store as a piece -/
def res1 (x0 : Vec F S1x512x1024 .f32) (x1 : Vec F S1024x1024 .f32) (x2 : Vec F S1x1024x1024 .f32) (x3 : Vec F S1x1024x1024 .bf16) : Vec F S1x512x1024 .f32 :=
  View.canon [⟨rA, k1_pay1 (View.ld x0 rA) (View.ld x1 rB) (View.ld x2 rC) (View.ld x3 rC)⟩]

/-- The one store's rectangle is the whole buffer, so every index of the buffer lies in it. -/
theorem cover1 (p0 : Vec F S1x512x1024 .f32) (y : S1x512x1024.Idx) :
    ∃ pc ∈ ([⟨rA, p0⟩] : List (View.Piece (Elt F) S1x512x1024 .f32)), y ∈ pc.1.set :=
  View.cover_of_tiled [⟨rA, p0⟩] S1x512x1024.size (by rfl) y

/-! ## The body's triple -/

set_option maxHeartbeats 1000000 in
/-- The kernel function on whole staging memrefs, the four inputs' at contents x0 … x3 and the output's at any
    contents, runs to a continuation that holds the inputs' unchanged and the output's at res1 of the inputs:
    the loads return the buffers' contents, the read of the output's buffer is not used, and the single store
    replaces the whole of the output's buffer. -/
theorem sound_kernel1 (c : Dev nD) (E : Set ℕ) (i : grid1.Coords)
    (arg2 : Memref sig .tc .vmem S1x512x1024 .f32) (harg2 : arg2.IsWhole) (arg3 : Memref sig .tc .vmem S1024x1024 .f32) (harg3 : arg3.IsWhole)
    (arg4 : Memref sig .tc .vmem S1x1024x1024 .f32) (harg4 : arg4.IsWhole) (arg5 : Memref sig .tc .vmem S1x1024x1024 .bf16) (harg5 : arg5.IsWhole)
    (arg6 : Memref sig .tc .vmem S1x512x1024 .f32) (harg6 : arg6.IsWhole)
    (x0 : Vec F S1x512x1024 .f32) (x1 : Vec F S1024x1024 .f32) (x2 : Vec F S1x1024x1024 .f32) (x3 : Vec F S1x1024x1024 .bf16) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (res1 x0 x1 x2 x3)) -∗ K ⟨⟩))
      ⊢ wp frame (wpE (defs₀ (F := F)) Variants.none c none) E (cc1__kernel2 i arg2 harg2 arg3 harg3 arg4 harg4 arg5 harg5 arg6 harg6) K := by
  simp only [cc1__kernel2_eq_skeleton]; unfold cc1__kernel2_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1 _)

/-! ## The region's proof data -/

/-- The proof data of the region on core c: the arrays as the region finds them; after the body at a point each
    input's buffer at its block and the output's at res1 of the four blocks; the invariant is the part of the
    core's state the region never touches; nothing owed; full shares. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => res1 (blk1 V c 0 t) (blk1 V c 1 t) (blk1 V c 2 t) (blk1 V c 3 t)
  Φ _ := Pipeline.ΦA spec1 c
  q _ := fullShare
  owed _ := 0

theorem dat1_A (c : Dev nD) (w : Fin cfg1.W) : (dat1 V c).A w = V c (Pipeline.arrRef spec1 w) := by
  dsimp only [dat1]

theorem dat1_after0 (c : Dev nD) (t : Fin cfg1.N) : (dat1 V c).after 0 t = blk1 V c 0 t := by dsimp only [dat1]
theorem dat1_after1 (c : Dev nD) (t : Fin cfg1.N) : (dat1 V c).after 1 t = blk1 V c 1 t := by dsimp only [dat1]
theorem dat1_after2 (c : Dev nD) (t : Fin cfg1.N) : (dat1 V c).after 2 t = blk1 V c 2 t := by dsimp only [dat1]
theorem dat1_after3 (c : Dev nD) (t : Fin cfg1.N) : (dat1 V c).after 3 t = blk1 V c 3 t := by dsimp only [dat1]
theorem dat1_after4 (c : Dev nD) (t : Fin cfg1.N) :
    (dat1 V c).after 4 t = res1 (blk1 V c 0 t) (blk1 V c 1 t) (blk1 V c 2 t) (blk1 V c 3 t) := by dsimp only [dat1]

/-- Each input's current buffer holds its block at every point. -/
theorem dat1_before0 (c : Dev nD) (t : Fin cfg1.N) (d) : (dat1 V c).before 0 t d = blk1 V c 0 t :=
  holds1_0 V (dat1 V c) (dat1_A V c 0) (dat1_after0 V c) t d
theorem dat1_before1 (c : Dev nD) (t : Fin cfg1.N) (d) : (dat1 V c).before 1 t d = blk1 V c 1 t :=
  holds1_1 V (dat1 V c) (dat1_A V c 1) (dat1_after1 V c) t d
theorem dat1_before2 (c : Dev nD) (t : Fin cfg1.N) (d) : (dat1 V c).before 2 t d = blk1 V c 2 t :=
  holds1_2 V (dat1 V c) (dat1_A V c 2) (dat1_after2 V c) t d
theorem dat1_before3 (c : Dev nD) (t : Fin cfg1.N) (d) : (dat1 V c).before 3 t d = blk1 V c 3 t :=
  holds1_3 V (dat1 V c) (dat1_A V c 3) (dat1_after3 V c) t d

/-! ## The body obligation, at a generic point -/

/-- What the body receives at point t: the invariant, the debt, and each window's current buffer at the contents
    the proof data says it has before the body runs there. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- What the body hands back at point t: the same invariant and debt, and each window's buffer at what the proof
    data says the body leaves there. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- At any point the four input buffers hold their windows' blocks, so the triple above applies with x0 … x3 the
    blocks; the body reads neither the invariant nor the debt, which are returned as received. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [dat1_before0, dat1_before1, dat1_before2, dat1_before3]
  rw [show (dat1 V c).Φ t.succ = (dat1 V c).Φ t.castSucc from rfl,
    show (dat1 V c).owesAt () t.succ = (dat1 V c).owesAt () t.castSucc from rfl,
    dat1_after0, dat1_after1, dat1_after2, dat1_after3, dat1_after4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (blk1 V c 0 t) (blk1 V c 1 t) (blk1 V c 2 t) (blk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The region's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Run.lean ====
/-
  The run of the two-region program: the first region forms, per batch, the two sums over the 4096 positions (kept in
  two square arrays, one in f32 and one rounded to bf16), the second region forms the filtered query, the logits, the
  softmax of every row and the product with the second square array.  No host operation stands between or around
  them, so a core's buffers pass through three boundaries: as launched, after the first region, after the second.
  Each region changes only the arrays of its own output windows, to what its write-backs leave; every other buffer is
  what it was at the region's entry.  From that: the four arguments end as launched, and the result array ends at
  what the second region's write-backs leave when the region is entered from the first region's exit contents.
-/
import proofs.«175285_j78357383348331_2_alg».proof.Proof.Gen.Kernel.Launch
import proofs.«175285_j78357383348331_2_alg».proof.Proof.Gen.Kernel.Skeleton
import proofs.«175285_j78357383348331_2_alg».proof.Proof.Gen.Kernel.Points
import proofs.«175285_j78357383348331_2_alg».proof.Proof.K.R0Body
import proofs.«175285_j78357383348331_2_alg».proof.Proof.K.R1Frame
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle with a 1024-long axis is looked at coordinate by coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## A core's buffers at the three boundaries -/

/-- Core c's buffers as launched. -/
abbrev B0 : Dev nD → Valuation τ sig (Elt F) := fun c b => (s₀ m ρ).mem ((c : Dev nD), b)
/-- The first region's entry contents: the launch memory, read at the core's references. -/
abbrev E0 : (c : Dev nD) → (b : Ref sig .tc) → Buf (Elt F) ((c : Thread nD τ).loc b) := fun c b => B0 m ρ c b

/-- After the first region: its windows' arrays at what the pipeline leaves, every other buffer as launched. -/
def B1 (c : Dev nD) : Valuation τ sig (Elt F) :=
  Pipeline.withArrays spec0 c (B0 m ρ c) fun w => (dat0 (E0 m ρ) c).arrAt w cfg0.N
theorem B1_arr (c : Dev nD) (w : Fin cfg0.W) :
    B1 m ρ c (Proc.devRef .tc (Pipeline.arrRef spec0 w)) = (dat0 (E0 m ρ) c).arrAt w cfg0.N := by
  unfold B1; exact Pipeline.withArrays_arr spec0 launch0.win.arr_inj c _ _ w
theorem B1_of_ne (c : Dev nD) (b : Ref sig .tc) (hb : ∀ w, Pipeline.arrRef spec0 w ≠ b) :
    B1 m ρ c (Proc.devRef .tc b) = B0 m ρ c (Proc.devRef .tc b) := by
  unfold B1; exact Pipeline.withArrays_of_ne spec0 c _ _ b hb
/-- The second region's entry contents: the first region's exit contents. -/
abbrev E1 : (c : Dev nD) → (b : Ref sig .tc) → Buf (Elt F) ((c : Thread nD τ).loc b) := fun c b => B1 m ρ c b

/-- After the second region: its windows' arrays at what the pipeline leaves, every other buffer as the first region left it. -/
def B2 (c : Dev nD) : Valuation τ sig (Elt F) :=
  Pipeline.withArrays spec1 c (B1 m ρ c) fun w => (dat1 (E1 m ρ) c).arrAt w cfg1.N
theorem B2_arr (c : Dev nD) (w : Fin cfg1.W) :
    B2 m ρ c (Proc.devRef .tc (Pipeline.arrRef spec1 w)) = (dat1 (E1 m ρ) c).arrAt w cfg1.N := by
  unfold B2; exact Pipeline.withArrays_arr spec1 launch1.win.arr_inj c _ _ w
theorem B2_of_ne (c : Dev nD) (b : Ref sig .tc) (hb : ∀ w, Pipeline.arrRef spec1 w ≠ b) :
    B2 m ρ c (Proc.devRef .tc b) = B1 m ρ c (Proc.devRef .tc b) := by
  unfold B2; exact Pipeline.withArrays_of_ne spec1 c _ _ b hb
/-- The exit contents of the second region, read at the core's references. -/
abbrev E2 : (c : Dev nD) → (b : Ref sig .tc) → Buf (Elt F) ((c : Thread nD τ).loc b) := fun c b => B2 m ρ c b

/-! ### What the second region is entered from -/

/-- The f32 square array holds what the first region's fourth window leaves. -/
theorem E1_out0 (c : Dev nD) : E1 m ρ c main_v0_0 = (dat0 (E0 m ρ) c).arrAt 3 cfg0.N := B1_arr m ρ c 3
/-- The bf16 square array holds what the first region's fifth window leaves. -/
theorem E1_out1 (c : Dev nD) : E1 m ρ c main_v0_1 = (dat0 (E0 m ρ) c).arrAt 4 cfg0.N := B1_arr m ρ c 4
/-- The first region reads q, k and v through input windows and never sees w: all four are as launched. -/
theorem E1_arg0 (c : Dev nD) : E1 m ρ c main_arg0 = m ((c : Thread nD τ).loc main_arg0) :=
  (B1_arr m ρ c 0).trans (((dat0 (E0 m ρ) c).arrAt_in 0 rfl _).trans (dat0_A (E0 m ρ) c 0))
theorem E1_arg1 (c : Dev nD) : E1 m ρ c main_arg1 = m ((c : Thread nD τ).loc main_arg1) :=
  (B1_arr m ρ c 1).trans (((dat0 (E0 m ρ) c).arrAt_in 1 rfl _).trans (dat0_A (E0 m ρ) c 1))
theorem E1_arg2 (c : Dev nD) : E1 m ρ c main_arg2 = m ((c : Thread nD τ).loc main_arg2) :=
  (B1_arr m ρ c 2).trans (((dat0 (E0 m ρ) c).arrAt_in 2 rfl _).trans (dat0_A (E0 m ρ) c 2))
theorem E1_arg3 (c : Dev nD) : E1 m ρ c main_arg3 = m ((c : Thread nD τ).loc main_arg3) :=
  B1_of_ne m ρ c main_arg3 (by decide)

/-! ### What the program ends with -/

/-- The result array holds what the second region's fifth window leaves. -/
theorem E2_out (c : Dev nD) : E2 m ρ c main_v1 = (dat1 (E1 m ρ) c).arrAt 4 cfg1.N := B2_arr m ρ c 4
/-- The second region reads q and w through input windows and never sees k and v. -/
theorem E2_arg0 (c : Dev nD) : E2 m ρ c main_arg0 = m ((c : Thread nD τ).loc main_arg0) :=
  (B2_arr m ρ c 0).trans ((((dat1 (E1 m ρ) c).arrAt_in 0 rfl _).trans (dat1_A (E1 m ρ) c 0)).trans (E1_arg0 m ρ c))
theorem E2_arg3 (c : Dev nD) : E2 m ρ c main_arg3 = m ((c : Thread nD τ).loc main_arg3) :=
  (B2_arr m ρ c 1).trans ((((dat1 (E1 m ρ) c).arrAt_in 1 rfl _).trans (dat1_A (E1 m ρ) c 1)).trans (E1_arg3 m ρ c))
theorem E2_arg1 (c : Dev nD) : E2 m ρ c main_arg1 = m ((c : Thread nD τ).loc main_arg1) :=
  (B2_of_ne m ρ c main_arg1 (by decide)).trans (E1_arg1 m ρ c)
theorem E2_arg2 (c : Dev nD) : E2 m ρ c main_arg2 = m ((c : Thread nD τ).loc main_arg2) :=
  (B2_of_ne m ρ c main_arg2 (by decide)).trans (E1_arg2 m ρ c)

/-- At the first region's exit each of its arrays holds what the pipeline leaves and every other buffer what it held at entry. -/
theorem left0 (c : Dev nD) (w : Fin cfg0.W) : (dat0 (E0 m ρ) c).arrAt w cfg0.N = E1 m ρ c (Pipeline.arrRef spec0 w) :=
  (B1_arr m ρ c w).symm
theorem kept0 (c : Dev nD) : ∀ b, b ∉ Finset.univ.image (Pipeline.arrRef spec0) → E1 m ρ c b = E0 m ρ c b :=
  fun b hb => B1_of_ne m ρ c b fun w e => hb (Finset.mem_image.mpr ⟨w, Finset.mem_univ _, e⟩)
/-- The same at the second region's exit. -/
theorem left1 (c : Dev nD) (w : Fin cfg1.W) : (dat1 (E1 m ρ) c).arrAt w cfg1.N = E2 m ρ c (Pipeline.arrRef spec1 w) :=
  (B2_arr m ρ c w).symm
theorem kept1 (c : Dev nD) : ∀ b, b ∉ Finset.univ.image (Pipeline.arrRef spec1) → E2 m ρ c b = E1 m ρ c b :=
  fun b hb => B2_of_ne m ρ c b fun w e => hb (Finset.mem_image.mpr ⟨w, Finset.mem_univ _, e⟩)

/-! ## The proof data of both regions, and what a core holds beside its buffers -/

/-- Neither pipeline has a prefetched table. -/
abbrev admNone : (p : Fin 2) → (pcfgs (F := F) p).Adm := fun p => (cfgs p).toPCfg_adm
/-- Each region's proof data at the contents the region is entered from; a literal case split, so that the pinned
    configuration at a numeral reduces to the printed one. -/
def pdats : (p : Fin 2) → (c : Dev nD) → Dat τ (Elt F) Unit ℕ (UR sig nD τ) ℕ (Pipeline.pin (pcfgs (F := F)) admNone p) c
  | ⟨0, _⟩ => fun c => dat0 (E0 m ρ) c
  | ⟨1, _⟩ => fun c => dat1 (E1 m ρ) c
/-- No core waits for another: no level is assigned. -/
abbrev noLevels : GSem nD τ sig → Finset Unit := fun _ => ∅
abbrev levelZero : GSem nD τ sig → Unit → ℕ := fun _ _ => 0
/-- Beside its buffers a core holds its generator register, at some state, and owes nothing. -/
abbrev beside (c : Dev nD) : sProp 𝕄 := iprop((∃ r, prngReg c r) ∗ ∃ W, owes (c : Thread nD τ) (0 : CellTallies nD τ sig Unit) W)
/-- The last thread state without the dues: every unscoped buffer at the last boundary's contents, the register. -/
abbrev atEnd (c : Dev nD) : sProp 𝕄 := iprop(StableHlo.held (c : Thread nD τ) (Pipeline.ucRefs τ sig) (B2 m ρ c) ∗ ∃ r, prngReg c r)
/-- An unscoped reference of the core is among those the thread state holds. -/
theorem unscoped_mem (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The two regions as segments

Each region is entered holding every unscoped buffer at the boundary's contents; its windows' arrays are split out of
them and put back at the exit contents; the generator register goes into the region's invariant and comes back.  The
first region's invariant also carries its two accumulators from point to point; it is the plain one before the first
point and after the last. -/

-- a library lemma stated over the pinned configuration unifies with the printed one only when unification may unfold
-- plain definitions in a metavariable's type
set_option backward.isDefEq.respectTransparency.types false in
def reg0 : Pipeline.RegionSeg (pcfgs (F := F)) admNone (pdats m ρ) () defs₀ Variants.none noLevels levelZero 0 where
  win := launch0.win.to₀
  block_pos := launch0.block_pos
  stage_whole := launch0.stage_whole
  K := PEmpty
  osem k := k.elim
  ho := Pipeline.OwnSemFacts.none _
  hbody c := (body_obligation0 (E0 m ρ) c).loose
  hwaits := Pipeline.hwaits_of_owed_zero _ _ _ _ noLevels levelZero 0 fun _ _ => rfl
  pre c := iprop(StableHlo.held (c : Thread nD τ) (Pipeline.ucRefs τ sig) (B0 m ρ c) ∗ beside c)
  post c := iprop(StableHlo.held (c : Thread nD τ) (Pipeline.ucRefs τ sig) (B1 m ρ c) ∗ beside c)
  X c := iprop(∃ r, prngReg c r)
  Y c := iprop(∃ r, prngReg c r)
  Z c := Pipeline.unscopedRest (Ix := Unit) (Name := ℕ) (U := UR sig nD τ) (Lvl := ℕ) spec0 c (E0 m ρ c)
  hentry c := by
    rw [Pipeline.ownSems0_none]
    have harr := Pipeline.arrays_of_unscopedBufs (p := 0) (pcfgs (F := F)) admNone (pdats m ρ) launch0.win launch0.arr_whole c
      ((pdats m ρ 0 c).share_full fun _ => rfl) (E0 m ρ c) fun _ => rfl
    rw [Pipeline.unscopedBufs_held] at harr
    iintro ⟨⟨Hbufs, Hreg, Howes⟩, -, -⟩
    ihave Hs := harr $$ Hbufs
    icases Hs with ⟨Harr, Hrest⟩
    imodintro
    isplitl [Harr]; · iexact Harr
    isplitr; · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩; iexists W; isplitr; · ipureintro; exact fun _ _ => Or.inl trivial
      iexact Howes
    isplitl [Hreg]; · iexact Hreg
    iexact Hrest
  hin c := by
    refine .trans ?_ (phi_in0 (E0 m ρ) c)
    unfold Pipeline.ΦA
    iintro ⟨Hreg, -, Hstage⟩
    isplitl [Hstage]; · iexact Hstage
    iexact Hreg
  hout c := by
    rw [Pipeline.ownSems0_none]
    refine (phi_out0 (E0 m ρ) c).trans ?_
    unfold Pipeline.ΦA
    iintro ⟨Hstage, Hreg⟩
    isplitl [Hreg]; · iexact Hreg
    isplitr; · iempintro
    iexact Hstage
  hexit c := by
    have hback := Pipeline.unscopedBufs_of_arrays (p := 0) (pcfgs (F := F)) admNone (Ix := Unit) (Name := ℕ) (U := UR sig nD τ) (Lvl := ℕ)
      launch0.win launch0.arr_whole c (pdats m ρ) ((pdats m ρ 0 c).share_full fun _ => rfl)
      (E0 m ρ c) (E1 m ρ c) ((pdats m ρ 0 c).arrAt · cfg0.N) (left0 m ρ c) (kept0 m ρ c)
    rw [Pipeline.unscopedBufs_held] at hback
    iintro ⟨Harr, Howes, Hreg, Hrest⟩
    imodintro
    isplitl [Harr Hrest]
    · iapply hback; isplitl [Harr] <;> iassumption
    isplitl [Hreg]; · iexact Hreg
    unfold Pipeline.Dat.owesAt Pipeline.owesWithin
    icases Howes with ⟨%W, -, Howes⟩; iexists W; iexact Howes

-- a library lemma stated over the pinned configuration unifies with the printed one only when unification may unfold
-- plain definitions in a metavariable's type
set_option backward.isDefEq.respectTransparency.types false in
def reg1 : Pipeline.RegionSeg (pcfgs (F := F)) admNone (pdats m ρ) () defs₀ Variants.none noLevels levelZero 1 where
  win := launch1.win.to₀
  block_pos := launch1.block_pos
  stage_whole := launch1.stage_whole
  K := PEmpty
  osem k := k.elim
  ho := Pipeline.OwnSemFacts.none _
  hbody c := (body_obligation1 (E1 m ρ) c).loose
  hwaits := Pipeline.hwaits_of_owed_zero _ _ _ _ noLevels levelZero 1 fun _ _ => rfl
  pre c := iprop(StableHlo.held (c : Thread nD τ) (Pipeline.ucRefs τ sig) (B1 m ρ c) ∗ beside c)
  post c := iprop(atEnd m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E1 m ρ c)
  hentry c := by
    rw [Pipeline.ownSems0_none]
    have harr := Pipeline.arrays_of_unscopedBufs (p := 1) (pcfgs (F := F)) admNone (pdats m ρ) launch1.win launch1.arr_whole c
      ((pdats m ρ 1 c).share_full fun _ => rfl) (E1 m ρ c) fun _ => rfl
    rw [Pipeline.unscopedBufs_held] at harr
    iintro ⟨⟨Hbufs, Hreg, Howes⟩, -, -⟩
    ihave Hs := harr $$ Hbufs
    icases Hs with ⟨Harr, Hrest⟩
    imodintro
    isplitl [Harr]; · iexact Harr
    isplitr; · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩; iexists W; isplitr; · ipureintro; exact fun _ _ => Or.inl trivial
      iexact Howes
    isplitl [Hreg]; · iexact Hreg
    iexact Hrest
  hin c := by
    rw [show (pdats m ρ 1 c).Φ 0 = Pipeline.ΦA spec1 c from rfl]; unfold Pipeline.ΦA
    iintro ⟨Hreg, -, Hstage⟩
    isplitl [Hstage]; · iexact Hstage
    iexact Hreg
  hout c := by
    rw [Pipeline.ownSems0_none, show (pdats m ρ 1 c).Φ (Fin.last _) = Pipeline.ΦA spec1 c from rfl]; unfold Pipeline.ΦA
    iintro ⟨Hstage, Hreg⟩
    isplitl [Hreg]; · iexact Hreg
    isplitr; · iempintro
    iexact Hstage
  hexit c := by
    have hback := Pipeline.unscopedBufs_of_arrays (p := 1) (pcfgs (F := F)) admNone (Ix := Unit) (Name := ℕ) (U := UR sig nD τ) (Lvl := ℕ)
      launch1.win launch1.arr_whole c (pdats m ρ) ((pdats m ρ 1 c).share_full fun _ => rfl)
      (E1 m ρ c) (E2 m ρ c) ((pdats m ρ 1 c).arrAt · cfg1.N) (left1 m ρ c) (kept1 m ρ c)
    rw [Pipeline.unscopedBufs_held] at hback
    iintro ⟨Harr, Howes, Hreg, Hrest⟩
    imodintro
    isplitl [Harr Hrest Hreg]
    · isplitl [Harr Hrest]
      · iapply hback; isplitl [Harr] <;> iassumption
      iexact Hreg
    unfold Pipeline.Dat.owesAt Pipeline.owesWithin
    icases Howes with ⟨%W, -, Howes⟩; iexists W; iexact Howes

/-! ## The program as its two segments, and the launch -/

abbrev segs : List (Pipeline.Seg (pcfgs (F := F)) admNone (pdats m ρ) () defs₀ Variants.none noLevels levelZero) :=
  [ .region (reg0 m ρ), .region (reg1 m ρ) ]
/-- The program is the run of the two segments. -/
theorem main_run (c : Dev nD) : main (F := F) c = Pipeline.Seg.run (segs m ρ) :=
  main_segs admNone (pdats m ρ) () Variants.none noLevels levelZero (reg0 m ρ) (reg1 m ρ) c

-- the launch lemma's implicit arguments are found by unifying its conclusion with this one, which takes unfolding
-- plain definitions in a metavariable's type
set_option backward.isDefEq.respectTransparency.types false in
/-- From any memory with zero counters every weakly fair execution of the program on the cores terminates without a
    fault, and in every final state the result array holds what the second region's write-backs leave and the four
    arguments hold what they were launched with. -/
theorem run_all : θ_run defs (onTc (τ := τ) (main (F := F))) ⟨m, fun _ => 0, ρ⟩ (fun r => ∀ c : Dev nD,
        r.2.mem ((c.tc : Thread nD τ).loc main_v1) = (dat1 (E1 m ρ) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) admNone (pdats m ρ) () cellOf_inj emb₁ defs₀ Variants.none noLevels levelZero m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ beside c)) (Tₙ := atEnd m ρ)
    (hch := ⟨fun _ => .rfl, fun _ => .rfl, fun _ => .rfl⟩)
    (hinit := by
      refine Pipeline.initEach noLevels levelZero fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hbufs, -, Howes, -, Hreg, -⟩, -⟩
      imodintro
      isplitl [Hbufs]; · iexact Hbufs
      isplitl [Hreg]; · iexists _; iexact Hreg
      iexists ∅; iexact Howes)
    (QY := fun c s => ∀ b ∈ Pipeline.ucRefs τ sig, s.mem (((c : Thread nD τ)).1, b) = B2 m ρ c b)
    (hfin := fun c s' => by
      iintro ⟨⟨Hbufs, -⟩, HSI⟩
      unfold StableHlo.held
      imodintro
      iapply (pointsTo_read_all (Pipeline.ucRefs τ sig) (fun b => (((c : Thread nD τ)).1, b)) (B2 m ρ c) s')
      isplitl [Hbufs] <;> iassumption)
    (hQ := fun s h c =>
      ⟨(h c _ (unscoped_mem main_v1 (by decide))).trans (E2_out m ρ c),
       (h c _ (unscoped_mem main_arg0 (by decide))).trans (E2_arg0 m ρ c),
       (h c _ (unscoped_mem main_arg1 (by decide))).trans (E2_arg1 m ρ c),
       (h c _ (unscoped_mem main_arg2 (by decide))).trans (E2_arg2 m ρ c),
       (h c _ (unscoped_mem main_arg3 (by decide))).trans (E2_arg3 m ρ c)⟩)

end Cert.Kernel.Hand

end
-- ==== Proof.KI.R0Base.lean ====
/-
  The first kernel region (the accumulation of the two 1024 × 1024 matrices over the 16 blocks of 256 sequence
  positions of each batch): what its runs share.  The grid has 4 · 16 points, point t = 16 · b + j being block j of
  batch b.  At j = 0 the body clears its two accumulators, at every point it adds the block's two products to them, and
  at j = 15 it copies them into the two output blocks of batch b, which are written back there and nowhere else.
-/
import proofs.«175285_j78357383348331_2_alg».proof.Proof.Gen.KernelIdeal.Launch
import proofs.«175285_j78357383348331_2_alg».proof.Proof.Gen.KernelIdeal.Skeleton
import proofs.«175285_j78357383348331_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
-- the buffer contents when the region is entered: a parameter
variable (V : (c : Dev nD) → (b : Ref sig .tc) → Buf (Elt F) ((c : Thread nD τ).loc b))

/-- Window w's block at point t, read off its array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point (all three inputs are fetched at every
    point, never cut, never idle), for any proof data over the entry contents that leaves the block in place. -/
theorem before0_in0 {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)
theorem before0_in1 {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)
theorem before0_in2 {c : Dev nD} (dat : Dat τ (Elt F) Unit ℕ (UR sig nD τ) ℕ cfg0 c) (hA : dat.A 2 = V c (Pipeline.arrRef spec0 2))
    (hafter : ∀ t, dat.after 2 t = blk0 V c 2 t) (t : Fin cfg0.N) (d) : dat.before 2 t d = blk0 V c 2 t :=
  (dat.before_in_eq_fetched 2 rfl (fun _ => rfl) (fun _ _ _ => rfl) (fun t => by rw [hafter]; unfold Dat.blockOf blk0; rw [hA]; try rfl) t d).trans
    (by unfold Dat.fetched Dat.blockOf blk0; rw [hA]; try rfl)

end

/-! ## The body's two branches, decided over the grid -/

/-- The body clears the accumulators: the block number is 0. -/
abbrev isFirst (i : grid0.Coords) : Prop := (Scalar.cmpi .ne (Scalar.extui (Scalar.cmpi .eq (BitVec.ofNat 32 (i 1).val) 0#32)) 0#32) = 1#1
theorem isFirst_iff : ∀ t : Fin cfg0.N, isFirst (grid0.coords t) ↔ t.val % 16 = 0 :=
  (by decide +kernel : ∀ t : Fin grid0.N, isFirst (grid0.coords t) ↔ t.val % 16 = 0)
/-- The body copies the accumulators out: the block number is 15. -/
abbrev isLast (i : grid0.Coords) : Prop := k0_cond2 i = 1#1
theorem isLast_iff : ∀ t : Fin cfg0.N, isLast (grid0.coords t) ↔ t.val % 16 = 15 :=
  (by decide +kernel : ∀ t : Fin grid0.N, isLast (grid0.coords t) ↔ t.val % 16 = 15)

/-! ## Where the windows are idle -/

theorem live0_0 : ∀ t : Fin cfg0.N, cfg0.idle 0 (grid0.coords t) = false := by decide +kernel
theorem live0_1 : ∀ t : Fin cfg0.N, cfg0.idle 1 (grid0.coords t) = false := by decide +kernel
theorem live0_2 : ∀ t : Fin cfg0.N, cfg0.idle 2 (grid0.coords t) = false := by decide +kernel
/-- Away from the last block of a batch the two outputs are idle and not written back; at the last block they are live. -/
theorem idle0_3 : ∀ t : Fin cfg0.N, ¬isLast (grid0.coords t) → cfg0.idle 3 (grid0.coords t) = true := by decide +kernel
theorem idle0_4 : ∀ t : Fin cfg0.N, ¬isLast (grid0.coords t) → cfg0.idle 4 (grid0.coords t) = true := by decide +kernel
theorem noflush0_3 : ∀ t : Fin cfg0.N, ¬isLast (grid0.coords t) → (cfg0.win 3).flush t = false := by decide +kernel
theorem noflush0_4 : ∀ t : Fin cfg0.N, ¬isLast (grid0.coords t) → (cfg0.win 4).flush t = false := by decide +kernel
theorem live0_3 : ∀ t : Fin cfg0.N, isLast (grid0.coords t) → cfg0.idle 3 (grid0.coords t) = false := by decide +kernel
theorem live0_4 : ∀ t : Fin cfg0.N, isLast (grid0.coords t) → cfg0.idle 4 (grid0.coords t) = false := by decide +kernel

/-! ## The memrefs the body is called with -/

abbrev sm0_0 (t : Fin cfg0.N) : Memref sig .tc .vmem S1x256x1024 .f32 := win0_0.stage (cfg0.slots t 0)
abbrev hsm0_0 (t : Fin cfg0.N) : (sm0_0 t).IsWhole := Facts₀.hstage0_0 ((cfg0.slots t 0).cast Facts₀.nbuf0_0)
abbrev sm0_1 (t : Fin cfg0.N) : Memref sig .tc .vmem S1x256x1024 .f32 := win0_1.stage (cfg0.slots t 1)
abbrev hsm0_1 (t : Fin cfg0.N) : (sm0_1 t).IsWhole := Facts₀.hstage0_1 ((cfg0.slots t 1).cast Facts₀.nbuf0_1)
abbrev sm0_2 (t : Fin cfg0.N) : Memref sig .tc .vmem S1x256x1024 .f32 := win0_2.stage (cfg0.slots t 2)
abbrev hsm0_2 (t : Fin cfg0.N) : (sm0_2 t).IsWhole := Facts₀.hstage0_2 ((cfg0.slots t 2).cast Facts₀.nbuf0_2)
abbrev sm0_3 (t : Fin cfg0.N) : Memref sig .tc .vmem S1x1024x1024 .f32 := win0_3.stage (cfg0.slots t 3)
abbrev hsm0_3 (t : Fin cfg0.N) : (sm0_3 t).IsWhole := Facts₀.hstage0_3 ((cfg0.slots t 3).cast Facts₀.nbuf0_3)
abbrev sm0_4 (t : Fin cfg0.N) : Memref sig .tc .vmem S1x1024x1024 .bf16 := win0_4.stage (cfg0.slots t 4)
abbrev hsm0_4 (t : Fin cfg0.N) : (sm0_4 t).IsWhole := Facts₀.hstage0_4 ((cfg0.slots t 4).cast Facts₀.nbuf0_4)
/-- The two accumulators: whole scoped buffers of the kernel's own. -/
abbrev accC : Memref sig .tc .vmem S1024x1024 .f32 := Memref.whole cc0_scratch0
abbrev accX : Memref sig .tc .vmem S1024x1024 .f32 := Memref.whole cc0_scratch1
/-- Views through which buffer contents are stated (which buffer of a pair is immaterial). -/
abbrev viewC : View sig .tc .vmem S1024x1024 .f32 := accC.view
abbrev viewX : View sig .tc .vmem S1024x1024 .f32 := accX.view
abbrev viewO3 : View sig .tc .vmem S1x1024x1024 .f32 := (Memref.whole cc0_stg3_0 : Memref sig .tc .vmem S1x1024x1024 .f32).view
abbrev viewO4 : View sig .tc .vmem S1x1024x1024 .bf16 := (Memref.whole cc0_stg4_0 : Memref sig .tc .vmem S1x1024x1024 .bf16).view

/-- The core's other scoped buffers (the second region's staging buffers), each whole at some contents: the first region
    never touches them. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f))

/-- The region's plain invariant (every scoped buffer that is no staging buffer at some contents, the generator register at
    some state) with the two accumulators split off as memrefs. -/
theorem PhiA0_eq (c : Dev nD) :
    (Pipeline.ΦA spec0 c : sProp 𝕄)
      = iprop(iprop((∃ d, owns (c : Thread nD τ) accC fullShare d) ∗ (∃ d, owns (c : Thread nD τ) accX fullShare d) ∗ others0 (F := F) c) ∗ (∃ r, prngReg c r)) := by
  unfold Pipeline.ΦA others0; rw [scopedRest0_eq]; simp only [accC, accX, owns_whole]; try rfl

end Cert.KernelIdeal.Hand

end
-- ==== Proof.KI.R0RunFirst.lean ====
/-
  The first kernel's body at the first block of a batch: it clears both accumulators and adds the block's two products;
  the two output blocks are left as found.  The stores it leaves in each accumulator are found by running the body.
-/
import proofs.«175285_j78357383348331_2_alg».proof.Proof.KI.R0Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- At the first block of a batch (the clearing branch taken, the copying branch not): from the three input blocks at
    their contents, the two output buffers at anything (handed back untouched) and the accumulators at anything, the body
    runs to the end leaving each accumulator with the listed stores written. -/
noncomputable def runFirst (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x256x1024 .f32) (harg4 : arg4.IsWhole) (arg5 : Memref sig .tc .vmem S1x1024x1024 .f32) (harg5 : arg5.IsWhole) (arg6 : Memref sig .tc .vmem S1x1024x1024 .bf16) (harg6 : arg6.IsWhole) (arg7 : Memref sig .tc .vmem S1024x1024 .f32) (harg7 : arg7.IsWhole) (arg8 : Memref sig .tc .vmem S1024x1024 .f32) (harg8 : arg8.IsWhole) (hc0 : isFirst i) (hc1 : ¬isLast i)
    (x0 x1 x2 : Vec F S1x256x1024 .f32) :
    Σ' (LC : List (View.Piece (Elt F) S1024x1024 .f32)), { LX : List (View.Piece (Elt F) S1024x1024 .f32) //
      ∀ (xi3 : Vec F S1x1024x1024 .f32) (xi4 : Vec F S1x1024x1024 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4
            ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ f, arg7.view.loc (c : Thread nD τ) ↦[arg7.view.set]{fullShare} arg7.view.writes (Elt F) f LC) ∗ (∃ f, arg8.view.loc (c : Thread nD τ) ↦[arg8.view.set]{fullShare} arg8.view.writes (Elt F) f LX)) -∗ K ⟨⟩))
          ⊢ wp frame (wpE (defs₀ (F := F)) Variants.none c none) E (cc0__kernel1 i arg2 harg2 arg3 harg3 arg4 harg4 arg5 harg5 arg6 harg6 arg7 harg7 arg8 harg8) K } := by
  refine ⟨?_, ?_, fun xi3 xi4 E K => ?run⟩
  case run =>
    simp only [cc0__kernel1_eq_skeleton]; unfold cc0__kernel1_skel
    unfold owns
    iintro ⟨⟨%f0, %hf0, H0⟩, ⟨%f1, %hf1, H1⟩, ⟨%f2, %hf2, H2⟩, ⟨%f3, %hf3, H3⟩, ⟨%f4, %hf4, H4⟩, ⟨%dC, %fC, -, HC⟩, ⟨%dX, %fX, -, HX⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HC]; · iexists _; iexact HC
    iexists _; iexact HX

end Cert.KernelIdeal.Hand

end
-- ==== Proof.KI.R0RunMiddle.lean ====
/-
  The first kernel's body at a block of a batch that is neither the first nor the last: it adds the block's two products
  to the accumulators; the two output blocks are left as found.
-/
import proofs.«175285_j78357383348331_2_alg».proof.Proof.KI.R0Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- At a middle block of a batch (neither branch taken): from the three input blocks, the two output buffers at anything
    (handed back untouched) and the accumulators at what the block before left, the body runs to the end leaving each
    accumulator with the listed stores written. -/
noncomputable def runMiddle (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x256x1024 .f32) (harg4 : arg4.IsWhole) (arg5 : Memref sig .tc .vmem S1x1024x1024 .f32) (harg5 : arg5.IsWhole) (arg6 : Memref sig .tc .vmem S1x1024x1024 .bf16) (harg6 : arg6.IsWhole) (arg7 : Memref sig .tc .vmem S1024x1024 .f32) (harg7 : arg7.IsWhole) (arg8 : Memref sig .tc .vmem S1024x1024 .f32) (harg8 : arg8.IsWhole) (hc0 : ¬isFirst i) (hc1 : ¬isLast i)
    (x0 x1 x2 : Vec F S1x256x1024 .f32) (aC aX : Vec F S1024x1024 .f32) :
    Σ' (LC : List (View.Piece (Elt F) S1024x1024 .f32)), { LX : List (View.Piece (Elt F) S1024x1024 .f32) //
      ∀ (xi3 : Vec F S1x1024x1024 .f32) (xi4 : Vec F S1x1024x1024 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4
            ∗ owns (c : Thread nD τ) arg7 fullShare aC ∗ owns (c : Thread nD τ) arg8 fullShare aX
            ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ f, arg7.view.loc (c : Thread nD τ) ↦[arg7.view.set]{fullShare} arg7.view.writes (Elt F) f LC) ∗ (∃ f, arg8.view.loc (c : Thread nD τ) ↦[arg8.view.set]{fullShare} arg8.view.writes (Elt F) f LX)) -∗ K ⟨⟩))
          ⊢ wp frame (wpE (defs₀ (F := F)) Variants.none c none) E (cc0__kernel1 i arg2 harg2 arg3 harg3 arg4 harg4 arg5 harg5 arg6 harg6 arg7 harg7 arg8 harg8) K } := by
  refine ⟨?_, ?_, fun xi3 xi4 E K => ?run⟩
  case run =>
    simp only [cc0__kernel1_eq_skeleton]; unfold cc0__kernel1_skel
    unfold owns
    iintro ⟨⟨%f0, %hf0, H0⟩, ⟨%f1, %hf1, H1⟩, ⟨%f2, %hf2, H2⟩, ⟨%f3, %hf3, H3⟩, ⟨%f4, %hf4, H4⟩, ⟨%fC, %hfC, HC⟩, ⟨%fX, %hfX, HX⟩, Hk⟩
    obtain rfl := harg2.eq_unread hf0; obtain rfl := harg3.eq_unread hf1; obtain rfl := harg4.eq_unread hf2
    obtain rfl := harg5.eq_unread hf3; obtain rfl := harg6.eq_unread hf4
    obtain rfl := harg7.eq_unread hfC; obtain rfl := harg8.eq_unread hfX
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HC]; · iexists _; iexact HC
    iexists _; iexact HX

end Cert.KernelIdeal.Hand

end
-- ==== Proof.KI.R0RunLast.lean ====
/-
  The first kernel's body at the last block of a batch: it adds the block's two products to the accumulators and copies
  the accumulators into the two output blocks.
-/
import proofs.«175285_j78357383348331_2_alg».proof.Proof.KI.R0Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- At the last block of a batch (the copying branch taken, the clearing branch not): from the three input blocks, the
    two output buffers at anything and the accumulators at what the block before left, the body runs to the end leaving
    each output buffer and each accumulator with the listed stores written. -/
noncomputable def runLast (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x256x1024 .f32) (harg4 : arg4.IsWhole) (arg5 : Memref sig .tc .vmem S1x1024x1024 .f32) (harg5 : arg5.IsWhole) (arg6 : Memref sig .tc .vmem S1x1024x1024 .bf16) (harg6 : arg6.IsWhole) (arg7 : Memref sig .tc .vmem S1024x1024 .f32) (harg7 : arg7.IsWhole) (arg8 : Memref sig .tc .vmem S1024x1024 .f32) (harg8 : arg8.IsWhole) (hc0 : ¬isFirst i) (hc1 : isLast i)
    (x0 x1 x2 : Vec F S1x256x1024 .f32) (aC aX : Vec F S1024x1024 .f32) :
    Σ' (L3 : List (View.Piece (Elt F) S1x1024x1024 .f32)) (L4 : List (View.Piece (Elt F) S1x1024x1024 .bf16))
      (LC : List (View.Piece (Elt F) S1024x1024 .f32)), { LX : List (View.Piece (Elt F) S1024x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d)
            ∗ owns (c : Thread nD τ) arg7 fullShare aC ∗ owns (c : Thread nD τ) arg8 fullShare aX
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LC) ∗ (∃ f, arg8.view.loc (c : Thread nD τ) ↦[arg8.view.set]{fullShare} arg8.view.writes (Elt F) f LX)) -∗ K ⟨⟩))
          ⊢ wp frame (wpE (defs₀ (F := F)) Variants.none c none) E (cc0__kernel1 i arg2 harg2 arg3 harg3 arg4 harg4 arg5 harg5 arg6 harg6 arg7 harg7 arg8 harg8) K } := by
  refine ⟨?_, ?_, ?_, ?_, fun E K => ?run⟩
  case run =>
    simp only [cc0__kernel1_eq_skeleton]; unfold cc0__kernel1_skel
    unfold owns
    iintro ⟨⟨%f0, %hf0, H0⟩, ⟨%f1, %hf1, H1⟩, ⟨%f2, %hf2, H2⟩, ⟨%d3, %f3, -, H3⟩, ⟨%d4, %f4, -, H4⟩, ⟨%fC, %hfC, HC⟩, ⟨%fX, %hfX, HX⟩, Hk⟩
    obtain rfl := harg2.eq_unread hf0; obtain rfl := harg3.eq_unread hf1; obtain rfl := harg4.eq_unread hf2
    obtain rfl := harg7.eq_unread hfC; obtain rfl := harg8.eq_unread hfX
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    isplitl [HC]; · iexists _; iexact HC
    iexists _; iexact HX

end Cert.KernelIdeal.Hand

end
-- ==== Proof.KI.R0Data.lean ====
/-
  The first kernel region, point by point: what the two accumulators hold after each grid point (a recursion over the
  points: cleared and restarted at the first block of a batch, added to at the others), what the two output buffers hold
  after the last block of a batch (copies of the accumulators), and the region's proof data over these.
-/
import proofs.«175285_j78357383348331_2_alg».proof.Proof.KI.R0RunFirst
import proofs.«175285_j78357383348331_2_alg».proof.Proof.KI.R0RunMiddle
import proofs.«175285_j78357383348331_2_alg».proof.Proof.KI.R0RunLast

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## One point's effect on the accumulators -/

theorem notLast_of_first (t : Fin cfg0.N) (h0 : t.val % 16 = 0) : ¬isLast (grid0.coords t) :=
  fun h => by have := (isLast_iff t).mp h; omega

/-- The first block of a batch: the accumulators after the body, whatever they held. -/
def stepFirst (c : Dev nD) (t : Fin cfg0.N) (h0 : t.val % 16 = 0) : Vec F S1024x1024 .f32 × Vec F S1024x1024 .f32 :=
  (viewC.read (Elt F) (viewC.writes (Elt F) viewC.junk (runFirst (F := F) c (grid0.coords t) (sm0_0 t) (hsm0_0 t) (sm0_1 t) (hsm0_1 t) (sm0_2 t) (hsm0_2 t) (sm0_3 t) (hsm0_3 t) (sm0_4 t) (hsm0_4 t) accC (Memref.isWhole_whole _) accX (Memref.isWhole_whole _) ((isFirst_iff t).mpr h0) (notLast_of_first t h0) (blk0 V c 0 t) (blk0 V c 1 t) (blk0 V c 2 t)).1),
   viewX.read (Elt F) (viewX.writes (Elt F) viewX.junk (runFirst (F := F) c (grid0.coords t) (sm0_0 t) (hsm0_0 t) (sm0_1 t) (hsm0_1 t) (sm0_2 t) (hsm0_2 t) (sm0_3 t) (hsm0_3 t) (sm0_4 t) (hsm0_4 t) accC (Memref.isWhole_whole _) accX (Memref.isWhole_whole _) ((isFirst_iff t).mpr h0) (notLast_of_first t h0) (blk0 V c 0 t) (blk0 V c 1 t) (blk0 V c 2 t)).2.1))

/-- A middle block: the accumulators after the body, from what the block before left. -/
def stepMiddle (c : Dev nD) (t : Fin cfg0.N) (h0 : ¬t.val % 16 = 0) (h1 : ¬t.val % 16 = 15) (a : Vec F S1024x1024 .f32 × Vec F S1024x1024 .f32) :
    Vec F S1024x1024 .f32 × Vec F S1024x1024 .f32 :=
  (viewC.read (Elt F) (viewC.writes (Elt F) viewC.junk (runMiddle (F := F) c (grid0.coords t) (sm0_0 t) (hsm0_0 t) (sm0_1 t) (hsm0_1 t) (sm0_2 t) (hsm0_2 t) (sm0_3 t) (hsm0_3 t) (sm0_4 t) (hsm0_4 t) accC (Memref.isWhole_whole _) accX (Memref.isWhole_whole _) (fun h => h0 ((isFirst_iff t).mp h)) (fun h => h1 ((isLast_iff t).mp h)) (blk0 V c 0 t) (blk0 V c 1 t) (blk0 V c 2 t) a.1 a.2).1),
   viewX.read (Elt F) (viewX.writes (Elt F) viewX.junk (runMiddle (F := F) c (grid0.coords t) (sm0_0 t) (hsm0_0 t) (sm0_1 t) (hsm0_1 t) (sm0_2 t) (hsm0_2 t) (sm0_3 t) (hsm0_3 t) (sm0_4 t) (hsm0_4 t) accC (Memref.isWhole_whole _) accX (Memref.isWhole_whole _) (fun h => h0 ((isFirst_iff t).mp h)) (fun h => h1 ((isLast_iff t).mp h)) (blk0 V c 0 t) (blk0 V c 1 t) (blk0 V c 2 t) a.1 a.2).2.1))

/-- The last block: the accumulators after the body, from what the block before left. -/
def stepLast (c : Dev nD) (t : Fin cfg0.N) (h0 : ¬t.val % 16 = 0) (h1 : t.val % 16 = 15) (a : Vec F S1024x1024 .f32 × Vec F S1024x1024 .f32) :
    Vec F S1024x1024 .f32 × Vec F S1024x1024 .f32 :=
  (viewC.read (Elt F) (viewC.writes (Elt F) viewC.junk (runLast (F := F) c (grid0.coords t) (sm0_0 t) (hsm0_0 t) (sm0_1 t) (hsm0_1 t) (sm0_2 t) (hsm0_2 t) (sm0_3 t) (hsm0_3 t) (sm0_4 t) (hsm0_4 t) accC (Memref.isWhole_whole _) accX (Memref.isWhole_whole _) (fun h => h0 ((isFirst_iff t).mp h)) ((isLast_iff t).mpr h1) (blk0 V c 0 t) (blk0 V c 1 t) (blk0 V c 2 t) a.1 a.2).2.2.1),
   viewX.read (Elt F) (viewX.writes (Elt F) viewX.junk (runLast (F := F) c (grid0.coords t) (sm0_0 t) (hsm0_0 t) (sm0_1 t) (hsm0_1 t) (sm0_2 t) (hsm0_2 t) (sm0_3 t) (hsm0_3 t) (sm0_4 t) (hsm0_4 t) accC (Memref.isWhole_whole _) accX (Memref.isWhole_whole _) (fun h => h0 ((isFirst_iff t).mp h)) ((isLast_iff t).mpr h1) (blk0 V c 0 t) (blk0 V c 1 t) (blk0 V c 2 t) a.1 a.2).2.2.2.1))

/-- The last block: what the body leaves in the two output buffers, from what the block before left in the accumulators. -/
def copyLast3 (c : Dev nD) (t : Fin cfg0.N) (h0 : ¬t.val % 16 = 0) (h1 : t.val % 16 = 15) (a : Vec F S1024x1024 .f32 × Vec F S1024x1024 .f32) :
    Vec F S1x1024x1024 .f32 :=
  viewO3.read (Elt F) (viewO3.writes (Elt F) viewO3.junk (runLast (F := F) c (grid0.coords t) (sm0_0 t) (hsm0_0 t) (sm0_1 t) (hsm0_1 t) (sm0_2 t) (hsm0_2 t) (sm0_3 t) (hsm0_3 t) (sm0_4 t) (hsm0_4 t) accC (Memref.isWhole_whole _) accX (Memref.isWhole_whole _) (fun h => h0 ((isFirst_iff t).mp h)) ((isLast_iff t).mpr h1) (blk0 V c 0 t) (blk0 V c 1 t) (blk0 V c 2 t) a.1 a.2).1)
def copyLast4 (c : Dev nD) (t : Fin cfg0.N) (h0 : ¬t.val % 16 = 0) (h1 : t.val % 16 = 15) (a : Vec F S1024x1024 .f32 × Vec F S1024x1024 .f32) :
    Vec F S1x1024x1024 .bf16 :=
  viewO4.read (Elt F) (viewO4.writes (Elt F) viewO4.junk (runLast (F := F) c (grid0.coords t) (sm0_0 t) (hsm0_0 t) (sm0_1 t) (hsm0_1 t) (sm0_2 t) (hsm0_2 t) (sm0_3 t) (hsm0_3 t) (sm0_4 t) (hsm0_4 t) accC (Memref.isWhole_whole _) accX (Memref.isWhole_whole _) (fun h => h0 ((isFirst_iff t).mp h)) ((isLast_iff t).mpr h1) (blk0 V c 0 t) (blk0 V c 1 t) (blk0 V c 2 t) a.1 a.2).2.1)

/-! ## The accumulators after each point -/

/-- What the two accumulators hold after the body at position n. -/
def accAt (c : Dev nD) : (n : ℕ) → n < cfg0.N → Vec F S1024x1024 .f32 × Vec F S1024x1024 .f32
  | 0, hn => stepFirst V c ⟨0, hn⟩ (Nat.zero_mod _)
  | n + 1, hn =>
    if h0 : (n + 1) % 16 = 0 then stepFirst V c ⟨n + 1, hn⟩ h0
    else if h1 : (n + 1) % 16 = 15 then stepLast V c ⟨n + 1, hn⟩ h0 h1 (accAt c n (Nat.lt_of_succ_lt hn))
    else stepMiddle V c ⟨n + 1, hn⟩ h0 h1 (accAt c n (Nat.lt_of_succ_lt hn))

theorem pred_lt (t : Fin cfg0.N) : t.val - 1 < cfg0.N := Nat.lt_of_le_of_lt (Nat.sub_le _ _) t.isLt

theorem accAt_first (c : Dev nD) (t : Fin cfg0.N) (h0 : t.val % 16 = 0) : accAt V c t.val t.isLt = stepFirst V c t h0 := by
  obtain ⟨n, hn⟩ := t
  cases n with
  | zero => rfl
  | succ n => exact (dif_pos h0).trans rfl

theorem accAt_middle (c : Dev nD) (t : Fin cfg0.N) (h0 : ¬t.val % 16 = 0) (h1 : ¬t.val % 16 = 15) :
    accAt V c t.val t.isLt = stepMiddle V c t h0 h1 (accAt V c (t.val - 1) (pred_lt t)) := by
  obtain ⟨n, hn⟩ := t
  cases n with
  | zero => exact absurd (Nat.zero_mod _) h0
  | succ n => exact (dif_neg h0).trans ((dif_neg h1).trans rfl)

theorem accAt_last (c : Dev nD) (t : Fin cfg0.N) (h0 : ¬t.val % 16 = 0) (h1 : t.val % 16 = 15) :
    accAt V c t.val t.isLt = stepLast V c t h0 h1 (accAt V c (t.val - 1) (pred_lt t)) := by
  obtain ⟨n, hn⟩ := t
  cases n with
  | zero => exact absurd (Nat.zero_mod _) h0
  | succ n => exact (dif_neg h0).trans ((dif_pos h1).trans rfl)

/-- What the two output buffers hold after the body at point t: at the last block of a batch the copies of the
    accumulators; elsewhere the windows are idle and this value is never consulted. -/
def outC (c : Dev nD) (t : Fin cfg0.N) : Vec F S1x1024x1024 .f32 :=
  if h1 : t.val % 16 = 15 then copyLast3 V c t (by omega) h1 (accAt V c (t.val - 1) (pred_lt t)) else viewO3.read (Elt F) viewO3.junk
def outX (c : Dev nD) (t : Fin cfg0.N) : Vec F S1x1024x1024 .bf16 :=
  if h1 : t.val % 16 = 15 then copyLast4 V c t (by omega) h1 (accAt V c (t.val - 1) (pred_lt t)) else viewO4.read (Elt F) viewO4.junk

theorem outC_last (c : Dev nD) (t : Fin cfg0.N) (h0 : ¬t.val % 16 = 0) (h1 : t.val % 16 = 15) :
    outC V c t = copyLast3 V c t h0 h1 (accAt V c (t.val - 1) (pred_lt t)) := dif_pos h1
theorem outX_last (c : Dev nD) (t : Fin cfg0.N) (h0 : ¬t.val % 16 = 0) (h1 : t.val % 16 = 15) :
    outX V c t = copyLast4 V c t h0 h1 (accAt V c (t.val - 1) (pred_lt t)) := dif_pos h1

/-! ## The region invariant -/

/-- Before position n: before the very first point the plain invariant (the accumulators at anything); afterwards the
    accumulators at what the point before left, the other scoped buffers at anything, the generator register at some state. -/
def PhiS (c : Dev nD) : (n : ℕ) → n ≤ cfg0.N → sProp 𝕄
  | 0, _ => Pipeline.ΦA spec0 c
  | n + 1, hn => iprop(iprop(owns (c : Thread nD τ) accC fullShare (accAt V c n hn).1 ∗ owns (c : Thread nD τ) accX fullShare (accAt V c n hn).2 ∗ others0 (F := F) c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) accC fullShare (accAt V c n hn).1 ∗ owns (c : Thread nD τ) accX fullShare (accAt V c n hn).2 ∗ others0 (F := F) c) ∗ (∃ r, prngReg c r)) := rfl
theorem PhiS_pos (c : Dev nD) (n : ℕ) (h : n ≤ cfg0.N) (hz : n ≠ 0) :
    PhiS V c n h = iprop(iprop(owns (c : Thread nD τ) accC fullShare (accAt V c (n - 1) (by omega)).1 ∗ owns (c : Thread nD τ) accX fullShare (accAt V c (n - 1) (by omega)).2 ∗ others0 (F := F) c) ∗ (∃ r, prngReg c r)) := by
  cases n with
  | zero => exact absurd rfl hz
  | succ n => rfl

/-! ## The proof data -/

/-- The first region's proof data on core c: the arrays as the region finds them; after the body each input's buffer at
    its block, the outputs' at the copies (last block) or unconsulted; the invariant above; nothing owed; full shares. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => outC V c t
    | ⟨4, _⟩ => outX V c t
  Φ t := PhiS V c t.val (Nat.le_of_lt_succ t.isLt)
  q _ := fullShare
  owed _ := 0

theorem dat0_A (c : Dev nD) (w : Fin cfg0.W) : (dat0 V c).A w = V c (Pipeline.arrRef spec0 w) := by dsimp only [dat0]
theorem dat0_Phi_castSucc (c : Dev nD) (t : Fin cfg0.N) : (dat0 V c).Φ t.castSucc = PhiS V c t.val (Nat.le_of_lt t.isLt) := by
  dsimp only [dat0]; simp only [Fin.coe_castSucc]
theorem dat0_after0 (c : Dev nD) (t : Fin cfg0.N) : (dat0 V c).after 0 t = blk0 V c 0 t := by dsimp only [dat0]
theorem dat0_after1 (c : Dev nD) (t : Fin cfg0.N) : (dat0 V c).after 1 t = blk0 V c 1 t := by dsimp only [dat0]
theorem dat0_after2 (c : Dev nD) (t : Fin cfg0.N) : (dat0 V c).after 2 t = blk0 V c 2 t := by dsimp only [dat0]
theorem dat0_after3 (c : Dev nD) (t : Fin cfg0.N) : (dat0 V c).after 3 t = outC V c t := by dsimp only [dat0]
theorem dat0_after4 (c : Dev nD) (t : Fin cfg0.N) : (dat0 V c).after 4 t = outX V c t := by dsimp only [dat0]
theorem dat0_before0 (c : Dev nD) (t : Fin cfg0.N) (d) : (dat0 V c).before 0 t d = blk0 V c 0 t :=
  before0_in0 V (dat0 V c) (dat0_A V c 0) (dat0_after0 V c) t d
theorem dat0_before1 (c : Dev nD) (t : Fin cfg0.N) (d) : (dat0 V c).before 1 t d = blk0 V c 1 t :=
  before0_in1 V (dat0 V c) (dat0_A V c 1) (dat0_after1 V c) t d
theorem dat0_before2 (c : Dev nD) (t : Fin cfg0.N) (d) : (dat0 V c).before 2 t d = blk0 V c 2 t :=
  before0_in2 V (dat0 V c) (dat0_A V c 2) (dat0_after2 V c) t d

end

end Cert.KernelIdeal.Hand

end
-- ==== Proof.KI.R0Body.lean ====
/-
  The first kernel region: the body's obligation at every grid point, from the three runs of the body (first, middle and
  last block of a batch), and the region invariant's two ends.
-/
import proofs.«175285_j78357383348331_2_alg».proof.Proof.KI.R0Data

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The stores of each run cover the buffer they go to -/

theorem coverC_first (c : Dev nD) (t : Fin cfg0.N) (h0 : t.val % 16 = 0) (y : S1024x1024.Idx) :
    ∃ pc ∈ (runFirst (F := F) c (grid0.coords t) (sm0_0 t) (hsm0_0 t) (sm0_1 t) (hsm0_1 t) (sm0_2 t) (hsm0_2 t) (sm0_3 t) (hsm0_3 t) (sm0_4 t) (hsm0_4 t) accC (Memref.isWhole_whole _) accX (Memref.isWhole_whole _) ((isFirst_iff t).mpr h0) (notLast_of_first t h0) (blk0 V c 0 t) (blk0 V c 1 t) (blk0 V c 2 t)).1, y ∈ pc.1.set :=
  View.cover_of_tiledL (runFirst (F := F) c (grid0.coords t) (sm0_0 t) (hsm0_0 t) (sm0_1 t) (hsm0_1 t) (sm0_2 t) (hsm0_2 t) (sm0_3 t) (hsm0_3 t) (sm0_4 t) (hsm0_4 t) accC (Memref.isWhole_whole _) accX (Memref.isWhole_whole _) ((isFirst_iff t).mpr h0) (notLast_of_first t h0) (blk0 V c 0 t) (blk0 V c 1 t) (blk0 V c 2 t)).1 S1024x1024.size (by sl_kernel_rfl) y
theorem coverX_first (c : Dev nD) (t : Fin cfg0.N) (h0 : t.val % 16 = 0) (y : S1024x1024.Idx) :
    ∃ pc ∈ (runFirst (F := F) c (grid0.coords t) (sm0_0 t) (hsm0_0 t) (sm0_1 t) (hsm0_1 t) (sm0_2 t) (hsm0_2 t) (sm0_3 t) (hsm0_3 t) (sm0_4 t) (hsm0_4 t) accC (Memref.isWhole_whole _) accX (Memref.isWhole_whole _) ((isFirst_iff t).mpr h0) (notLast_of_first t h0) (blk0 V c 0 t) (blk0 V c 1 t) (blk0 V c 2 t)).2.1, y ∈ pc.1.set :=
  View.cover_of_tiledL (runFirst (F := F) c (grid0.coords t) (sm0_0 t) (hsm0_0 t) (sm0_1 t) (hsm0_1 t) (sm0_2 t) (hsm0_2 t) (sm0_3 t) (hsm0_3 t) (sm0_4 t) (hsm0_4 t) accC (Memref.isWhole_whole _) accX (Memref.isWhole_whole _) ((isFirst_iff t).mpr h0) (notLast_of_first t h0) (blk0 V c 0 t) (blk0 V c 1 t) (blk0 V c 2 t)).2.1 S1024x1024.size (by sl_kernel_rfl) y
theorem coverC_middle (c : Dev nD) (t : Fin cfg0.N) (h0 : ¬t.val % 16 = 0) (h1 : ¬t.val % 16 = 15) (a : Vec F S1024x1024 .f32 × Vec F S1024x1024 .f32) (y : S1024x1024.Idx) :
    ∃ pc ∈ (runMiddle (F := F) c (grid0.coords t) (sm0_0 t) (hsm0_0 t) (sm0_1 t) (hsm0_1 t) (sm0_2 t) (hsm0_2 t) (sm0_3 t) (hsm0_3 t) (sm0_4 t) (hsm0_4 t) accC (Memref.isWhole_whole _) accX (Memref.isWhole_whole _) (fun h => h0 ((isFirst_iff t).mp h)) (fun h => h1 ((isLast_iff t).mp h)) (blk0 V c 0 t) (blk0 V c 1 t) (blk0 V c 2 t) a.1 a.2).1, y ∈ pc.1.set :=
  View.cover_of_tiledL (runMiddle (F := F) c (grid0.coords t) (sm0_0 t) (hsm0_0 t) (sm0_1 t) (hsm0_1 t) (sm0_2 t) (hsm0_2 t) (sm0_3 t) (hsm0_3 t) (sm0_4 t) (hsm0_4 t) accC (Memref.isWhole_whole _) accX (Memref.isWhole_whole _) (fun h => h0 ((isFirst_iff t).mp h)) (fun h => h1 ((isLast_iff t).mp h)) (blk0 V c 0 t) (blk0 V c 1 t) (blk0 V c 2 t) a.1 a.2).1 S1024x1024.size (by sl_kernel_rfl) y
theorem coverX_middle (c : Dev nD) (t : Fin cfg0.N) (h0 : ¬t.val % 16 = 0) (h1 : ¬t.val % 16 = 15) (a : Vec F S1024x1024 .f32 × Vec F S1024x1024 .f32) (y : S1024x1024.Idx) :
    ∃ pc ∈ (runMiddle (F := F) c (grid0.coords t) (sm0_0 t) (hsm0_0 t) (sm0_1 t) (hsm0_1 t) (sm0_2 t) (hsm0_2 t) (sm0_3 t) (hsm0_3 t) (sm0_4 t) (hsm0_4 t) accC (Memref.isWhole_whole _) accX (Memref.isWhole_whole _) (fun h => h0 ((isFirst_iff t).mp h)) (fun h => h1 ((isLast_iff t).mp h)) (blk0 V c 0 t) (blk0 V c 1 t) (blk0 V c 2 t) a.1 a.2).2.1, y ∈ pc.1.set :=
  View.cover_of_tiledL (runMiddle (F := F) c (grid0.coords t) (sm0_0 t) (hsm0_0 t) (sm0_1 t) (hsm0_1 t) (sm0_2 t) (hsm0_2 t) (sm0_3 t) (hsm0_3 t) (sm0_4 t) (hsm0_4 t) accC (Memref.isWhole_whole _) accX (Memref.isWhole_whole _) (fun h => h0 ((isFirst_iff t).mp h)) (fun h => h1 ((isLast_iff t).mp h)) (blk0 V c 0 t) (blk0 V c 1 t) (blk0 V c 2 t) a.1 a.2).2.1 S1024x1024.size (by sl_kernel_rfl) y
theorem cover3_last (c : Dev nD) (t : Fin cfg0.N) (h0 : ¬t.val % 16 = 0) (h1 : t.val % 16 = 15) (a : Vec F S1024x1024 .f32 × Vec F S1024x1024 .f32) (y : S1x1024x1024.Idx) :
    ∃ pc ∈ (runLast (F := F) c (grid0.coords t) (sm0_0 t) (hsm0_0 t) (sm0_1 t) (hsm0_1 t) (sm0_2 t) (hsm0_2 t) (sm0_3 t) (hsm0_3 t) (sm0_4 t) (hsm0_4 t) accC (Memref.isWhole_whole _) accX (Memref.isWhole_whole _) (fun h => h0 ((isFirst_iff t).mp h)) ((isLast_iff t).mpr h1) (blk0 V c 0 t) (blk0 V c 1 t) (blk0 V c 2 t) a.1 a.2).1, y ∈ pc.1.set :=
  View.cover_of_tiledL (runLast (F := F) c (grid0.coords t) (sm0_0 t) (hsm0_0 t) (sm0_1 t) (hsm0_1 t) (sm0_2 t) (hsm0_2 t) (sm0_3 t) (hsm0_3 t) (sm0_4 t) (hsm0_4 t) accC (Memref.isWhole_whole _) accX (Memref.isWhole_whole _) (fun h => h0 ((isFirst_iff t).mp h)) ((isLast_iff t).mpr h1) (blk0 V c 0 t) (blk0 V c 1 t) (blk0 V c 2 t) a.1 a.2).1 S1x1024x1024.size (by sl_kernel_rfl) y
theorem cover4_last (c : Dev nD) (t : Fin cfg0.N) (h0 : ¬t.val % 16 = 0) (h1 : t.val % 16 = 15) (a : Vec F S1024x1024 .f32 × Vec F S1024x1024 .f32) (y : S1x1024x1024.Idx) :
    ∃ pc ∈ (runLast (F := F) c (grid0.coords t) (sm0_0 t) (hsm0_0 t) (sm0_1 t) (hsm0_1 t) (sm0_2 t) (hsm0_2 t) (sm0_3 t) (hsm0_3 t) (sm0_4 t) (hsm0_4 t) accC (Memref.isWhole_whole _) accX (Memref.isWhole_whole _) (fun h => h0 ((isFirst_iff t).mp h)) ((isLast_iff t).mpr h1) (blk0 V c 0 t) (blk0 V c 1 t) (blk0 V c 2 t) a.1 a.2).2.1, y ∈ pc.1.set :=
  View.cover_of_tiledL (runLast (F := F) c (grid0.coords t) (sm0_0 t) (hsm0_0 t) (sm0_1 t) (hsm0_1 t) (sm0_2 t) (hsm0_2 t) (sm0_3 t) (hsm0_3 t) (sm0_4 t) (hsm0_4 t) accC (Memref.isWhole_whole _) accX (Memref.isWhole_whole _) (fun h => h0 ((isFirst_iff t).mp h)) ((isLast_iff t).mpr h1) (blk0 V c 0 t) (blk0 V c 1 t) (blk0 V c 2 t) a.1 a.2).2.1 S1x1024x1024.size (by sl_kernel_rfl) y
theorem coverC_last (c : Dev nD) (t : Fin cfg0.N) (h0 : ¬t.val % 16 = 0) (h1 : t.val % 16 = 15) (a : Vec F S1024x1024 .f32 × Vec F S1024x1024 .f32) (y : S1024x1024.Idx) :
    ∃ pc ∈ (runLast (F := F) c (grid0.coords t) (sm0_0 t) (hsm0_0 t) (sm0_1 t) (hsm0_1 t) (sm0_2 t) (hsm0_2 t) (sm0_3 t) (hsm0_3 t) (sm0_4 t) (hsm0_4 t) accC (Memref.isWhole_whole _) accX (Memref.isWhole_whole _) (fun h => h0 ((isFirst_iff t).mp h)) ((isLast_iff t).mpr h1) (blk0 V c 0 t) (blk0 V c 1 t) (blk0 V c 2 t) a.1 a.2).2.2.1, y ∈ pc.1.set :=
  View.cover_of_tiledL (runLast (F := F) c (grid0.coords t) (sm0_0 t) (hsm0_0 t) (sm0_1 t) (hsm0_1 t) (sm0_2 t) (hsm0_2 t) (sm0_3 t) (hsm0_3 t) (sm0_4 t) (hsm0_4 t) accC (Memref.isWhole_whole _) accX (Memref.isWhole_whole _) (fun h => h0 ((isFirst_iff t).mp h)) ((isLast_iff t).mpr h1) (blk0 V c 0 t) (blk0 V c 1 t) (blk0 V c 2 t) a.1 a.2).2.2.1 S1024x1024.size (by sl_kernel_rfl) y
theorem coverX_last (c : Dev nD) (t : Fin cfg0.N) (h0 : ¬t.val % 16 = 0) (h1 : t.val % 16 = 15) (a : Vec F S1024x1024 .f32 × Vec F S1024x1024 .f32) (y : S1024x1024.Idx) :
    ∃ pc ∈ (runLast (F := F) c (grid0.coords t) (sm0_0 t) (hsm0_0 t) (sm0_1 t) (hsm0_1 t) (sm0_2 t) (hsm0_2 t) (sm0_3 t) (hsm0_3 t) (sm0_4 t) (hsm0_4 t) accC (Memref.isWhole_whole _) accX (Memref.isWhole_whole _) (fun h => h0 ((isFirst_iff t).mp h)) ((isLast_iff t).mpr h1) (blk0 V c 0 t) (blk0 V c 1 t) (blk0 V c 2 t) a.1 a.2).2.2.2.1, y ∈ pc.1.set :=
  View.cover_of_tiledL (runLast (F := F) c (grid0.coords t) (sm0_0 t) (hsm0_0 t) (sm0_1 t) (hsm0_1 t) (sm0_2 t) (hsm0_2 t) (sm0_3 t) (hsm0_3 t) (sm0_4 t) (hsm0_4 t) accC (Memref.isWhole_whole _) accX (Memref.isWhole_whole _) (fun h => h0 ((isFirst_iff t).mp h)) ((isLast_iff t).mpr h1) (blk0 V c 0 t) (blk0 V c 1 t) (blk0 V c 2 t) a.1 a.2).2.2.2.1 S1024x1024.size (by sl_kernel_rfl) y

/-! ## The body obligation at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (sm0_0 t) fullShare ((dat0 V c).before 0 t d))
    ∗ (∃ d, owns (c : Thread nD τ) (sm0_1 t) fullShare ((dat0 V c).before 1 t d))
    ∗ (∃ d, owns (c : Thread nD τ) (sm0_2 t) fullShare ((dat0 V c).before 2 t d))
    ∗ (∃ d, owns (c : Thread nD τ) (sm0_3 t) fullShare ((dat0 V c).before 3 t d))
    ∗ (∃ d, owns (c : Thread nD τ) (sm0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t
    ∗ (dat0 V c).leavesExact 3 t ∗ (dat0 V c).leavesExact 4 t)

set_option maxHeartbeats 4800000 in
/-- The body at any point: the inputs' buffers hold their blocks; the block number says which of the three runs applies;
    the invariant hands the body the accumulators at what the point before left (at anything before the very first
    point) and takes them back at this point's contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [dat0_before0, dat0_before1, dat0_before2]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (sm0_0 t) fullShare ((dat0 V c).after 0 t) from by
    unfold Dat.leavesExact; rw [live0_0 t], dat0_after0]
  rw [show (dat0 V c).leavesExact 1 t = owns (c : Thread nD τ) (sm0_1 t) fullShare ((dat0 V c).after 1 t) from by
    unfold Dat.leavesExact; rw [live0_1 t], dat0_after1]
  rw [show (dat0 V c).leavesExact 2 t = owns (c : Thread nD τ) (sm0_2 t) fullShare ((dat0 V c).after 2 t) from by
    unfold Dat.leavesExact; rw [live0_2 t], dat0_after2]
  have hN : t.val < 64 := lt_of_lt_of_eq t.isLt (show cfg0.N = 64 from N_0)
  by_cases h0 : t.val % 16 = 0
  · have h1 : ¬t.val % 16 = 15 := by omega
    have hnl : ¬isLast (grid0.coords t) := notLast_of_first t h0
    rw [Dat.leavesExact_idle (dat0 V c) 3 t (idle0_3 t hnl) (noflush0_3 t hnl),
      Dat.leavesExact_idle (dat0 V c) 4 t (idle0_4 t hnl) (noflush0_4 t hnl)]
    rw [accAt_first V c t h0]
    unfold stepFirst; (try dsimp only)
    by_cases hz : t.val = 0
    · rw [dat0_Phi_castSucc V c t, PhiS_zero V c _ _ hz, PhiA0_eq]
      iintro ⟨⟨⟨HC, HX, Hoth⟩, Hg⟩, Ho, ⟨%d0, H0⟩, ⟨%d1, H1⟩, ⟨%d2, H2⟩, ⟨%d3, H3⟩, ⟨%d4, H4⟩⟩
      iapply ((runFirst (F := F) c (grid0.coords t) (sm0_0 t) (hsm0_0 t) (sm0_1 t) (hsm0_1 t) (sm0_2 t) (hsm0_2 t) (sm0_3 t) (hsm0_3 t) (sm0_4 t) (hsm0_4 t) accC (Memref.isWhole_whole _) accX (Memref.isWhole_whole _) ((isFirst_iff t).mpr h0) (notLast_of_first t h0) (blk0 V c 0 t) (blk0 V c 1 t) (blk0 V c 2 t)).2.2 _ _ Set.univ _)
      isplitl [H0]; · iexact H0
      isplitl [H1]; · iexact H1
      isplitl [H2]; · iexact H2
      isplitl [H3]; · iexact H3
      isplitl [H4]; · iexact H4
      isplitl [HC]; · iexact HC
      isplitl [HX]; · iexact HX
      iintro ⟨H0, H1, H2, H3, H4, ⟨%eC, HC⟩, ⟨%eX, HX⟩⟩
      isplitl [HC HX Hoth Hg]
      · isplitl [HC HX Hoth]
        · isplitl [HC]
          · unfold owns; iexists _; isplitr
            swap; · iexact HC
            ipureintro; exact View.read_writes_of_cover _ _ _ _ _ (coverC_first V c t h0)
          isplitl [HX]
          · unfold owns; iexists _; isplitr
            swap; · iexact HX
            ipureintro; exact View.read_writes_of_cover _ _ _ _ _ (coverX_first V c t h0)
          iexact Hoth
        iexact Hg
      isplitl [Ho]; · iexact Ho
      isplitl [H0]; · iexact H0
      isplitl [H1]; · iexact H1
      isplitl [H2]; · iexact H2
      isplitl [H3]; · iexists _; iexact H3
      iexists _; iexact H4
    · rw [dat0_Phi_castSucc V c t, PhiS_pos V c _ _ hz]
      iintro ⟨⟨⟨HC, HX, Hoth⟩, Hg⟩, Ho, ⟨%d0, H0⟩, ⟨%d1, H1⟩, ⟨%d2, H2⟩, ⟨%d3, H3⟩, ⟨%d4, H4⟩⟩
      iapply ((runFirst (F := F) c (grid0.coords t) (sm0_0 t) (hsm0_0 t) (sm0_1 t) (hsm0_1 t) (sm0_2 t) (hsm0_2 t) (sm0_3 t) (hsm0_3 t) (sm0_4 t) (hsm0_4 t) accC (Memref.isWhole_whole _) accX (Memref.isWhole_whole _) ((isFirst_iff t).mpr h0) (notLast_of_first t h0) (blk0 V c 0 t) (blk0 V c 1 t) (blk0 V c 2 t)).2.2 _ _ Set.univ _)
      isplitl [H0]; · iexact H0
      isplitl [H1]; · iexact H1
      isplitl [H2]; · iexact H2
      isplitl [H3]; · iexact H3
      isplitl [H4]; · iexact H4
      isplitl [HC]; · iexists _; iexact HC
      isplitl [HX]; · iexists _; iexact HX
      iintro ⟨H0, H1, H2, H3, H4, ⟨%eC, HC⟩, ⟨%eX, HX⟩⟩
      isplitl [HC HX Hoth Hg]
      · isplitl [HC HX Hoth]
        · isplitl [HC]
          · unfold owns; iexists _; isplitr
            swap; · iexact HC
            ipureintro; exact View.read_writes_of_cover _ _ _ _ _ (coverC_first V c t h0)
          isplitl [HX]
          · unfold owns; iexists _; isplitr
            swap; · iexact HX
            ipureintro; exact View.read_writes_of_cover _ _ _ _ _ (coverX_first V c t h0)
          iexact Hoth
        iexact Hg
      isplitl [Ho]; · iexact Ho
      isplitl [H0]; · iexact H0
      isplitl [H1]; · iexact H1
      isplitl [H2]; · iexact H2
      isplitl [H3]; · iexists _; iexact H3
      iexists _; iexact H4
  · have hz : t.val ≠ 0 := fun h => h0 (by rw [h])
    by_cases h1 : t.val % 16 = 15
    · have hl : isLast (grid0.coords t) := (isLast_iff t).mpr h1
      rw [show (dat0 V c).leavesExact 3 t = owns (c : Thread nD τ) (sm0_3 t) fullShare ((dat0 V c).after 3 t) from by
        unfold Dat.leavesExact; rw [live0_3 t hl], dat0_after3]
      rw [show (dat0 V c).leavesExact 4 t = owns (c : Thread nD τ) (sm0_4 t) fullShare ((dat0 V c).after 4 t) from by
        unfold Dat.leavesExact; rw [live0_4 t hl], dat0_after4]
      rw [accAt_last V c t h0 h1, outC_last V c t h0 h1, outX_last V c t h0 h1]
      unfold stepLast copyLast3 copyLast4; (try dsimp only)
      rw [dat0_Phi_castSucc V c t, PhiS_pos V c _ _ hz]
      iintro ⟨⟨⟨HC, HX, Hoth⟩, Hg⟩, Ho, ⟨%d0, H0⟩, ⟨%d1, H1⟩, ⟨%d2, H2⟩, ⟨%d3, H3⟩, ⟨%d4, H4⟩⟩
      iapply ((runLast (F := F) c (grid0.coords t) (sm0_0 t) (hsm0_0 t) (sm0_1 t) (hsm0_1 t) (sm0_2 t) (hsm0_2 t) (sm0_3 t) (hsm0_3 t) (sm0_4 t) (hsm0_4 t) accC (Memref.isWhole_whole _) accX (Memref.isWhole_whole _) (fun h => h0 ((isFirst_iff t).mp h)) ((isLast_iff t).mpr h1) (blk0 V c 0 t) (blk0 V c 1 t) (blk0 V c 2 t) (accAt V c (t.val - 1) (pred_lt t)).1 (accAt V c (t.val - 1) (pred_lt t)).2).2.2.2.2 Set.univ _)
      isplitl [H0]; · iexact H0
      isplitl [H1]; · iexact H1
      isplitl [H2]; · iexact H2
      isplitl [H3]; · iexists _; iexact H3
      isplitl [H4]; · iexists _; iexact H4
      isplitl [HC]; · iexact HC
      isplitl [HX]; · iexact HX
      iintro ⟨H0, H1, H2, ⟨%e3, H3⟩, ⟨%e4, H4⟩, ⟨%eC, HC⟩, ⟨%eX, HX⟩⟩
      isplitl [HC HX Hoth Hg]
      · isplitl [HC HX Hoth]
        · isplitl [HC]
          · unfold owns; iexists _; isplitr
            swap; · iexact HC
            ipureintro; exact View.read_writes_of_cover _ _ _ _ _ (coverC_last V c t h0 h1 _)
          isplitl [HX]
          · unfold owns; iexists _; isplitr
            swap; · iexact HX
            ipureintro; exact View.read_writes_of_cover _ _ _ _ _ (coverX_last V c t h0 h1 _)
          iexact Hoth
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover3_last V c t h0 h1 _)
      unfold owns; iexists _; isplitr
      swap; · iexact H4
      ipureintro; exact View.read_writes_of_cover _ _ _ _ _ (cover4_last V c t h0 h1 _)
    · have hnl : ¬isLast (grid0.coords t) := fun h => h1 ((isLast_iff t).mp h)
      rw [Dat.leavesExact_idle (dat0 V c) 3 t (idle0_3 t hnl) (noflush0_3 t hnl),
        Dat.leavesExact_idle (dat0 V c) 4 t (idle0_4 t hnl) (noflush0_4 t hnl)]
      rw [accAt_middle V c t h0 h1]
      unfold stepMiddle; (try dsimp only)
      rw [dat0_Phi_castSucc V c t, PhiS_pos V c _ _ hz]
      iintro ⟨⟨⟨HC, HX, Hoth⟩, Hg⟩, Ho, ⟨%d0, H0⟩, ⟨%d1, H1⟩, ⟨%d2, H2⟩, ⟨%d3, H3⟩, ⟨%d4, H4⟩⟩
      iapply ((runMiddle (F := F) c (grid0.coords t) (sm0_0 t) (hsm0_0 t) (sm0_1 t) (hsm0_1 t) (sm0_2 t) (hsm0_2 t) (sm0_3 t) (hsm0_3 t) (sm0_4 t) (hsm0_4 t) accC (Memref.isWhole_whole _) accX (Memref.isWhole_whole _) (fun h => h0 ((isFirst_iff t).mp h)) (fun h => h1 ((isLast_iff t).mp h)) (blk0 V c 0 t) (blk0 V c 1 t) (blk0 V c 2 t) (accAt V c (t.val - 1) (pred_lt t)).1 (accAt V c (t.val - 1) (pred_lt t)).2).2.2 _ _ Set.univ _)
      isplitl [H0]; · iexact H0
      isplitl [H1]; · iexact H1
      isplitl [H2]; · iexact H2
      isplitl [H3]; · iexact H3
      isplitl [H4]; · iexact H4
      isplitl [HC]; · iexact HC
      isplitl [HX]; · iexact HX
      iintro ⟨H0, H1, H2, H3, H4, ⟨%eC, HC⟩, ⟨%eX, HX⟩⟩
      isplitl [HC HX Hoth Hg]
      · isplitl [HC HX Hoth]
        · isplitl [HC]
          · unfold owns; iexists _; isplitr
            swap; · iexact HC
            ipureintro; exact View.read_writes_of_cover _ _ _ _ _ (coverC_middle V c t h0 h1 _)
          isplitl [HX]
          · unfold owns; iexists _; isplitr
            swap; · iexact HX
            ipureintro; exact View.read_writes_of_cover _ _ _ _ _ (coverX_middle V c t h0 h1 _)
          iexact Hoth
        iexact Hg
      isplitl [Ho]; · iexact Ho
      isplitl [H0]; · iexact H0
      isplitl [H1]; · iexact H1
      isplitl [H2]; · iexact H2
      isplitl [H3]; · iexists _; iexact H3
      iexists _; iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem phi_in0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the plain one back: the accumulators' contents are forgotten. -/
theorem phi_out0 (c : Dev nD) : (dat0 V c).Φ (Fin.last cfg0.N) ⊢ Pipeline.ΦA spec0 c := by
  have hN : cfg0.N = 64 := N_0
  rw [show (dat0 V c).Φ (Fin.last cfg0.N) = PhiS V c (Fin.last cfg0.N).val (Nat.le_of_lt_succ (Fin.last cfg0.N).isLt) from rfl,
    PhiS_pos V c _ _ (by rw [Fin.val_last]; omega), PhiA0_eq]
  iintro ⟨⟨HC, HX, Hoth⟩, Hg⟩
  isplitl [HC HX Hoth]
  · isplitl [HC]; · iexists _; iexact HC
    isplitl [HX]; · iexists _; iexact HX
    iexact Hoth
  iexact Hg

end

end Cert.KernelIdeal.Hand

end
-- ==== Proof.KI.R1Frame.lean ====
/- The second kernel region (the softmax-and-product kernel on its 4 × 8 grid): its proof data at a parameter
   V — the contents of the core's buffers when the region is entered — and its body obligation.

   At a grid point the body reads four whole staging buffers (a 512-row slab of the first operand, the
   square weight matrix, a square f32 block and a square bf16 block), reads the output's buffer without
   using what it finds, and overwrites the output's buffer with one whole-buffer value computed from the
   four inputs. So: every input buffer holds its window's block of the array it stages, whether the
   pipeline moved it there at this point or at an earlier one with the same block index; and the output
   buffer ends at a value that is a function of the four blocks alone. -/
import proofs.«175285_j78357383348331_2_alg».proof.Proof.Gen.KernelIdeal.Launch
import proofs.«175285_j78357383348331_2_alg».proof.Proof.Gen.KernelIdeal.Skeleton
import proofs.«175285_j78357383348331_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle with a 1024-long axis is looked at coordinate by coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- window w's block at point t, read off its array as the region finds it -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input's buffer holds the input's block at EVERY point. Where the pipeline fetched at this point that is
    what the fetch wrote. Where it did not, the block index is the one of the point before, the body there left
    the buffer as it found it, and so the buffer still holds the same block. Stated for any proof data whose
    array is V's and whose body leaves the block in place, one statement per input window. -/

theorem holds1_0 {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)

theorem holds1_1 {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)

theorem holds1_2 {c : Dev nD} (dat : Dat τ (Elt F) Unit ℕ (UR sig nD τ) ℕ cfg1 c) (hA : dat.A 2 = V c (Pipeline.arrRef spec1 2))
    (hafter : ∀ t, dat.after 2 t = blk1 V c 2 t) (t : Fin cfg1.N) (d) : dat.before 2 t d = blk1 V c 2 t :=
  (dat.before_in_eq_fetched 2 rfl (fun _ => rfl) (fun _ _ _ => rfl) (fun t => by rw [hafter]; unfold Dat.blockOf blk1; rw [hA]; try rfl) t d).trans
    (by unfold Dat.fetched Dat.blockOf blk1; rw [hA]; try rfl)

theorem holds1_3 {c : Dev nD} (dat : Dat τ (Elt F) Unit ℕ (UR sig nD τ) ℕ cfg1 c) (hA : dat.A 3 = V c (Pipeline.arrRef spec1 3))
    (hafter : ∀ t, dat.after 3 t = blk1 V c 3 t) (t : Fin cfg1.N) (d) : dat.before 3 t d = blk1 V c 3 t :=
  (dat.before_in_eq_fetched 3 rfl (fun _ => rfl) (fun _ _ _ => rfl) (fun t => by rw [hafter]; unfold Dat.blockOf blk1; rw [hA]; try rfl) t d).trans
    (by unfold Dat.fetched Dat.blockOf blk1; rw [hA]; try rfl)

/-! ## The body's accesses: each is the whole of its buffer -/

abbrev rA : Rect S1x512x1024 := Rect.unit (s := S1x512x1024) ![0, 0, 0] S1x512x1024.size inb_S1x512x1024_S1x512x1024_0_0_0
abbrev rB : Rect S1024x1024 := Rect.unit (s := S1024x1024) ![0, 0] S1024x1024.size inb_S1024x1024_S1024x1024_0_0
abbrev rC : Rect S1x1024x1024 := Rect.unit (s := S1x1024x1024) ![0, 0, 0] S1x1024x1024.size inb_S1x1024x1024_S1x1024x1024_0_0_0

/-! ## What the body leaves in the output's buffer -/

/-- what the body leaves in the output's staging buffer, from the four input blocks: its one store as a piece -/
def res1 (x0 : Vec F S1x512x1024 .f32) (x1 : Vec F S1024x1024 .f32) (x2 : Vec F S1x1024x1024 .f32) (x3 : Vec F S1x1024x1024 .bf16) : Vec F S1x512x1024 .f32 :=
  View.canon [⟨rA, k1_pay1 (View.ld x0 rA) (View.ld x1 rB) (View.ld x2 rC) (View.ld x3 rC)⟩]

/-- The one store's rectangle is the whole buffer, so every index of the buffer lies in it. -/
theorem cover1 (p0 : Vec F S1x512x1024 .f32) (y : S1x512x1024.Idx) :
    ∃ pc ∈ ([⟨rA, p0⟩] : List (View.Piece (Elt F) S1x512x1024 .f32)), y ∈ pc.1.set :=
  View.cover_of_tiled [⟨rA, p0⟩] S1x512x1024.size (by rfl) y

/-! ## The body's triple -/

set_option maxHeartbeats 1000000 in
/-- The kernel function on whole staging memrefs, the four inputs' at contents x0 … x3 and the output's at any
    contents, runs to a continuation that holds the inputs' unchanged and the output's at res1 of the inputs:
    the loads return the buffers' contents, the read of the output's buffer is not used, and the single store
    replaces the whole of the output's buffer. -/
theorem sound_kernel1 (c : Dev nD) (E : Set ℕ) (i : grid1.Coords)
    (arg2 : Memref sig .tc .vmem S1x512x1024 .f32) (harg2 : arg2.IsWhole) (arg3 : Memref sig .tc .vmem S1024x1024 .f32) (harg3 : arg3.IsWhole)
    (arg4 : Memref sig .tc .vmem S1x1024x1024 .f32) (harg4 : arg4.IsWhole) (arg5 : Memref sig .tc .vmem S1x1024x1024 .bf16) (harg5 : arg5.IsWhole)
    (arg6 : Memref sig .tc .vmem S1x512x1024 .f32) (harg6 : arg6.IsWhole)
    (x0 : Vec F S1x512x1024 .f32) (x1 : Vec F S1024x1024 .f32) (x2 : Vec F S1x1024x1024 .f32) (x3 : Vec F S1x1024x1024 .bf16) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (res1 x0 x1 x2 x3)) -∗ K ⟨⟩))
      ⊢ wp frame (wpE (defs₀ (F := F)) Variants.none c none) E (cc1__kernel2 i arg2 harg2 arg3 harg3 arg4 harg4 arg5 harg5 arg6 harg6) K := by
  simp only [cc1__kernel2_eq_skeleton]; unfold cc1__kernel2_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1 _)

/-! ## The region's proof data -/

/-- The proof data of the region on core c: the arrays as the region finds them; after the body at a point each
    input's buffer at its block and the output's at res1 of the four blocks; the invariant is the part of the
    core's state the region never touches; nothing owed; full shares. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => res1 (blk1 V c 0 t) (blk1 V c 1 t) (blk1 V c 2 t) (blk1 V c 3 t)
  Φ _ := Pipeline.ΦA spec1 c
  q _ := fullShare
  owed _ := 0

theorem dat1_A (c : Dev nD) (w : Fin cfg1.W) : (dat1 V c).A w = V c (Pipeline.arrRef spec1 w) := by
  dsimp only [dat1]

theorem dat1_after0 (c : Dev nD) (t : Fin cfg1.N) : (dat1 V c).after 0 t = blk1 V c 0 t := by dsimp only [dat1]
theorem dat1_after1 (c : Dev nD) (t : Fin cfg1.N) : (dat1 V c).after 1 t = blk1 V c 1 t := by dsimp only [dat1]
theorem dat1_after2 (c : Dev nD) (t : Fin cfg1.N) : (dat1 V c).after 2 t = blk1 V c 2 t := by dsimp only [dat1]
theorem dat1_after3 (c : Dev nD) (t : Fin cfg1.N) : (dat1 V c).after 3 t = blk1 V c 3 t := by dsimp only [dat1]
theorem dat1_after4 (c : Dev nD) (t : Fin cfg1.N) :
    (dat1 V c).after 4 t = res1 (blk1 V c 0 t) (blk1 V c 1 t) (blk1 V c 2 t) (blk1 V c 3 t) := by dsimp only [dat1]

/-- Each input's current buffer holds its block at every point. -/
theorem dat1_before0 (c : Dev nD) (t : Fin cfg1.N) (d) : (dat1 V c).before 0 t d = blk1 V c 0 t :=
  holds1_0 V (dat1 V c) (dat1_A V c 0) (dat1_after0 V c) t d
theorem dat1_before1 (c : Dev nD) (t : Fin cfg1.N) (d) : (dat1 V c).before 1 t d = blk1 V c 1 t :=
  holds1_1 V (dat1 V c) (dat1_A V c 1) (dat1_after1 V c) t d
theorem dat1_before2 (c : Dev nD) (t : Fin cfg1.N) (d) : (dat1 V c).before 2 t d = blk1 V c 2 t :=
  holds1_2 V (dat1 V c) (dat1_A V c 2) (dat1_after2 V c) t d
theorem dat1_before3 (c : Dev nD) (t : Fin cfg1.N) (d) : (dat1 V c).before 3 t d = blk1 V c 3 t :=
  holds1_3 V (dat1 V c) (dat1_A V c 3) (dat1_after3 V c) t d

/-! ## The body obligation, at a generic point -/

/-- What the body receives at point t: the invariant, the debt, and each window's current buffer at the contents
    the proof data says it has before the body runs there. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- What the body hands back at point t: the same invariant and debt, and each window's buffer at what the proof
    data says the body leaves there. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- At any point the four input buffers hold their windows' blocks, so the triple above applies with x0 … x3 the
    blocks; the body reads neither the invariant nor the debt, which are returned as received. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [dat1_before0, dat1_before1, dat1_before2, dat1_before3]
  rw [show (dat1 V c).Φ t.succ = (dat1 V c).Φ t.castSucc from rfl,
    show (dat1 V c).owesAt () t.succ = (dat1 V c).owesAt () t.castSucc from rfl,
    dat1_after0, dat1_after1, dat1_after2, dat1_after3, dat1_after4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (blk1 V c 0 t) (blk1 V c 1 t) (blk1 V c 2 t) (blk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The region's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Run.lean ====
/-
  The run of the two-region program: the first region forms, per batch, the two sums over the 4096 positions (kept in
  two square arrays, one in f32 and one rounded to bf16), the second region forms the filtered query, the logits, the
  softmax of every row and the product with the second square array.  No host operation stands between or around
  them, so a core's buffers pass through three boundaries: as launched, after the first region, after the second.
  Each region changes only the arrays of its own output windows, to what its write-backs leave; every other buffer is
  what it was at the region's entry.  From that: the four arguments end as launched, and the result array ends at
  what the second region's write-backs leave when the region is entered from the first region's exit contents.
-/
import proofs.«175285_j78357383348331_2_alg».proof.Proof.Gen.KernelIdeal.Launch
import proofs.«175285_j78357383348331_2_alg».proof.Proof.Gen.KernelIdeal.Skeleton
import proofs.«175285_j78357383348331_2_alg».proof.Proof.Gen.KernelIdeal.Points
import proofs.«175285_j78357383348331_2_alg».proof.Proof.KI.R0Body
import proofs.«175285_j78357383348331_2_alg».proof.Proof.KI.R1Frame
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle with a 1024-long axis is looked at coordinate by coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## A core's buffers at the three boundaries -/

/-- Core c's buffers as launched. -/
abbrev B0 : Dev nD → Valuation τ sig (Elt F) := fun c b => (s₀ m ρ).mem ((c : Dev nD), b)
/-- The first region's entry contents: the launch memory, read at the core's references. -/
abbrev E0 : (c : Dev nD) → (b : Ref sig .tc) → Buf (Elt F) ((c : Thread nD τ).loc b) := fun c b => B0 m ρ c b

/-- After the first region: its windows' arrays at what the pipeline leaves, every other buffer as launched. -/
def B1 (c : Dev nD) : Valuation τ sig (Elt F) :=
  Pipeline.withArrays spec0 c (B0 m ρ c) fun w => (dat0 (E0 m ρ) c).arrAt w cfg0.N
theorem B1_arr (c : Dev nD) (w : Fin cfg0.W) :
    B1 m ρ c (Proc.devRef .tc (Pipeline.arrRef spec0 w)) = (dat0 (E0 m ρ) c).arrAt w cfg0.N := by
  unfold B1; exact Pipeline.withArrays_arr spec0 launch0.win.arr_inj c _ _ w
theorem B1_of_ne (c : Dev nD) (b : Ref sig .tc) (hb : ∀ w, Pipeline.arrRef spec0 w ≠ b) :
    B1 m ρ c (Proc.devRef .tc b) = B0 m ρ c (Proc.devRef .tc b) := by
  unfold B1; exact Pipeline.withArrays_of_ne spec0 c _ _ b hb
/-- The second region's entry contents: the first region's exit contents. -/
abbrev E1 : (c : Dev nD) → (b : Ref sig .tc) → Buf (Elt F) ((c : Thread nD τ).loc b) := fun c b => B1 m ρ c b

/-- After the second region: its windows' arrays at what the pipeline leaves, every other buffer as the first region left it. -/
def B2 (c : Dev nD) : Valuation τ sig (Elt F) :=
  Pipeline.withArrays spec1 c (B1 m ρ c) fun w => (dat1 (E1 m ρ) c).arrAt w cfg1.N
theorem B2_arr (c : Dev nD) (w : Fin cfg1.W) :
    B2 m ρ c (Proc.devRef .tc (Pipeline.arrRef spec1 w)) = (dat1 (E1 m ρ) c).arrAt w cfg1.N := by
  unfold B2; exact Pipeline.withArrays_arr spec1 launch1.win.arr_inj c _ _ w
theorem B2_of_ne (c : Dev nD) (b : Ref sig .tc) (hb : ∀ w, Pipeline.arrRef spec1 w ≠ b) :
    B2 m ρ c (Proc.devRef .tc b) = B1 m ρ c (Proc.devRef .tc b) := by
  unfold B2; exact Pipeline.withArrays_of_ne spec1 c _ _ b hb
/-- The exit contents of the second region, read at the core's references. -/
abbrev E2 : (c : Dev nD) → (b : Ref sig .tc) → Buf (Elt F) ((c : Thread nD τ).loc b) := fun c b => B2 m ρ c b

/-! ### What the second region is entered from -/

/-- The f32 square array holds what the first region's fourth window leaves. -/
theorem E1_out0 (c : Dev nD) : E1 m ρ c main_v0_0 = (dat0 (E0 m ρ) c).arrAt 3 cfg0.N := B1_arr m ρ c 3
/-- The bf16 square array holds what the first region's fifth window leaves. -/
theorem E1_out1 (c : Dev nD) : E1 m ρ c main_v0_1 = (dat0 (E0 m ρ) c).arrAt 4 cfg0.N := B1_arr m ρ c 4
/-- The first region reads q, k and v through input windows and never sees w: all four are as launched. -/
theorem E1_arg0 (c : Dev nD) : E1 m ρ c main_arg0 = m ((c : Thread nD τ).loc main_arg0) :=
  (B1_arr m ρ c 0).trans (((dat0 (E0 m ρ) c).arrAt_in 0 rfl _).trans (dat0_A (E0 m ρ) c 0))
theorem E1_arg1 (c : Dev nD) : E1 m ρ c main_arg1 = m ((c : Thread nD τ).loc main_arg1) :=
  (B1_arr m ρ c 1).trans (((dat0 (E0 m ρ) c).arrAt_in 1 rfl _).trans (dat0_A (E0 m ρ) c 1))
theorem E1_arg2 (c : Dev nD) : E1 m ρ c main_arg2 = m ((c : Thread nD τ).loc main_arg2) :=
  (B1_arr m ρ c 2).trans (((dat0 (E0 m ρ) c).arrAt_in 2 rfl _).trans (dat0_A (E0 m ρ) c 2))
theorem E1_arg3 (c : Dev nD) : E1 m ρ c main_arg3 = m ((c : Thread nD τ).loc main_arg3) :=
  B1_of_ne m ρ c main_arg3 (by decide)

/-! ### What the program ends with -/

/-- The result array holds what the second region's fifth window leaves. -/
theorem E2_out (c : Dev nD) : E2 m ρ c main_v1 = (dat1 (E1 m ρ) c).arrAt 4 cfg1.N := B2_arr m ρ c 4
/-- The second region reads q and w through input windows and never sees k and v. -/
theorem E2_arg0 (c : Dev nD) : E2 m ρ c main_arg0 = m ((c : Thread nD τ).loc main_arg0) :=
  (B2_arr m ρ c 0).trans ((((dat1 (E1 m ρ) c).arrAt_in 0 rfl _).trans (dat1_A (E1 m ρ) c 0)).trans (E1_arg0 m ρ c))
theorem E2_arg3 (c : Dev nD) : E2 m ρ c main_arg3 = m ((c : Thread nD τ).loc main_arg3) :=
  (B2_arr m ρ c 1).trans ((((dat1 (E1 m ρ) c).arrAt_in 1 rfl _).trans (dat1_A (E1 m ρ) c 1)).trans (E1_arg3 m ρ c))
theorem E2_arg1 (c : Dev nD) : E2 m ρ c main_arg1 = m ((c : Thread nD τ).loc main_arg1) :=
  (B2_of_ne m ρ c main_arg1 (by decide)).trans (E1_arg1 m ρ c)
theorem E2_arg2 (c : Dev nD) : E2 m ρ c main_arg2 = m ((c : Thread nD τ).loc main_arg2) :=
  (B2_of_ne m ρ c main_arg2 (by decide)).trans (E1_arg2 m ρ c)

/-- At the first region's exit each of its arrays holds what the pipeline leaves and every other buffer what it held at entry. -/
theorem left0 (c : Dev nD) (w : Fin cfg0.W) : (dat0 (E0 m ρ) c).arrAt w cfg0.N = E1 m ρ c (Pipeline.arrRef spec0 w) :=
  (B1_arr m ρ c w).symm
theorem kept0 (c : Dev nD) : ∀ b, b ∉ Finset.univ.image (Pipeline.arrRef spec0) → E1 m ρ c b = E0 m ρ c b :=
  fun b hb => B1_of_ne m ρ c b fun w e => hb (Finset.mem_image.mpr ⟨w, Finset.mem_univ _, e⟩)
/-- The same at the second region's exit. -/
theorem left1 (c : Dev nD) (w : Fin cfg1.W) : (dat1 (E1 m ρ) c).arrAt w cfg1.N = E2 m ρ c (Pipeline.arrRef spec1 w) :=
  (B2_arr m ρ c w).symm
theorem kept1 (c : Dev nD) : ∀ b, b ∉ Finset.univ.image (Pipeline.arrRef spec1) → E2 m ρ c b = E1 m ρ c b :=
  fun b hb => B2_of_ne m ρ c b fun w e => hb (Finset.mem_image.mpr ⟨w, Finset.mem_univ _, e⟩)

/-! ## The proof data of both regions, and what a core holds beside its buffers -/

/-- Neither pipeline has a prefetched table. -/
abbrev admNone : (p : Fin 2) → (pcfgs (F := F) p).Adm := fun p => (cfgs p).toPCfg_adm
/-- Each region's proof data at the contents the region is entered from; a literal case split, so that the pinned
    configuration at a numeral reduces to the printed one. -/
def pdats : (p : Fin 2) → (c : Dev nD) → Dat τ (Elt F) Unit ℕ (UR sig nD τ) ℕ (Pipeline.pin (pcfgs (F := F)) admNone p) c
  | ⟨0, _⟩ => fun c => dat0 (E0 m ρ) c
  | ⟨1, _⟩ => fun c => dat1 (E1 m ρ) c
/-- No core waits for another: no level is assigned. -/
abbrev noLevels : GSem nD τ sig → Finset Unit := fun _ => ∅
abbrev levelZero : GSem nD τ sig → Unit → ℕ := fun _ _ => 0
/-- Beside its buffers a core holds its generator register, at some state, and owes nothing. -/
abbrev beside (c : Dev nD) : sProp 𝕄 := iprop((∃ r, prngReg c r) ∗ ∃ W, owes (c : Thread nD τ) (0 : CellTallies nD τ sig Unit) W)
/-- The last thread state without the dues: every unscoped buffer at the last boundary's contents, the register. -/
abbrev atEnd (c : Dev nD) : sProp 𝕄 := iprop(StableHlo.held (c : Thread nD τ) (Pipeline.ucRefs τ sig) (B2 m ρ c) ∗ ∃ r, prngReg c r)
/-- An unscoped reference of the core is among those the thread state holds. -/
theorem unscoped_mem (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The two regions as segments

Each region is entered holding every unscoped buffer at the boundary's contents; its windows' arrays are split out of
them and put back at the exit contents; the generator register goes into the region's invariant and comes back.  The
first region's invariant also carries its two accumulators from point to point; it is the plain one before the first
point and after the last. -/

-- a library lemma stated over the pinned configuration unifies with the printed one only when unification may unfold
-- plain definitions in a metavariable's type
set_option backward.isDefEq.respectTransparency.types false in
def reg0 : Pipeline.RegionSeg (pcfgs (F := F)) admNone (pdats m ρ) () defs₀ Variants.none noLevels levelZero 0 where
  win := launch0.win.to₀
  block_pos := launch0.block_pos
  stage_whole := launch0.stage_whole
  K := PEmpty
  osem k := k.elim
  ho := Pipeline.OwnSemFacts.none _
  hbody c := (body_obligation0 (E0 m ρ) c).loose
  hwaits := Pipeline.hwaits_of_owed_zero _ _ _ _ noLevels levelZero 0 fun _ _ => rfl
  pre c := iprop(StableHlo.held (c : Thread nD τ) (Pipeline.ucRefs τ sig) (B0 m ρ c) ∗ beside c)
  post c := iprop(StableHlo.held (c : Thread nD τ) (Pipeline.ucRefs τ sig) (B1 m ρ c) ∗ beside c)
  X c := iprop(∃ r, prngReg c r)
  Y c := iprop(∃ r, prngReg c r)
  Z c := Pipeline.unscopedRest (Ix := Unit) (Name := ℕ) (U := UR sig nD τ) (Lvl := ℕ) spec0 c (E0 m ρ c)
  hentry c := by
    rw [Pipeline.ownSems0_none]
    have harr := Pipeline.arrays_of_unscopedBufs (p := 0) (pcfgs (F := F)) admNone (pdats m ρ) launch0.win launch0.arr_whole c
      ((pdats m ρ 0 c).share_full fun _ => rfl) (E0 m ρ c) fun _ => rfl
    rw [Pipeline.unscopedBufs_held] at harr
    iintro ⟨⟨Hbufs, Hreg, Howes⟩, -, -⟩
    ihave Hs := harr $$ Hbufs
    icases Hs with ⟨Harr, Hrest⟩
    imodintro
    isplitl [Harr]; · iexact Harr
    isplitr; · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩; iexists W; isplitr; · ipureintro; exact fun _ _ => Or.inl trivial
      iexact Howes
    isplitl [Hreg]; · iexact Hreg
    iexact Hrest
  hin c := by
    refine .trans ?_ (phi_in0 (E0 m ρ) c)
    unfold Pipeline.ΦA
    iintro ⟨Hreg, -, Hstage⟩
    isplitl [Hstage]; · iexact Hstage
    iexact Hreg
  hout c := by
    rw [Pipeline.ownSems0_none]
    refine (phi_out0 (E0 m ρ) c).trans ?_
    unfold Pipeline.ΦA
    iintro ⟨Hstage, Hreg⟩
    isplitl [Hreg]; · iexact Hreg
    isplitr; · iempintro
    iexact Hstage
  hexit c := by
    have hback := Pipeline.unscopedBufs_of_arrays (p := 0) (pcfgs (F := F)) admNone (Ix := Unit) (Name := ℕ) (U := UR sig nD τ) (Lvl := ℕ)
      launch0.win launch0.arr_whole c (pdats m ρ) ((pdats m ρ 0 c).share_full fun _ => rfl)
      (E0 m ρ c) (E1 m ρ c) ((pdats m ρ 0 c).arrAt · cfg0.N) (left0 m ρ c) (kept0 m ρ c)
    rw [Pipeline.unscopedBufs_held] at hback
    iintro ⟨Harr, Howes, Hreg, Hrest⟩
    imodintro
    isplitl [Harr Hrest]
    · iapply hback; isplitl [Harr] <;> iassumption
    isplitl [Hreg]; · iexact Hreg
    unfold Pipeline.Dat.owesAt Pipeline.owesWithin
    icases Howes with ⟨%W, -, Howes⟩; iexists W; iexact Howes

-- a library lemma stated over the pinned configuration unifies with the printed one only when unification may unfold
-- plain definitions in a metavariable's type
set_option backward.isDefEq.respectTransparency.types false in
def reg1 : Pipeline.RegionSeg (pcfgs (F := F)) admNone (pdats m ρ) () defs₀ Variants.none noLevels levelZero 1 where
  win := launch1.win.to₀
  block_pos := launch1.block_pos
  stage_whole := launch1.stage_whole
  K := PEmpty
  osem k := k.elim
  ho := Pipeline.OwnSemFacts.none _
  hbody c := (body_obligation1 (E1 m ρ) c).loose
  hwaits := Pipeline.hwaits_of_owed_zero _ _ _ _ noLevels levelZero 1 fun _ _ => rfl
  pre c := iprop(StableHlo.held (c : Thread nD τ) (Pipeline.ucRefs τ sig) (B1 m ρ c) ∗ beside c)
  post c := iprop(atEnd m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E1 m ρ c)
  hentry c := by
    rw [Pipeline.ownSems0_none]
    have harr := Pipeline.arrays_of_unscopedBufs (p := 1) (pcfgs (F := F)) admNone (pdats m ρ) launch1.win launch1.arr_whole c
      ((pdats m ρ 1 c).share_full fun _ => rfl) (E1 m ρ c) fun _ => rfl
    rw [Pipeline.unscopedBufs_held] at harr
    iintro ⟨⟨Hbufs, Hreg, Howes⟩, -, -⟩
    ihave Hs := harr $$ Hbufs
    icases Hs with ⟨Harr, Hrest⟩
    imodintro
    isplitl [Harr]; · iexact Harr
    isplitr; · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩; iexists W; isplitr; · ipureintro; exact fun _ _ => Or.inl trivial
      iexact Howes
    isplitl [Hreg]; · iexact Hreg
    iexact Hrest
  hin c := by
    rw [show (pdats m ρ 1 c).Φ 0 = Pipeline.ΦA spec1 c from rfl]; unfold Pipeline.ΦA
    iintro ⟨Hreg, -, Hstage⟩
    isplitl [Hstage]; · iexact Hstage
    iexact Hreg
  hout c := by
    rw [Pipeline.ownSems0_none, show (pdats m ρ 1 c).Φ (Fin.last _) = Pipeline.ΦA spec1 c from rfl]; unfold Pipeline.ΦA
    iintro ⟨Hstage, Hreg⟩
    isplitl [Hreg]; · iexact Hreg
    isplitr; · iempintro
    iexact Hstage
  hexit c := by
    have hback := Pipeline.unscopedBufs_of_arrays (p := 1) (pcfgs (F := F)) admNone (Ix := Unit) (Name := ℕ) (U := UR sig nD τ) (Lvl := ℕ)
      launch1.win launch1.arr_whole c (pdats m ρ) ((pdats m ρ 1 c).share_full fun _ => rfl)
      (E1 m ρ c) (E2 m ρ c) ((pdats m ρ 1 c).arrAt · cfg1.N) (left1 m ρ c) (kept1 m ρ c)
    rw [Pipeline.unscopedBufs_held] at hback
    iintro ⟨Harr, Howes, Hreg, Hrest⟩
    imodintro
    isplitl [Harr Hrest Hreg]
    · isplitl [Harr Hrest]
      · iapply hback; isplitl [Harr] <;> iassumption
      iexact Hreg
    unfold Pipeline.Dat.owesAt Pipeline.owesWithin
    icases Howes with ⟨%W, -, Howes⟩; iexists W; iexact Howes

/-! ## The program as its two segments, and the launch -/

abbrev segs : List (Pipeline.Seg (pcfgs (F := F)) admNone (pdats m ρ) () defs₀ Variants.none noLevels levelZero) :=
  [ .region (reg0 m ρ), .region (reg1 m ρ) ]
/-- The program is the run of the two segments. -/
theorem main_run (c : Dev nD) : main (F := F) c = Pipeline.Seg.run (segs m ρ) :=
  main_segs admNone (pdats m ρ) () Variants.none noLevels levelZero (reg0 m ρ) (reg1 m ρ) c

-- the launch lemma's implicit arguments are found by unifying its conclusion with this one, which takes unfolding
-- plain definitions in a metavariable's type
set_option backward.isDefEq.respectTransparency.types false in
/-- From any memory with zero counters every weakly fair execution of the program on the cores terminates without a
    fault, and in every final state the result array holds what the second region's write-backs leave and the four
    arguments hold what they were launched with. -/
theorem run_all : θ_run defs (onTc (τ := τ) (main (F := F))) ⟨m, fun _ => 0, ρ⟩ (fun r => ∀ c : Dev nD,
        r.2.mem ((c.tc : Thread nD τ).loc main_v1) = (dat1 (E1 m ρ) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) admNone (pdats m ρ) () cellOf_inj emb₁ defs₀ Variants.none noLevels levelZero m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ beside c)) (Tₙ := atEnd m ρ)
    (hch := ⟨fun _ => .rfl, fun _ => .rfl, fun _ => .rfl⟩)
    (hinit := by
      refine Pipeline.initEach noLevels levelZero fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hbufs, -, Howes, -, Hreg, -⟩, -⟩
      imodintro
      isplitl [Hbufs]; · iexact Hbufs
      isplitl [Hreg]; · iexists _; iexact Hreg
      iexists ∅; iexact Howes)
    (QY := fun c s => ∀ b ∈ Pipeline.ucRefs τ sig, s.mem (((c : Thread nD τ)).1, b) = B2 m ρ c b)
    (hfin := fun c s' => by
      iintro ⟨⟨Hbufs, -⟩, HSI⟩
      unfold StableHlo.held
      imodintro
      iapply (pointsTo_read_all (Pipeline.ucRefs τ sig) (fun b => (((c : Thread nD τ)).1, b)) (B2 m ρ c) s')
      isplitl [Hbufs] <;> iassumption)
    (hQ := fun s h c =>
      ⟨(h c _ (unscoped_mem main_v1 (by decide))).trans (E2_out m ρ c),
       (h c _ (unscoped_mem main_arg0 (by decide))).trans (E2_arg0 m ρ c),
       (h c _ (unscoped_mem main_arg1 (by decide))).trans (E2_arg1 m ρ c),
       (h c _ (unscoped_mem main_arg2 (by decide))).trans (E2_arg2 m ρ c),
       (h c _ (unscoped_mem main_arg3 (by decide))).trans (E2_arg3 m ρ c)⟩)

end Cert.KernelIdeal.Hand

end
-- ==== Proof.LibRowOps.lean ====
/-
  Three readings at an entry (p, q) of a two-axis array, for the shapes a row-wise reduction meets.

  A vector of one value per row, kept as a column [a, 1] and repeated along the columns, reads at (p, q) its value
  for row p.  A vector of one value per column, kept as a row [1, b] and repeated along the rows, reads at (p, q) its
  value for column q.  And the sum over the second axis of an [a, n] array, read on the extended reals, is at row p
  the sum over d of the entries (p, d).
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.RowOps

open Idealize.ShloMosaic Idealize.ShloMosaic.ValueIdx

variable {α : Type}

/-- One value per row, kept as a column and repeated along `b` columns: at (p, q) it is the value of row `p`. -/
theorem column_repeated_apply {a b : ℕ} (v : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (p : Fin a) (q : Fin b) :
    broadcastTo ⟨2, ![a, b]⟩ (shapeCast ⟨2, ![a, 1]⟩ v hc) hb (ix2 p q) = v (ix1 p) := by
  refine (broadcastTo_apply _ hb (ix2 p q) (ix2 p (0 : Fin 1)) fun ax => ?_).trans ?_
  · match ax with
    | ⟨0, _⟩ =>
      show p.val = if a = 1 then 0 else p.val
      split
      · have := p.isLt; omega
      · rfl
    | ⟨1, _⟩ =>
      show 0 = if (1 : ℕ) = 1 then 0 else q.val
      rw [if_pos rfl]
  · exact shapeCast_apply v hc _ _ (by
      rw [Shape.rowMajor_val_one, Shape.rowMajor_val_two]
      show p.val = p.val * 1 + 0
      omega)

/-- One value per column, kept as a row and repeated along `a` rows: at (p, q) it is the value of column `q`. -/
theorem row_repeated_apply {a b : ℕ} (v : (⟨1, ![b]⟩ : Shape).Idx → α)
    (hc : (⟨1, ![b]⟩ : Shape).ShapeCasts ⟨2, ![1, b]⟩) (hb : (⟨2, ![1, b]⟩ : Shape).Broadcasts ⟨2, ![a, b]⟩)
    (p : Fin a) (q : Fin b) :
    broadcastTo ⟨2, ![a, b]⟩ (shapeCast ⟨2, ![1, b]⟩ v hc) hb (ix2 p q) = v (ix1 q) :=
  (broadcastTo_1b_ab_apply _ hb p q).trans (shapeCast_a_1a_apply v hc 0 q)

/-- The sum over the second axis of an [a, n] array of extended reals: at row `p` the sum over `d` of the entries (p, d). -/
theorem sum_over_columns_apply {a n : ℕ} (src : FVec Ideal ⟨2, ![a, n]⟩ .f32)
    (h : (⟨2, ![a, n]⟩ : Shape).Reduces [1] ⟨1, ![a]⟩) (hφ : FKind.Formats .f32)
    (hacc : (0x00000000#32 : BitVec 32) = 0x00000000#32) (p : Fin a) :
    multiReduction .add [1] ⟨1, ![a]⟩ src 0x00000000#32 h hφ hacc (ix1 p) = ∑ d : Fin n, src (ix2 p d) :=
  (Ideal.multiReduction_add_single src 0x00000000#32 h hφ hacc (ix1 p)).trans
    (Finset.sum_congr rfl fun d _ => congrArg src (funext fun ax => Fin.ext (by
      match ax with
      | ⟨0, _⟩ => rfl
      | ⟨1, _⟩ => rfl)))

end Cert.RowOps

end
-- ==== Proof.LibRowMax.lean ====
/-
  The maximum over the second axis of an [a, n] array, read on the extended reals.

  A row-wise maximum that starts from -∞ (the pattern 0xFF800000) is, at row p, the fold of `max` from -∞ over the
  n entries (p, d) of the row, in any order: `max` is commutative and associative on the extended reals.
-/
import Idealize.ShloMosaic.Lib.ValueIdx
import Idealize.ShloMosaic.PureOps.Ideal.Laws

noncomputable section

namespace Cert.RowMax

open Idealize.ShloMosaic Idealize.ShloMosaic.ValueIdx

/-- The maximum over the second axis of an [a, n] array of extended reals, taken from -∞: at row `p` the fold of
    `max` from -∞ over the entries (p, d). -/
theorem max_over_columns_apply {a n : ℕ} (src : FVec Ideal ⟨2, ![a, n]⟩ .f32)
    (h : (⟨2, ![a, n]⟩ : Shape).Reduces [1] ⟨1, ![a]⟩) (hφ : FKind.Formats .f32)
    (hacc : (0xFF800000#32 : BitVec 32) = 0xFF800000#32) (p : Fin a) :
    multiReduction .maximumf [1] ⟨1, ![a]⟩ src 0xFF800000#32 h hφ hacc (ix1 p)
      = (Finset.univ : Finset (Fin n)).fold max (Ideal.ofBits .f32 0xFF800000#32) (fun d => src (ix2 p d)) :=
  (Ideal.multiReduction_maximumf_single src 0xFF800000#32 h hφ hacc (ix1 p)).trans
    (Finset.fold_congr fun d _ => congrArg src (funext fun ax => Fin.ext (by
      match ax with
      | ⟨0, _⟩ => rfl
      | ⟨1, _⟩ => rfl)))

end Cert.RowMax

end
-- ==== Proof.LibSoftmaxRows.lean ====
/-
  The softmax of the rows of a two-axis array, read at an entry on the extended reals.

  For a row zs of n extended reals: its maximum started from −∞ (the word 0xFF800000) and compared with −∞ once more
  (`rowMax`), the shifted exponentials exp(zs q − max) (`expo`), and the softmax weights, each shifted exponential over
  the sum of them all (`weight`).  The array form computes them for every row of an [a, n] array at once: the row
  maxima by a reduction over the second axis from −∞, compared with a repeated −∞, kept as a column [a, 1] and
  repeated along the row; the shifted exponentials; their row sums from the zero word, kept as a column and repeated
  likewise; and the quotient.  At the entry (p, q) that array is the softmax weight of entry q of row p
  (`softmax_rows_apply`), and the repeated row maxima read the row maximum of row p (`row_max_repeated_apply`).  Also
  here: a single value kept as a [1, 1] array and repeated over an [a, b] array reads that value at every entry.
  The extents are variables.  (It imports the row-sum, column-repeat and row-maximum readings of LibRowOps and LibRowMax:
  the three files go together.)
-/
import proofs.«175285_j78357383348331_2_alg».proof.Proof.LibRowOps
import proofs.«175285_j78357383348331_2_alg».proof.Proof.LibRowMax
import Idealize.ShloMosaic.PureOps.Ideal
import Idealize.ShloMosaic.Lib.Pipeline.Value
import Idealize.ShloMosaic.Lib.ValueIdx
import Idealize.ShloMosaic.PureOps.Ideal.Laws

noncomputable section

open scoped BigOperators

namespace Cert.SoftmaxRows

open Idealize.ShloMosaic Idealize.ShloMosaic.ValueIdx

/-- The largest entry of a row, started from −∞ and compared with −∞ once more. -/
def rowMax {n : ℕ} (zs : Fin n → EReal) : EReal :=
  max (Ideal.ofBits .f32 0xFF800000#32)
    ((Finset.univ : Finset (Fin n)).fold max (Ideal.ofBits .f32 0xFF800000#32) zs)

/-- The shifted exponential of entry q of a row. -/
def expo {n : ℕ} (zs : Fin n → EReal) (q : Fin n) : EReal := Ideal.exp (zs q - rowMax zs)

/-- The softmax weight of entry q of a row. -/
def weight {n : ℕ} (zs : Fin n → EReal) (q : Fin n) : EReal :=
  Ideal.div (expo zs q) (∑ q' : Fin n, expo zs q')

/-- A single value, kept as a [1, 1] array and repeated over an [a, b] array: at every entry it is that value. -/
theorem single_repeated_apply {α : Type} {a b : ℕ} (v : (⟨2, ![1, 1]⟩ : Shape).Idx → α)
    (h : (⟨2, ![1, 1]⟩ : Shape).Broadcasts ⟨2, ![a, b]⟩) (p : Fin a) (q : Fin b) :
    broadcastTo ⟨2, ![a, b]⟩ v h (ix2 p q) = v (ix2 (0 : Fin 1) (0 : Fin 1)) := by
  refine broadcastTo_apply v h (ix2 p q) (ix2 (0 : Fin 1) (0 : Fin 1)) fun ax => ?_
  match ax with
  | ⟨0, _⟩ => rfl
  | ⟨1, _⟩ => rfl

/-- The maximum of each row taken from -∞, compared once more with -∞, kept as a column and repeated along the row:
    at (p, q) it is the row maximum of row p. -/
theorem row_max_repeated_apply {a n : ℕ} (T : FVec Ideal ⟨2, ![a, n]⟩ .f32)
    (h : (⟨2, ![a, n]⟩ : Shape).Reduces [1] ⟨1, ![a]⟩) (hφ : FKind.Formats .f32)
    (hacc : (0xFF800000#32 : BitVec 32) = 0xFF800000#32)
    (hc : (⟨1, ![a]⟩ : Shape).ShapeCasts ⟨2, ![a, 1]⟩) (hb : (⟨2, ![a, 1]⟩ : Shape).Broadcasts ⟨2, ![a, n]⟩)
    (p : Fin a) (q : Fin n) :
    broadcastTo ⟨2, ![a, n]⟩
      (shapeCast ⟨2, ![a, 1]⟩
        (maximumf (F := Ideal) (broadcast ⟨1, ![a]⟩ (Ideal.ofBits .f32 0xFF800000#32))
          (multiReduction .maximumf [1] ⟨1, ![a]⟩ T 0xFF800000#32 h hφ hacc)) hc) hb (ix2 p q)
      = rowMax (fun d : Fin n => T (ix2 p d)) :=
  (Cert.RowOps.column_repeated_apply _ hc hb p q).trans
    (congrArg (max (Ideal.ofBits .f32 0xFF800000#32)) (Cert.RowMax.max_over_columns_apply T h hφ hacc p))

/-- The softmax of each row: the shifted exponentials over their row sum, the shift being the row maximum repeated along
    the row and the row sum likewise kept as a column and repeated.  At (p, q) it is the weight of entry q of row p. -/
theorem softmax_rows_apply {a n : ℕ} (T : FVec Ideal ⟨2, ![a, n]⟩ .f32)
    (h : (⟨2, ![a, n]⟩ : Shape).Reduces [1] ⟨1, ![a]⟩) (hφ : FKind.Formats .f32)
    (haccm : (0xFF800000#32 : BitVec 32) = 0xFF800000#32) (hacc0 : (0x00000000#32 : BitVec 32) = 0x00000000#32)
    (hc : (⟨1, ![a]⟩ : Shape).ShapeCasts ⟨2, ![a, 1]⟩) (hb : (⟨2, ![a, 1]⟩ : Shape).Broadcasts ⟨2, ![a, n]⟩)
    (p : Fin a) (q : Fin n) :
    divf (F := Ideal)
      (exp (subf T (broadcastTo ⟨2, ![a, n]⟩
        (shapeCast ⟨2, ![a, 1]⟩
          (maximumf (F := Ideal) (broadcast ⟨1, ![a]⟩ (Ideal.ofBits .f32 0xFF800000#32))
            (multiReduction .maximumf [1] ⟨1, ![a]⟩ T 0xFF800000#32 h hφ haccm)) hc) hb)))
      (broadcastTo ⟨2, ![a, n]⟩
        (shapeCast ⟨2, ![a, 1]⟩
          (multiReduction .add [1] ⟨1, ![a]⟩
            (exp (subf T (broadcastTo ⟨2, ![a, n]⟩
              (shapeCast ⟨2, ![a, 1]⟩
                (maximumf (F := Ideal) (broadcast ⟨1, ![a]⟩ (Ideal.ofBits .f32 0xFF800000#32))
                  (multiReduction .maximumf [1] ⟨1, ![a]⟩ T 0xFF800000#32 h hφ haccm)) hc) hb)))
            0x00000000#32 h hφ hacc0) hc) hb) (ix2 p q)
      = weight (fun d : Fin n => T (ix2 p d)) q := by
  have hE : ∀ d : Fin n,
      exp (F := Ideal) (subf T (broadcastTo ⟨2, ![a, n]⟩
        (shapeCast ⟨2, ![a, 1]⟩
          (maximumf (F := Ideal) (broadcast ⟨1, ![a]⟩ (Ideal.ofBits .f32 0xFF800000#32))
            (multiReduction .maximumf [1] ⟨1, ![a]⟩ T 0xFF800000#32 h hφ haccm)) hc) hb)) (ix2 p d)
        = expo (fun d' : Fin n => T (ix2 p d')) d := fun d =>
    congrArg (fun m => Ideal.exp (T (ix2 p d) - m)) (row_max_repeated_apply T h hφ haccm hc hb p d)
  exact congrArg₂ Ideal.div (hE q)
    ((Cert.RowOps.column_repeated_apply _ hc hb p q).trans
      ((Cert.RowOps.sum_over_columns_apply _ h hφ hacc0 p).trans (Finset.sum_congr rfl fun d _ => hE d)))

end Cert.SoftmaxRows

end
-- ==== Proof.LibSumBlocks.lean ====
/-
  Regrouping a finite sum into consecutive blocks.

  A sum over the N = a * b indices 0, …, N - 1 is the sum, over the a blocks, of the sum over the b offsets inside a
  block: index i * b + j is offset j of block i.  Only commutativity and associativity of the addition are used, so the
  statement holds in any additive commutative monoid (the extended reals included).
-/
import Mathlib.Algebra.BigOperators.Fin
import Mathlib.Logic.Equiv.Fin.Basic

open scoped BigOperators

namespace Cert.SumBlocks

/-- Index `i * b + j` of block `i`, offset `j`, is below `a * b`. -/
theorem block_index_lt {a b : ℕ} (i : Fin a) (j : Fin b) : i.val * b + j.val < a * b := by
  have hi : i.val + 1 ≤ a := i.isLt
  have hj := j.isLt
  have h1 : (i.val + 1) * b ≤ a * b := Nat.mul_le_mul_right b hi
  rw [Nat.succ_mul] at h1
  omega

/-- A sum over `Fin N`, `N = a * b`, regrouped as `a` consecutive blocks of `b` terms. -/
theorem sum_blocks {M : Type*} [AddCommMonoid M] (a b N : ℕ) (hN : N = a * b) (f : Fin N → M) :
    ∑ n : Fin N, f n = ∑ i : Fin a, ∑ j : Fin b, f ⟨i.val * b + j.val, hN ▸ block_index_lt i j⟩ := by
  subst hN
  rw [← Fintype.sum_prod_type', ← (finProdFinEquiv (m := a) (n := b)).sum_comp]
  refine Finset.sum_congr rfl fun p _ => congrArg f (Fin.ext ?_)
  show p.2.val + b * p.1.val = p.1.val * b + p.2.val
  rw [Nat.mul_comm, Nat.add_comm]

end Cert.SumBlocks
-- ==== Proof.Spec.lean ====
/-
  The mathematics of the two programs, on the extended reals.

  Inputs: three arrays q, k, v of shape [4, 4096, 1024] (batch, sequence position, feature) and a square matrix w of
  shape [1024, 1024].  For each batch b:
    * the content matrix  C_b[d, e] = Σ_s q[b, s, d] · k[b, s, e]            (a sum over the 4096 positions),
    * the value matrix    X_b[d, e] = Σ_s k[b, s, d] · v[b, s, e],
    * the filtered query  f[b, s, e] = Σ_d q[b, s, d] · w[d, e],
    * the logits          z[b, s, e] = Σ_d f[b, s, d] · C_b[d, e],
    * the softmax weights of each row z[b, s, ·] (shifted by the row maximum, exponentiated, divided by the row sum),
    * the result          out[b, s, e] = Σ_d weight[b, s, d] · X_b[d, e].
  Both programs compute exactly this; they differ only in how the sums over the 4096 positions are grouped.
-/
import proofs.«175285_j78357383348331_2_alg».proof.Proof.LibSoftmaxRows
import proofs.«175285_j78357383348331_2_alg».proof.Proof.LibSumBlocks
import Idealize.ShloMosaic.PureOps.Ideal
import Idealize.ShloMosaic.Lib.ValueIdx

noncomputable section

namespace Cert.Attn

open Idealize.ShloMosaic Idealize.ShloMosaic.ValueIdx

/-- A batch of 4 sequences of 4096 feature vectors of length 1024, on the extended reals. -/
abbrev Seqs : Type := (⟨3, ![4, 4096, 1024]⟩ : Shape).Idx → EReal
/-- A batch of 4 square matrices. -/
abbrev Mats : Type := (⟨3, ![4, 1024, 1024]⟩ : Shape).Idx → EReal
/-- One square matrix. -/
abbrev Mat : Type := (⟨2, ![1024, 1024]⟩ : Shape).Idx → EReal

/-- The product of the transposed left sequence with the right one, per batch: entry (d, e) of batch b is the sum over the
    4096 positions s of left (b, s, d) · right (b, s, e). -/
def gram (l r : Seqs) (b : Fin 4) (d e : Fin 1024) : EReal := ∑ s : Fin 4096, l (ix3 b s d) * r (ix3 b s e)

/-- The same as a batch of matrices. -/
def gramMats (l r : Seqs) : Mats := fun i => gram l r ⟨(i 0).val, (i 0).isLt⟩ ⟨(i 1).val, (i 1).isLt⟩ ⟨(i 2).val, (i 2).isLt⟩

theorem gramMats_apply (l r : Seqs) (b : Fin 4) (d e : Fin 1024) : gramMats l r (ix3 b d e) = gram l r b d e := rfl

/-- The filtered query: row (b, s) of q times the matrix w. -/
def filt (q : Seqs) (w : Mat) (b : Fin 4) (s : Fin 4096) (e : Fin 1024) : EReal := ∑ d : Fin 1024, q (ix3 b s d) * w (ix2 d e)

/-- The logits from a filtered query and a batch of content matrices. -/
def logitsOf (q : Seqs) (w : Mat) (C : Mats) (b : Fin 4) (s : Fin 4096) (e : Fin 1024) : EReal :=
  ∑ d : Fin 1024, filt q w b s d * C (ix3 b d e)

/-- The result from the content matrices C and the value matrices X: the softmax weights of row (b, s) of the logits
    against column e of X_b. -/
def outOf (q : Seqs) (w : Mat) (C X : Mats) (b : Fin 4) (s : Fin 4096) (e : Fin 1024) : EReal :=
  ∑ d : Fin 1024, Cert.SoftmaxRows.weight (fun e' : Fin 1024 => logitsOf q w C b s e') d * X (ix3 b d e)

/-- The whole computation, entry (b, s, e). -/
def out (q k v : Seqs) (w : Mat) (b : Fin 4) (s : Fin 4096) (e : Fin 1024) : EReal :=
  outOf q w (gramMats q k) (gramMats k v) b s e

/-- The whole computation as an array. -/
def result (q k v : Seqs) (w : Mat) : Seqs :=
  fun i => out q k v w ⟨(i 0).val, (i 0).isLt⟩ ⟨(i 1).val, (i 1).isLt⟩ ⟨(i 2).val, (i 2).isLt⟩

theorem result_apply (q k v : Seqs) (w : Mat) (b : Fin 4) (s : Fin 4096) (e : Fin 1024) :
    result q k v w (ix3 b s e) = out q k v w b s e := rfl

/-- The sum over the 4096 positions, grouped as 16 consecutive blocks of 256: the order in which the blocked program
    accumulates it. -/
theorem gram_blocks (l r : Seqs) (b : Fin 4) (d e : Fin 1024) :
    gram l r b d e = ∑ j : Fin 16, ∑ t : Fin 256,
      l (ix3 b (⟨j.val * 256 + t.val, Cert.SumBlocks.block_index_lt j t⟩ : Fin 4096) d)
        * r (ix3 b (⟨j.val * 256 + t.val, Cert.SumBlocks.block_index_lt j t⟩ : Fin 4096) e) :=
  Cert.SumBlocks.sum_blocks 16 256 4096 rfl _

end Cert.Attn

end
-- ==== Proof.RefSide.lean ====
/-
  The reference computation, read entry by entry on the extended reals.

  The reference forms the filtered query f = q·w, the two position sums C_b = qᵀk and X_b = kᵀv per batch, the logits
  z = f·C_b, the softmax of every row z[b, s, ·] (row maximum from −∞, shifted exponentials, their row sum, the quotient),
  and finally the product of the softmax weights with X_b.  Each stage below reads one of these arrays at an entry
  (b, s, e) with literal coordinate types and identifies it with the corresponding function of the specification.
-/
import proofs.«175285_j78357383348331_2_alg».proof.Proof.Gen.ReferenceIdeal.Read
import proofs.«175285_j78357383348331_2_alg».proof.Proof.Spec

noncomputable section

open scoped BigOperators

namespace Cert.RefSide

open Cert.ReferenceIdeal Cert.ReferenceIdeal.Gen Cert.ReferenceIdeal.Read Idealize.ShloMosaic Idealize.ShloMosaic.ValueIdx

/-- Arrays of shape [4, 4096, 1024] and the square matrix, on the extended reals. -/
abbrev Arr : Type := (⟨Cert.ReferenceIdeal.S4x4096x1024, .f32⟩ : BufTy).Contents (Elt Ideal)
abbrev Sq : Type := (⟨Cert.ReferenceIdeal.S1024x1024, .f32⟩ : BufTy).Contents (Elt Ideal)

/-- The filtered query at (b, s, d): row (b, s) of q against column d of w. -/
theorem filt_at (x0 : Arr) (x3 : Sq) (b : Fin 4) (s : Fin 4096) (d : Fin 1024) :
    val_main_v0 (F := Ideal) x0 x3 (ix3 b s d) = Cert.Attn.filt x0 x3 b s d := by
  refine (val_main_v0_apply x0 x3 (ix3 b s d)).trans ?_
  unfold Cert.Attn.filt
  refine Finset.sum_congr rfl fun k _ => ?_
  have el : lidx_main_v0 (ix3 b s d) k = ix3 b s k := funext fun a => by
    match a with
    | ⟨0, _⟩ => rfl
    | ⟨1, _⟩ => rfl
    | ⟨2, _⟩ => rfl
  have er : ridx_main_v0 (ix3 b s d) k = ix2 k d := funext fun a => by
    match a with
    | ⟨0, _⟩ => rfl
    | ⟨1, _⟩ => rfl
  rw [el, er]

/-- The sum over positions of left (b, ·, d) · right (b, ·, e), for q against k. -/
theorem content_at (x0 x1 : Arr) (b : Fin 4) (d e : Fin 1024) :
    val_main_v1 (F := Ideal) x0 x1 (ix3 b d e) = Cert.Attn.gramMats x0 x1 (ix3 b d e) := by
  refine (val_main_v1_apply x0 x1 (ix3 b d e)).trans ?_
  rw [Cert.Attn.gramMats_apply]
  unfold Cert.Attn.gram
  refine Finset.sum_congr rfl fun k _ => ?_
  have el : lidx_main_v1 (ix3 b d e) k = ix3 b k d := funext fun a => by
    match a with
    | ⟨0, _⟩ => rfl
    | ⟨1, _⟩ => rfl
    | ⟨2, _⟩ => rfl
  have er : ridx_main_v1 (ix3 b d e) k = ix3 b k e := funext fun a => by
    match a with
    | ⟨0, _⟩ => rfl
    | ⟨1, _⟩ => rfl
    | ⟨2, _⟩ => rfl
  rw [el, er]

/-- The same sum for k against v. -/
theorem value_at (x1 x2 : Arr) (b : Fin 4) (d e : Fin 1024) :
    val_main_v2 (F := Ideal) x1 x2 (ix3 b d e) = Cert.Attn.gramMats x1 x2 (ix3 b d e) := by
  refine (val_main_v2_apply x1 x2 (ix3 b d e)).trans ?_
  rw [Cert.Attn.gramMats_apply]
  unfold Cert.Attn.gram
  refine Finset.sum_congr rfl fun k _ => ?_
  have el : lidx_main_v2 (ix3 b d e) k = ix3 b k d := funext fun a => by
    match a with
    | ⟨0, _⟩ => rfl
    | ⟨1, _⟩ => rfl
    | ⟨2, _⟩ => rfl
  have er : ridx_main_v2 (ix3 b d e) k = ix3 b k e := funext fun a => by
    match a with
    | ⟨0, _⟩ => rfl
    | ⟨1, _⟩ => rfl
    | ⟨2, _⟩ => rfl
  rw [el, er]

/-- The logits at (b, s, e): the filtered query's row (b, s) against column e of the content matrix of batch b. -/
theorem logits_at (x0 x1 : Arr) (x3 : Sq) (b : Fin 4) (s : Fin 4096) (e : Fin 1024) :
    val_main_v3 (F := Ideal) x0 x1 x3 (ix3 b s e)
      = Cert.Attn.logitsOf x0 x3 (Cert.Attn.gramMats x0 x1) b s e := by
  refine (val_main_v3_apply x0 x1 x3 (ix3 b s e)).trans ?_
  unfold Cert.Attn.logitsOf
  refine Finset.sum_congr rfl fun k _ => ?_
  have el : lidx_main_v3 (ix3 b s e) k = ix3 b s k := funext fun a => by
    match a with
    | ⟨0, _⟩ => rfl
    | ⟨1, _⟩ => rfl
    | ⟨2, _⟩ => rfl
  have er : ridx_main_v3 (ix3 b s e) k = ix3 b k e := funext fun a => by
    match a with
    | ⟨0, _⟩ => rfl
    | ⟨1, _⟩ => rfl
    | ⟨2, _⟩ => rfl
  rw [el, er, filt_at, content_at]

/-- The running maximum of row (b, s) of the logits, started from −∞. -/
theorem rowfold_at (x0 x1 : Arr) (x3 : Sq) (b : Fin 4) (s : Fin 4096) :
    val_main_v4 (F := Ideal) x0 x1 x3 (ix2 b s)
      = (Finset.univ : Finset (Fin 1024)).fold max (Ideal.ofBits .f32 0xFF800000#32)
          (fun e => Cert.Attn.logitsOf x0 x3 (Cert.Attn.gramMats x0 x1) b s e) := by
  have hr : S4x4096x1024.Reduces [2] S4x4096 := by decide
  have h1 := Host.reduce_eq_fold_single (FloatOps.maximumf : Ideal .f32 → Ideal .f32 → Ideal .f32)
    (val_main_v3 (F := Ideal) x0 x1 x3) (val_main_cst (F := Ideal)) reducesTo_S4x4096x1024_S4x4096_d2 hr h_S_ (ix2 b s)
  refine h1.trans ?_
  refine Finset.fold_congr fun d _ => ?_
  have hl : hr.lift (ix2 b s) d = ix3 b s (⟨d.val, d.isLt⟩ : Fin 1024) := funext fun a => Fin.ext (by
    match a with
    | ⟨0, _⟩ => rfl
    | ⟨1, _⟩ => rfl
    | ⟨2, _⟩ => rfl)
  exact (congrArg (val_main_v3 (F := Ideal) x0 x1 x3) hl).trans (logits_at x0 x1 x3 b s ⟨d.val, d.isLt⟩)

/-- The row maximum of row (b, s): the running maximum compared with −∞ once more. -/
theorem rowmax_at (x0 x1 : Arr) (x3 : Sq) (b : Fin 4) (s : Fin 4096) :
    val_main_v6 (F := Ideal) x0 x1 x3 (ix2 b s)
      = Cert.SoftmaxRows.rowMax (fun e : Fin 1024 => Cert.Attn.logitsOf x0 x3 (Cert.Attn.gramMats x0 x1) b s e) := by
  refine (val_main_v6_apply x0 x1 x3 (ix2 b s)).trans ?_
  rw [rowfold_at]
  rfl

/-- The row maximum repeated along the row: at (b, s, e) it is the row maximum of row (b, s). -/
theorem rowmax_repeated_at (x0 x1 : Arr) (x3 : Sq) (b : Fin 4) (s : Fin 4096) (e : Fin 1024) :
    val_main_v8 (F := Ideal) x0 x1 x3 (ix3 b s e)
      = Cert.SoftmaxRows.rowMax (fun e' : Fin 1024 => Cert.Attn.logitsOf x0 x3 (Cert.Attn.gramMats x0 x1) b s e') := by
  refine (val_main_v8_apply x0 x1 x3 (ix3 b s e)).trans ?_
  refine (val_main_v7_apply x0 x1 x3 _).trans ?_
  have hi : idx_main_v7 (idx_main_v8 (ix3 b s e)) = ix2 b s := funext fun a => by
    match a with
    | ⟨0, _⟩ => rfl
    | ⟨1, _⟩ => rfl
  rw [hi]
  exact rowmax_at x0 x1 x3 b s

/-- The shifted exponential at (b, s, e). -/
theorem expo_at (x0 x1 : Arr) (x3 : Sq) (b : Fin 4) (s : Fin 4096) (e : Fin 1024) :
    val_main_v10 (F := Ideal) x0 x1 x3 (ix3 b s e)
      = Cert.SoftmaxRows.expo (fun e' : Fin 1024 => Cert.Attn.logitsOf x0 x3 (Cert.Attn.gramMats x0 x1) b s e') e := by
  refine (val_main_v10_apply x0 x1 x3 (ix3 b s e)).trans ?_
  rw [val_main_v9_apply, logits_at, rowmax_repeated_at]
  rfl

/-- The sum of the shifted exponentials of row (b, s); the sum starts from zero. -/
theorem rowsum_at (x0 x1 : Arr) (x3 : Sq) (b : Fin 4) (s : Fin 4096) :
    val_main_v11 (F := Ideal) x0 x1 x3 (ix2 b s)
      = ∑ e : Fin 1024,
          Cert.SoftmaxRows.expo (fun e' : Fin 1024 => Cert.Attn.logitsOf x0 x3 (Cert.Attn.gramMats x0 x1) b s e') e := by
  refine (val_main_v11_apply x0 x1 x3 (ix2 b s)).trans ?_
  have h0 : (val_main_cst_1 (F := Ideal)) (Shape.Idx.first h_S_) = 0 := Ideal.ofBits_zero_f32
  rw [h0, zero_add]
  refine Finset.sum_congr rfl fun k _ => ?_
  have hi : idx_main_v11 (ix2 b s) k = ix3 b s k := funext fun a => by
    match a with
    | ⟨0, _⟩ => rfl
    | ⟨1, _⟩ => rfl
    | ⟨2, _⟩ => rfl
  rw [hi]
  exact expo_at x0 x1 x3 b s k

/-- The row sum repeated along the row. -/
theorem rowsum_repeated_at (x0 x1 : Arr) (x3 : Sq) (b : Fin 4) (s : Fin 4096) (e : Fin 1024) :
    val_main_v13 (F := Ideal) x0 x1 x3 (ix3 b s e)
      = ∑ e'' : Fin 1024,
          Cert.SoftmaxRows.expo (fun e' : Fin 1024 => Cert.Attn.logitsOf x0 x3 (Cert.Attn.gramMats x0 x1) b s e') e'' := by
  refine (val_main_v13_apply x0 x1 x3 (ix3 b s e)).trans ?_
  refine (val_main_v12_apply x0 x1 x3 _).trans ?_
  have hi : idx_main_v12 (idx_main_v13 (ix3 b s e)) = ix2 b s := funext fun a => by
    match a with
    | ⟨0, _⟩ => rfl
    | ⟨1, _⟩ => rfl
  rw [hi]
  exact rowsum_at x0 x1 x3 b s

/-- The softmax weight at (b, s, e): the shifted exponential over the row sum. -/
theorem weight_at (x0 x1 : Arr) (x3 : Sq) (b : Fin 4) (s : Fin 4096) (e : Fin 1024) :
    val_main_v14 (F := Ideal) x0 x1 x3 (ix3 b s e)
      = Cert.SoftmaxRows.weight (fun e' : Fin 1024 => Cert.Attn.logitsOf x0 x3 (Cert.Attn.gramMats x0 x1) b s e') e := by
  refine (val_main_v14_apply x0 x1 x3 (ix3 b s e)).trans ?_
  rw [expo_at, rowsum_repeated_at]
  rfl

/-- The result at (b, s, e): the softmax weights of row (b, s) against column e of the value matrix of batch b. -/
theorem out_at (x0 x1 x2 : Arr) (x3 : Sq) (b : Fin 4) (s : Fin 4096) (e : Fin 1024) :
    val_main_v15 (F := Ideal) x0 x1 x2 x3 (ix3 b s e) = Cert.Attn.out x0 x1 x2 x3 b s e := by
  refine (val_main_v15_apply x0 x1 x2 x3 (ix3 b s e)).trans ?_
  unfold Cert.Attn.out Cert.Attn.outOf
  refine Finset.sum_congr rfl fun k _ => ?_
  have el : lidx_main_v15 (ix3 b s e) k = ix3 b s k := funext fun a => by
    match a with
    | ⟨0, _⟩ => rfl
    | ⟨1, _⟩ => rfl
    | ⟨2, _⟩ => rfl
  have er : ridx_main_v15 (ix3 b s e) k = ix3 b k e := funext fun a => by
    match a with
    | ⟨0, _⟩ => rfl
    | ⟨1, _⟩ => rfl
    | ⟨2, _⟩ => rfl
  rw [el, er, weight_at, value_at]

/-- The reference program's result is the specified computation of q, k, v and w. -/
theorem ref_result (x0 x1 x2 : (⟨Cert.ReferenceIdeal.S4x4096x1024, .f32⟩ : BufTy).Contents (Elt Ideal))
    (x3 : (⟨Cert.ReferenceIdeal.S1024x1024, .f32⟩ : BufTy).Contents (Elt Ideal)) :
    Cert.ReferenceIdeal.Read.val_main_v15 x0 x1 x2 x3 = Cert.Attn.result x0 x1 x2 x3 := by
  funext i
  obtain ⟨b, s, e, rfl⟩ : ∃ (b : Fin 4) (s : Fin 4096) (e : Fin 1024), i = ix3 b s e :=
    ⟨i 0, i 1, i 2, eq_ix3 i⟩
  rw [Cert.Attn.result_apply]
  exact out_at x0 x1 x2 x3 b s e

end Cert.RefSide

end
-- ==== Proof.LibMatmulFirstAxes.lean ====
/-
  A matrix product that contracts the first axis of both operands, read at an entry.

  For the dimension numbers that contract the first axis of the left operand with the first axis of the right — an
  [n, a] array, transposed, times an [n, b] array, no batch axis — the product accumulated onto the zero array is, on
  the extended reals, at (p, q) the sum over k of left (k, p) · right (k, q).  The extents are variables, so the
  reading does not change with a kernel's tiling.
-/
import Idealize.ShloMosaic.Lib.ValueIdx
import Idealize.ShloMosaic.PureOps.Ideal.Laws

noncomputable section

open scoped BigOperators

namespace Cert.MatmulFirstAxes

open Idealize.ShloMosaic Idealize.ShloMosaic.ValueIdx

/-- The dimension numbers of a product contracting both first axes — an [n, a] array, transposed, times an [n, b]
    array —, over any witness of their well-formedness. -/
abbrev dims {n a b : ℕ}
    (wf : DotDims.WF ⟨2, ![n, a]⟩ ⟨2, ![n, b]⟩ ⟨2, ![a, b]⟩ [0] [0] [1] [1] [] []) :
    DotDims ⟨2, ![n, a]⟩ ⟨2, ![n, b]⟩ ⟨2, ![a, b]⟩ :=
  ⟨[0], [0], [1], [1], [], [], wf⟩

/-- A product contracting both first axes, onto the zero array: at (p, q) the sum over k of left (k, p) · right (k, q). -/
theorem zero_acc_apply {n a b : ℕ} {φ₁ φ₂ : FTy}
    (wf : DotDims.WF ⟨2, ![n, a]⟩ ⟨2, ![n, b]⟩ ⟨2, ![a, b]⟩ [0] [0] [1] [1] [] [])
    (prec : Option ContractPrecision) (L : FVec Ideal ⟨2, ![n, a]⟩ φ₁) (R : FVec Ideal ⟨2, ![n, b]⟩ φ₂)
    (p : Fin a) (q : Fin b) :
    FloatOps.matmul (dims wf) prec L R (constant ⟨2, ![a, b]⟩ .f32 0x00000000#32) (ix2 p q)
      = ∑ k : Fin n, L (ix2 k p) * R (ix2 k q) := by
  rw [Ideal.matmul_constant_zero_apply, ← Equiv.sum_comp (contrEquiv1 (dims wf) n rfl rfl).symm]
  refine Finset.sum_congr rfl fun k _ => ?_
  have hk := contrEquiv1_symm_val (dims wf) n rfl rfl k
  have el : (dims wf).lhsIdx (ix2 p q) ((contrEquiv1 (dims wf) n rfl rfl).symm k) = ix2 k p :=
    funext fun ax => Fin.ext (by
      match ax with
      | ⟨0, _⟩ => exact ((dims wf).lhsIdx_val_of_single rfl _ _).trans hk
      | ⟨1, _⟩ => rfl)
  have er : (dims wf).rhsIdx (ix2 p q) ((contrEquiv1 (dims wf) n rfl rfl).symm k) = ix2 k q :=
    funext fun ax => Fin.ext (by
      match ax with
      | ⟨0, _⟩ => exact ((dims wf).rhsIdx_val_of_single rfl _ _).trans hk
      | ⟨1, _⟩ => rfl)
  rw [el, er]

end Cert.MatmulFirstAxes

end
-- ==== Proof.LibPlainMatmul.lean ====
/-
  A plain matrix product read at an entry.

  For the dimension numbers of an ordinary product — an [a, n] array times an [n, b] array, contracting the second
  axis of the left with the first axis of the right, no batch axis — the product accumulated onto the zero array is, on
  the extended reals, at (p, q) the sum over k of left (p, k) · right (k, q).  The extents are variables, so the
  reading does not change with a kernel's tiling.
-/
import Idealize.ShloMosaic.Lib.ValueIdx
import Idealize.ShloMosaic.PureOps.Ideal.Laws

noncomputable section

open scoped BigOperators

namespace Cert.PlainMatmul

open Idealize.ShloMosaic Idealize.ShloMosaic.ValueIdx

/-- The dimension numbers of an ordinary [a, n] × [n, b] product, over any witness of their well-formedness. -/
abbrev dims {a n b : ℕ}
    (wf : DotDims.WF ⟨2, ![a, n]⟩ ⟨2, ![n, b]⟩ ⟨2, ![a, b]⟩ [1] [0] [0] [1] [] []) :
    DotDims ⟨2, ![a, n]⟩ ⟨2, ![n, b]⟩ ⟨2, ![a, b]⟩ :=
  ⟨[1], [0], [0], [1], [], [], wf⟩

/-- An ordinary product onto the zero array: at (p, q) the sum over k of left (p, k) · right (k, q). -/
theorem zero_acc_apply {a n b : ℕ} {φ₁ φ₂ : FTy}
    (wf : DotDims.WF ⟨2, ![a, n]⟩ ⟨2, ![n, b]⟩ ⟨2, ![a, b]⟩ [1] [0] [0] [1] [] [])
    (prec : Option ContractPrecision) (L : FVec Ideal ⟨2, ![a, n]⟩ φ₁) (R : FVec Ideal ⟨2, ![n, b]⟩ φ₂)
    (p : Fin a) (q : Fin b) :
    FloatOps.matmul (dims wf) prec L R (constant ⟨2, ![a, b]⟩ .f32 0x00000000#32) (ix2 p q)
      = ∑ k : Fin n, L (ix2 p k) * R (ix2 k q) := by
  rw [Ideal.matmul_constant_zero_apply, ← Equiv.sum_comp (contrEquiv1 (dims wf) n rfl rfl).symm]
  refine Finset.sum_congr rfl fun k _ => ?_
  have hk := contrEquiv1_symm_val (dims wf) n rfl rfl k
  have el : (dims wf).lhsIdx (ix2 p q) ((contrEquiv1 (dims wf) n rfl rfl).symm k) = ix2 p k :=
    funext fun ax => Fin.ext (by
      match ax with
      | ⟨0, _⟩ => rfl
      | ⟨1, _⟩ => exact ((dims wf).lhsIdx_val_of_single rfl _ _).trans hk)
  have er : (dims wf).rhsIdx (ix2 p q) ((contrEquiv1 (dims wf) n rfl rfl).symm k) = ix2 k q :=
    funext fun ax => Fin.ext (by
      match ax with
      | ⟨0, _⟩ => exact ((dims wf).rhsIdx_val_of_single rfl _ _).trans hk
      | ⟨1, _⟩ => rfl)
  rw [el, er]

end Cert.PlainMatmul

end
-- ==== Proof.Payloads.lean ====
/-
  The arithmetic of the kernel bodies, read at an entry on the extended reals.

  Each stored value of a body is a short chain of array operations over the arrays it loaded.  On the extended reals a
  change of number format is the identity, so every chain reads, at an entry, as plain arithmetic: the zero fill is 0;
  an accumulation step adds to the running entry (d, e) the sum over the block's rows r of left (r, d) · right (r, e);
  the final copy-outs read the accumulator entry; and the second body reads a row softmax of a double product, times
  the stored array.
-/
import proofs.«175285_j78357383348331_2_alg».proof.Proof.Gen.KernelIdeal.Skeleton
import proofs.«175285_j78357383348331_2_alg».proof.Proof.LibMatmulFirstAxes
import proofs.«175285_j78357383348331_2_alg».proof.Proof.LibPlainMatmul
import proofs.«175285_j78357383348331_2_alg».proof.Proof.LibSoftmaxRows
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Pay

open Cert.KernelIdeal Cert.KernelIdeal.Gen Idealize.ShloMosaic Idealize.ShloMosaic.ValueIdx

variable [Cert.KernelIdeal.Facts]
open Cert.KernelIdeal.Facts₀ Cert.KernelIdeal.Facts

/-- The first zero fill: every entry is 0. -/
theorem pay1_apply (d e : Fin 1024) : k0_pay1 (F := Ideal) (ix2 d e) = 0 := by
  unfold k0_pay1
  refine (congrFun (shapeCast_self _ _) (ix2 d e)).trans ?_
  exact Ideal.ofBits_zero_f32

/-- The second zero fill: every entry is 0. -/
theorem pay2_apply (d e : Fin 1024) : k0_pay2 (F := Ideal) (ix2 d e) = 0 := by
  unfold k0_pay2
  refine (congrFun (shapeCast_self _ _) (ix2 d e)).trans ?_
  exact Ideal.ofBits_zero_f32

/-- The copy-out of the first accumulator, with a unit axis in front: entry (0, d, e) is the accumulator's (d, e). -/
theorem pay6_apply (acc : Vec Ideal S1024x1024 .f32) (d e : Fin 1024) :
    k0_pay6 acc (ix3 (0 : Fin 1) d e) = acc (ix2 d e) := by
  unfold k0_pay6
  exact shapeCast_ab_1ab_apply _ _ (0 : Fin 1) d e

/-- The copy-out of the second accumulator, narrowed in format (the identity on the extended reals) and with a unit
    axis in front: entry (0, d, e) is the accumulator's (d, e). -/
theorem pay7_apply (acc : Vec Ideal S1024x1024 .f32) (d e : Fin 1024) :
    k0_pay7 acc (ix3 (0 : Fin 1) d e) = acc (ix2 d e) := by
  unfold k0_pay7
  exact shapeCast_ab_1ab_apply _ _ (0 : Fin 1) d e

/-- One accumulation step of the first product: to the running entry (d, e) it adds the sum over the block's rows r of
    left (0, r, d) · right (0, r, e). -/
theorem pay4_apply (x0 x1 : Vec Ideal S1x256x1024 .f32) (acc : Vec Ideal S1024x1024 .f32) (d e : Fin 1024) :
    k0_pay4 x0 x1 acc (ix2 d e)
      = acc (ix2 d e) + ∑ r : Fin 256, x0 (ix3 (0 : Fin 1) r d) * x1 (ix3 (0 : Fin 1) r e) := by
  unfold k0_pay4 k0_pay3
  refine (congrFun (shapeCast_self _ _) (ix2 d e)).trans ?_
  refine congrArg (fun t => acc (ix2 d e) + t) ?_
  refine (Cert.MatmulFirstAxes.zero_acc_apply Facts₀.dot_S256x1024_S256x1024_S1024x1024_0_0_1_1_n_n_wf (some .fp32) _ _ d e).trans ?_
  refine Finset.sum_congr rfl fun r _ => ?_
  exact congrArg₂ (· * ·) (shapeCast_1ab_ab_apply x0 _ r d) (shapeCast_1ab_ab_apply x1 _ r e)

/-- One accumulation step of the second product, its operands narrowed in format first (the identity on the extended
    reals): to the running entry (d, e) it adds the sum over the block's rows r of left (0, r, d) · right (0, r, e). -/
theorem pay5_apply (x1 x2 : Vec Ideal S1x256x1024 .f32) (acc : Vec Ideal S1024x1024 .f32) (d e : Fin 1024) :
    k0_pay5 x1 x2 acc (ix2 d e)
      = acc (ix2 d e) + ∑ r : Fin 256, x1 (ix3 (0 : Fin 1) r d) * x2 (ix3 (0 : Fin 1) r e) := by
  unfold k0_pay5 k0_pay3
  refine (congrFun (shapeCast_self _ _) (ix2 d e)).trans ?_
  refine congrArg (fun t => acc (ix2 d e) + t) ?_
  refine (Cert.MatmulFirstAxes.zero_acc_apply Facts₀.dot_S256x1024_S256x1024_S1024x1024_0_0_1_1_n_n_wf none _ _ d e).trans ?_
  refine Finset.sum_congr rfl fun r _ => ?_
  exact congrArg₂ (· * ·) (shapeCast_1ab_ab_apply x1 _ r d) (shapeCast_1ab_ab_apply x2 _ r e)

/-- The double product inside the second body, before the softmax: the [512, 1024] block times the weight array, times
    the first stored array.  At (s, e') it is the sum over d' of (the sum over d'' of x0 (0, s, d'') · w (d'', d')) ·
    C (0, d', e'). -/
theorem scores_apply (x0 : Vec Ideal S1x512x1024 .f32) (w : Vec Ideal S1024x1024 .f32)
    (C : Vec Ideal S1x1024x1024 .f32) (s : Fin 512) (e' : Fin 1024) :
    FloatOps.matmul (F := Ideal) (φ₁ := .f32) (φ₂ := .f32) dot_S512x1024_S1024x1024_S512x1024_1_0_0_1_n_n (some .fp32)
        (FloatOps.matmul (F := Ideal) (φ₁ := .f32) (φ₂ := .f32) dot_S512x1024_S1024x1024_S512x1024_1_0_0_1_n_n (some .fp32)
          (shapeCast S512x1024 x0 Facts₀.shapeCasts_S1x512x1024_S512x1024 : FVec Ideal S512x1024 .f32)
          (w : FVec Ideal S1024x1024 .f32) (constant S512x1024 .f32 0x00000000#32) : FVec Ideal S512x1024 .f32)
        (shapeCast S1024x1024 C Facts₀.shapeCasts_S1x1024x1024_S1024x1024 : FVec Ideal S1024x1024 .f32)
        (constant S512x1024 .f32 0x00000000#32) (ix2 s e')
      = ∑ d' : Fin 1024, (∑ d'' : Fin 1024, x0 (ix3 (0 : Fin 1) s d'') * w (ix2 d'' d')) * C (ix3 (0 : Fin 1) d' e') := by
  refine (Cert.PlainMatmul.zero_acc_apply Facts₀.dot_S512x1024_S1024x1024_S512x1024_1_0_0_1_n_n_wf (some .fp32) _ _ s e').trans ?_
  refine Finset.sum_congr rfl fun d' _ => ?_
  refine congrArg₂ (· * ·) ?_ (shapeCast_1ab_ab_apply C _ d' e')
  refine (Cert.PlainMatmul.zero_acc_apply Facts₀.dot_S512x1024_S1024x1024_S512x1024_1_0_0_1_n_n_wf (some .fp32) _ _ s d').trans ?_
  refine Finset.sum_congr rfl fun d'' _ => ?_
  exact congrArg (· * w (ix2 d'' d')) (shapeCast_1ab_ab_apply x0 _ s d'')

/-- The second body's stored block: the row softmax of the double product, narrowed in format (the identity on the
    extended reals), times the second stored array.  At (0, s, e) it is the sum over d of the softmax weight of entry d
    of row s of the double product, times X (0, d, e). -/
theorem k1_pay1_apply (x0 : Vec Ideal S1x512x1024 .f32) (w : Vec Ideal S1024x1024 .f32)
    (C : Vec Ideal S1x1024x1024 .f32) (X : Vec Ideal S1x1024x1024 .bf16) (s : Fin 512) (e : Fin 1024) :
    k1_pay1 x0 w C X (ix3 (0 : Fin 1) s e)
      = ∑ d : Fin 1024, Cert.SoftmaxRows.weight
          (fun e' : Fin 1024 => ∑ d' : Fin 1024,
            (∑ d'' : Fin 1024, x0 (ix3 (0 : Fin 1) s d'') * w (ix2 d'' d')) * C (ix3 (0 : Fin 1) d' e')) d
        * X (ix3 (0 : Fin 1) d e) := by
  unfold k1_pay1
  refine (shapeCast_ab_1ab_apply _ _ (0 : Fin 1) s e).trans ?_
  refine (Cert.PlainMatmul.zero_acc_apply Facts₀.dot_S512x1024_S1024x1024_S512x1024_1_0_0_1_n_n_wf none _ _ s e).trans ?_
  refine Finset.sum_congr rfl fun d _ => ?_
  refine congrArg₂ (· * ·) ?_ (shapeCast_1ab_ab_apply X _ d e)
  refine (truncf_apply (φ := .f32) (ψ := .bf16) _ Gen.bitsLt_bf16_f32 (ix2 s d)).trans ?_
  refine (Cert.SoftmaxRows.softmax_rows_apply _ _ _ _ _ _ _ s d).trans ?_
  exact congrArg (fun zs => Cert.SoftmaxRows.weight zs d) (funext fun e' => scores_apply x0 w C s e')

end Cert.KernelIdeal.Pay

end
-- ==== Proof.Val.R1Value.lean ====
/- What the second kernel region leaves in its output array, as one function of the contents of the arrays it reads
   when it is entered.

   The grid is 4 × 8: point t works on batch t / 8 and on the block of 512 consecutive positions number t % 8.
   It reads rows 512·(t % 8) … 512·(t % 8) + 511 of batch t / 8 of the query array, the whole weight matrix, and
   the two stored matrices of batch t / 8, and writes the same rows of the same batch of the output.  The value it
   writes at (0, s, e) is, by the arithmetic of the body, the softmax-weighted sum that defines the specification's
   entry (t / 8, 512·(t % 8) + s, e).  The 32 blocks tile the output array, so it ends at the specification's function
   of the four arrays. -/
import proofs.«175285_j78357383348331_2_alg».proof.Proof.KI.R1Frame
import proofs.«175285_j78357383348331_2_alg».proof.Proof.Spec
import proofs.«175285_j78357383348331_2_alg».proof.Proof.Payloads
import Idealize.ShloMosaic.Lib.Pipeline.Value
import Idealize.ShloMosaic.Lib.ValueIdx
import Idealize.ShloMosaic.Lib.ValueLayout

set_option maxRecDepth 16384

noncomputable section

open scoped BigOperators

namespace Cert.KernelIdeal.HandVal

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

/-! ## The output buffer after the body is the body's stored value -/

theorem zeros3 : (![0, 0, 0] : Fin 3 → Nat) = fun _ => 0 := funext fun a => by fin_cases a <;> rfl
theorem zeros2 : (![0, 0] : Fin 2 → Nat) = fun _ => 0 := funext fun a => by fin_cases a <;> rfl

/-- Every access of the body is to a whole buffer at offset zero: the loads return the buffers' contents and the one
    store leaves its value. -/
theorem res1_eq {F : FTy → Type} [FloatOps F] (x0 : Vec F S1x512x1024 .f32) (x1 : Vec F S1024x1024 .f32)
    (x2 : Vec F S1x1024x1024 .f32) (x3 : Vec F S1x1024x1024 .bf16) : res1 x0 x1 x2 x3 = k1_pay1 x0 x1 x2 x3 := by
  unfold res1
  rw [View.canon_unit_zero zeros3]
  simp only [View.ld_unit_zero (S := S1x512x1024) zeros3, View.ld_unit_zero (S := S1024x1024) zeros2,
    View.ld_unit_zero (S := S1x1024x1024) zeros3]

/-! ## The stored value against the specification, entry by entry -/

/-- If row s of the query block is row S of batch b of the query array, the weight block is the weight matrix, and the
    two stored blocks are batch b of the two stored arrays, then the body's value at (0, s, e) is the specification's
    entry (b, S, e). -/
theorem stored_entry (q : Cert.Attn.Seqs) (w : Cert.Attn.Mat) (C X : Cert.Attn.Mats)
    (x0 : Vec Ideal S1x512x1024 .f32) (x1 : Vec Ideal S1024x1024 .f32) (x2 : Vec Ideal S1x1024x1024 .f32)
    (x3 : Vec Ideal S1x1024x1024 .bf16) (b : Fin 4) (s : Fin 512) (S : Fin 4096) (e : Fin 1024)
    (h0 : ∀ d : Fin 1024, x0 (ix3 (0 : Fin 1) s d) = q (ix3 b S d))
    (h1 : ∀ d d' : Fin 1024, x1 (ix2 d d') = w (ix2 d d'))
    (h2 : ∀ d d' : Fin 1024, x2 (ix3 (0 : Fin 1) d d') = C (ix3 b d d'))
    (h3 : ∀ d d' : Fin 1024, x3 (ix3 (0 : Fin 1) d d') = X (ix3 b d d')) :
    k1_pay1 x0 x1 x2 x3 (ix3 (0 : Fin 1) s e) = Cert.Attn.outOf q w C X b S e := by
  refine (Cert.KernelIdeal.Pay.k1_pay1_apply x0 x1 x2 x3 s e).trans ?_
  unfold Cert.Attn.outOf Cert.Attn.logitsOf Cert.Attn.filt
  refine Finset.sum_congr rfl fun d _ => ?_
  refine congrArg₂ (· * ·) ?_ (h3 d e)
  refine congrArg (fun zs => Cert.SoftmaxRows.weight zs d) (funext fun e' => ?_)
  refine Finset.sum_congr rfl fun d' _ => ?_
  refine congrArg₂ (· * ·) ?_ (h2 d' e')
  refine Finset.sum_congr rfl fun d'' _ => ?_
  exact congrArg₂ (· * ·) (h0 d'') (h1 d'' d')

/-! ## Where each window's block sits in its array -/

/-- The index maps over the grid: point t is batch t / 8 and position block t % 8. -/
theorem idx_facts : ∀ t : Fin cfg1.N,
    win1_0.index t (0 : Fin 3) = t.val / 8 ∧ win1_0.index t (1 : Fin 3) = t.val % 8 ∧ win1_0.index t (2 : Fin 3) = 0
    ∧ win1_1.index t (0 : Fin 2) = 0 ∧ win1_1.index t (1 : Fin 2) = 0
    ∧ win1_2.index t (0 : Fin 3) = t.val / 8 ∧ win1_2.index t (1 : Fin 3) = 0 ∧ win1_2.index t (2 : Fin 3) = 0
    ∧ win1_3.index t (0 : Fin 3) = t.val / 8 ∧ win1_3.index t (1 : Fin 3) = 0 ∧ win1_3.index t (2 : Fin 3) = 0
    ∧ win1_4.index t (0 : Fin 3) = t.val / 8 ∧ win1_4.index t (1 : Fin 3) = t.val % 8 ∧ win1_4.index t (2 : Fin 3) = 0 :=
  (by decide +kernel : ∀ t : Fin grid1.N, _)

variable (V : (c : Dev nD) → (b : Ref sig .tc) → Buf (Elt Ideal) ((c : Thread nD τ).loc b))

/-- Row s of point t's query block is row 512·(t % 8) + s of batch t / 8 of the query array: on each axis an entry of
    a block sits at the block's index times the block's extent plus its coordinate inside the block. -/
theorem qblock_apply (c : Dev nD) (t : Fin cfg1.N) (s : Fin 512) (d : Fin 1024) (b : Fin 4) (S : Fin 4096)
    (hb : b.val = t.val / 8) (hS : S.val = (t.val % 8) * 512 + s.val) :
    (blk1 V c 0 t : Vec Ideal S1x512x1024 .f32) (ix3 (0 : Fin 1) s d)
      = (V c main_arg0 : S4x4096x1024.Idx → EReal) (ix3 b S d) := by
  obtain ⟨f0, f1, f2, -⟩ := idx_facts t
  unfold blk1
  rw [View.read_apply]
  show V c main_arg0 _ = V c main_arg0 _
  congr 1
  funext a
  apply Fin.ext
  match a with
  | ⟨0, _⟩ => show win1_0.index t (0 : Fin 3) * 1 + 1 * 0 = b.val; omega
  | ⟨1, _⟩ => show win1_0.index t (1 : Fin 3) * 512 + 1 * s.val = S.val; omega
  | ⟨2, _⟩ => show win1_0.index t (2 : Fin 3) * 1024 + 1 * d.val = d.val; omega

/-- The weight window's block is the whole weight matrix at every point. -/
theorem wblock_apply (c : Dev nD) (t : Fin cfg1.N) (d d' : Fin 1024) :
    (blk1 V c 1 t : Vec Ideal S1024x1024 .f32) (ix2 d d') = (V c main_arg3 : S1024x1024.Idx → EReal) (ix2 d d') := by
  obtain ⟨-, -, -, g0, g1, -⟩ := idx_facts t
  unfold blk1
  rw [View.read_apply]
  show V c main_arg3 _ = V c main_arg3 _
  congr 1
  funext a
  apply Fin.ext
  match a with
  | ⟨0, _⟩ => show win1_1.index t (0 : Fin 2) * 1024 + 1 * d.val = d.val; omega
  | ⟨1, _⟩ => show win1_1.index t (1 : Fin 2) * 1024 + 1 * d'.val = d'.val; omega

/-- The first stored window's block at point t is batch t / 8 of the first stored array. -/
theorem cblock_apply (c : Dev nD) (t : Fin cfg1.N) (d d' : Fin 1024) (b : Fin 4) (hb : b.val = t.val / 8) :
    (blk1 V c 2 t : Vec Ideal S1x1024x1024 .f32) (ix3 (0 : Fin 1) d d')
      = (V c main_v0_0 : S4x1024x1024.Idx → EReal) (ix3 b d d') := by
  obtain ⟨-, -, -, -, -, k0, k1, k2, -⟩ := idx_facts t
  unfold blk1
  rw [View.read_apply]
  show V c main_v0_0 _ = V c main_v0_0 _
  congr 1
  funext a
  apply Fin.ext
  match a with
  | ⟨0, _⟩ => show win1_2.index t (0 : Fin 3) * 1 + 1 * 0 = b.val; omega
  | ⟨1, _⟩ => show win1_2.index t (1 : Fin 3) * 1024 + 1 * d.val = d.val; omega
  | ⟨2, _⟩ => show win1_2.index t (2 : Fin 3) * 1024 + 1 * d'.val = d'.val; omega

/-- The second stored window's block at point t is batch t / 8 of the second stored array. -/
theorem xblock_apply (c : Dev nD) (t : Fin cfg1.N) (d d' : Fin 1024) (b : Fin 4) (hb : b.val = t.val / 8) :
    (blk1 V c 3 t : Vec Ideal S1x1024x1024 .bf16) (ix3 (0 : Fin 1) d d')
      = (V c main_v0_1 : S4x1024x1024.Idx → EReal) (ix3 b d d') := by
  obtain ⟨-, -, -, -, -, -, -, -, k0, k1, k2, -⟩ := idx_facts t
  unfold blk1
  rw [View.read_apply]
  show V c main_v0_1 _ = V c main_v0_1 _
  congr 1
  funext a
  apply Fin.ext
  match a with
  | ⟨0, _⟩ => show win1_3.index t (0 : Fin 3) * 1 + 1 * 0 = b.val; omega
  | ⟨1, _⟩ => show win1_3.index t (1 : Fin 3) * 1024 + 1 * d.val = d.val; omega
  | ⟨2, _⟩ => show win1_3.index t (2 : Fin 3) * 1024 + 1 * d'.val = d'.val; omega

/-! ## What each point writes back -/

/-- The specification's function of the four arrays the region reads, as an array over the output's indices. -/
abbrev target (c : Dev nD) : S4x4096x1024.Idx → EReal := fun i =>
  Cert.Attn.outOf (V c main_arg0) (V c main_arg3) (V c main_v0_0) (V c main_v0_1)
    ⟨(i 0).val, (i 0).isLt⟩ ⟨(i 1).val, (i 1).isLt⟩ ⟨(i 2).val, (i 2).isLt⟩

/-- The target at an index whose coordinates are (b, S, e). -/
theorem target_at (c : Dev nD) (i : S4x4096x1024.Idx) (b : Fin 4) (S : Fin 4096) (e : Fin 1024)
    (h0 : (i 0).val = b.val) (h1 : (i 1).val = S.val) (h2 : (i 2).val = e.val) :
    target V c i = Cert.Attn.outOf (V c main_arg0) (V c main_arg3) (V c main_v0_0) (V c main_v0_1) b S e := by
  have e0 : (⟨(i 0).val, (i 0).isLt⟩ : Fin 4) = b := Fin.ext h0
  have e1 : (⟨(i 1).val, (i 1).isLt⟩ : Fin 4096) = S := Fin.ext h1
  have e2 : (⟨(i 2).val, (i 2).isLt⟩ : Fin 1024) = e := Fin.ext h2
  show Cert.Attn.outOf _ _ _ _ ⟨(i 0).val, (i 0).isLt⟩ ⟨(i 1).val, (i 1).isLt⟩ ⟨(i 2).val, (i 2).isLt⟩ = _
  rw [e0, e1, e2]

/-- Entry (0, s, e) of what point t stores is the target at the place of the output array that entry is written back
    to: batch t / 8, position 512·(t % 8) + s, feature e. -/
theorem out_entry (c : Dev nD) (t : Fin cfg1.N) (s : Fin 512) (e : Fin 1024) :
    k1_pay1 (blk1 V c 0 t) (blk1 V c 1 t) (blk1 V c 2 t) (blk1 V c 3 t) (ix3 (0 : Fin 1) s e)
      = target V c (((cfg1.win 4).blk t).view.emb (ix3 (0 : Fin 1) s e)) := by
  obtain ⟨-, -, -, -, -, -, -, -, -, -, -, o0, o1, o2⟩ := idx_facts t
  have hN : cfg1.N = 32 := N_1
  have ht : t.val < 32 := by have h := t.isLt; omega
  have hb : t.val / 8 < 4 := by omega
  have hS : (t.val % 8) * 512 + s.val < 4096 := by have := s.isLt; omega
  refine (stored_entry (V c main_arg0) (V c main_arg3) (V c main_v0_0) (V c main_v0_1)
    (blk1 V c 0 t) (blk1 V c 1 t) (blk1 V c 2 t) (blk1 V c 3 t)
    ⟨t.val / 8, hb⟩ s ⟨(t.val % 8) * 512 + s.val, hS⟩ e
    (fun d => qblock_apply V c t s d ⟨t.val / 8, hb⟩ ⟨(t.val % 8) * 512 + s.val, hS⟩ rfl rfl)
    (fun d d' => wblock_apply V c t d d')
    (fun d d' => cblock_apply V c t d d' ⟨t.val / 8, hb⟩ rfl)
    (fun d d' => xblock_apply V c t d d' ⟨t.val / 8, hb⟩ rfl)).trans ?_
  refine (target_at V c (((cfg1.win 4).blk t).view.emb (ix3 (0 : Fin 1) s e))
    ⟨t.val / 8, hb⟩ ⟨(t.val % 8) * 512 + s.val, hS⟩ e ?_ ?_ ?_).symm
  · show win1_4.index t (0 : Fin 3) * 1 + 1 * 0 = t.val / 8; omega
  · show win1_4.index t (1 : Fin 3) * 512 + 1 * s.val = (t.val % 8) * 512 + s.val; omega
  · show win1_4.index t (2 : Fin 3) * 1024 + 1 * e.val = e.val; omega

/-- The same at any index of the block: its first coordinate can only be 0. -/
theorem out_block (c : Dev nD) (t : Fin cfg1.N) (y : S1x512x1024.Idx) :
    k1_pay1 (blk1 V c 0 t) (blk1 V c 1 t) (blk1 V c 2 t) (blk1 V c 3 t) y
      = target V c (((cfg1.win 4).blk t).view.emb y) := by
  have hy : y = ix3 (0 : Fin 1) (y 1 : Fin 512) (y 2 : Fin 1024) := by
    funext a
    match a with
    | ⟨0, _⟩ => apply Fin.ext; show (y 0).val = 0; have h : (y 0).val < 1 := (y 0).isLt; omega
    | ⟨1, _⟩ => rfl
    | ⟨2, _⟩ => rfl
  rw [hy]
  exact out_entry V c t (y 1) (y 2)

/-- What point t writes back is its block of the target. -/
theorem flushed_eq (c : Dev nD) (t : Fin cfg1.N) :
    (dat1 V c).flushed 4 t = ((cfg1.win 4).blk t).view.read (Elt Ideal) (target V c) := by
  show (cfg1.win 4).cut (grid1.coords t) ((dat1 V c).after 4 t) = _
  rw [dat1_after4, res1_eq]
  funext j
  exact out_block V c t j

/-! ## The blocks tile the output array -/

/-- An index of the output array is in point t's block iff on every axis its coordinate is in the block's range. -/
theorem mem_oblock (t : Fin cfg1.N) (i : S4x4096x1024.Idx) :
    i ∈ ((cfg1.win 4).blk t).view.set ↔ ∀ a : Fin 3, win1_4.index t a * S1x512x1024.size a ≤ (i a).val
      ∧ (i a).val < win1_4.index t a * S1x512x1024.size a + S1x512x1024.size a := by
  show i ∈ ((View.whole main_v1).slice (win1_4.rect t)).set ↔ _
  rw [View.set_slice_whole, Rect.mem_set_unit]
  exact Iff.rfl

/-- Index (b, p, e) is in the block of point 8·b + p / 512, which is written back. -/
theorem covered (i : S4x4096x1024.Idx) :
    ∃ t : Fin cfg1.N, (cfg1.win 4).flush t = true ∧ i ∈ ((cfg1.win 4).blk t).view.set := by
  have h0 : (i 0).val < 4 := (i 0).isLt
  have h1 : (i 1).val < 4096 := (i 1).isLt
  have h2 : (i 2).val < 1024 := (i 2).isLt
  have hN : cfg1.N = 32 := N_1
  have ht : 8 * (i 0).val + (i 1).val / 512 < cfg1.N := by omega
  obtain ⟨-, -, -, -, -, -, -, -, -, -, -, o0, o1, o2⟩ := idx_facts ⟨8 * (i 0).val + (i 1).val / 512, ht⟩
  refine ⟨⟨8 * (i 0).val + (i 1).val / 512, ht⟩, flush1_4 _, ?_⟩
  rw [mem_oblock]
  intro a
  match a with
  | ⟨0, _⟩ =>
    show win1_4.index ⟨8 * (i 0).val + (i 1).val / 512, ht⟩ (0 : Fin 3) * 1 ≤ (i 0).val
      ∧ (i 0).val < win1_4.index ⟨8 * (i 0).val + (i 1).val / 512, ht⟩ (0 : Fin 3) * 1 + 1
    rw [o0]; show (8 * (i 0).val + (i 1).val / 512) / 8 * 1 ≤ _ ∧ _ < (8 * (i 0).val + (i 1).val / 512) / 8 * 1 + 1; omega
  | ⟨1, _⟩ =>
    show win1_4.index ⟨8 * (i 0).val + (i 1).val / 512, ht⟩ (1 : Fin 3) * 512 ≤ (i 1).val
      ∧ (i 1).val < win1_4.index ⟨8 * (i 0).val + (i 1).val / 512, ht⟩ (1 : Fin 3) * 512 + 512
    rw [o1]; show (8 * (i 0).val + (i 1).val / 512) % 8 * 512 ≤ _ ∧ _ < (8 * (i 0).val + (i 1).val / 512) % 8 * 512 + 512; omega
  | ⟨2, _⟩ =>
    show win1_4.index ⟨8 * (i 0).val + (i 1).val / 512, ht⟩ (2 : Fin 3) * 1024 ≤ (i 2).val
      ∧ (i 2).val < win1_4.index ⟨8 * (i 0).val + (i 1).val / 512, ht⟩ (2 : Fin 3) * 1024 + 1024
    rw [o2]; omega

/-! ## The output array after the region -/

/-- After the last point the output array holds the specification's function of the query array, the weight matrix
    and the two stored arrays as the region found them. -/
theorem region1_final (c : Dev nD) :
    (dat1 (F := Ideal) V c).arrAt 4 cfg1.N
      = fun i => Cert.Attn.outOf (V c main_arg0) (V c main_arg3) (V c main_v0_0) (V c main_v0_1)
          ⟨(i 0).val, (i 0).isLt⟩ ⟨(i 1).val, (i 1).isLt⟩ ⟨(i 2).val, (i 2).isLt⟩ :=
  (dat1 V c).arrAt_eq_of_cover 4 (target V c) (fun t _ => flushed_eq V c t) covered

end Cert.KernelIdeal.HandVal

end
-- ==== Proof.Val.R0Blocks.lean ====
/- What the first kernel region leaves in its two output arrays, given what its body leaves in the two output buffers
   at the last block of each batch.

   The grid is 4 × 16: point t is block t % 16 of batch t / 16.  Each output window's block at point t is the whole
   1024 × 1024 matrix of batch t / 16 of its array, and it is written back exactly at the points with t % 16 = 15.
   So if at every such point entry (0, d, e) of the buffer is the specification's entry (t / 16, d, e), the four
   written-back blocks are the four batches of the specification's array, and they tile the output array. -/
import proofs.«175285_j78357383348331_2_alg».proof.Proof.KI.R0Data
import proofs.«175285_j78357383348331_2_alg».proof.Proof.Spec
import Idealize.ShloMosaic.Lib.Pipeline.Value
import Idealize.ShloMosaic.Lib.ValueIdx
import Idealize.ShloMosaic.Lib.ValueLayout

set_option maxRecDepth 16384

noncomputable section

open scoped BigOperators

namespace Cert.KernelIdeal.HandVal

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

/-! ## The specification's array at an index given by its coordinates -/

theorem gramMats_at (l r : Cert.Attn.Seqs) (i : S4x1024x1024.Idx) (b : Fin 4) (d e : Fin 1024)
    (h0 : (i 0).val = b.val) (h1 : (i 1).val = d.val) (h2 : (i 2).val = e.val) :
    Cert.Attn.gramMats l r i = Cert.Attn.gram l r b d e := by
  have e0 : (⟨(i 0).val, (i 0).isLt⟩ : Fin 4) = b := Fin.ext h0
  have e1 : (⟨(i 1).val, (i 1).isLt⟩ : Fin 1024) = d := Fin.ext h1
  have e2 : (⟨(i 2).val, (i 2).isLt⟩ : Fin 1024) = e := Fin.ext h2
  show Cert.Attn.gram l r ⟨(i 0).val, (i 0).isLt⟩ ⟨(i 1).val, (i 1).isLt⟩ ⟨(i 2).val, (i 2).isLt⟩ = _
  rw [e0, e1, e2]

/-! ## Where the two output windows' blocks sit -/

/-- The index maps over the grid: at point t both output windows are on batch t / 16, at offset zero inside it. -/
theorem out_idx_facts : ∀ t : Fin cfg0.N,
    win0_3.index t (0 : Fin 3) = t.val / 16 ∧ win0_3.index t (1 : Fin 3) = 0 ∧ win0_3.index t (2 : Fin 3) = 0
    ∧ win0_4.index t (0 : Fin 3) = t.val / 16 ∧ win0_4.index t (1 : Fin 3) = 0 ∧ win0_4.index t (2 : Fin 3) = 0 :=
  (by decide +kernel : ∀ t : Fin grid0.N, _)

variable (V : (c : Dev nD) → (b : Ref sig .tc) → Buf (Elt Ideal) ((c : Thread nD τ).loc b))

/-! ## The first output (the product of the first two arrays) -/

/-- Entry (0, d, e) of the first output buffer at a last block is the specification's array at the place it is written
    back to. -/
theorem entryC (c : Dev nD) (l r : Cert.Attn.Seqs) (t : Fin cfg0.N) (d e : Fin 1024)
    (h : ∀ b : Fin 4, b.val = t.val / 16 →
      (outC (F := Ideal) V c t) (ix3 (0 : Fin 1) d e) = Cert.Attn.gram l r b d e) :
    (outC (F := Ideal) V c t) (ix3 (0 : Fin 1) d e)
      = Cert.Attn.gramMats l r (((cfg0.win 3).blk t).view.emb (ix3 (0 : Fin 1) d e)) := by
  obtain ⟨o0, o1, o2, -⟩ := out_idx_facts t
  have hN : cfg0.N = 64 := N_0
  have hb : t.val / 16 < 4 := by have := t.isLt; omega
  refine (h ⟨t.val / 16, hb⟩ rfl).trans ?_
  refine (gramMats_at l r (((cfg0.win 3).blk t).view.emb (ix3 (0 : Fin 1) d e)) ⟨t.val / 16, hb⟩ d e ?_ ?_ ?_).symm
  · show win0_3.index t (0 : Fin 3) * 1 + 1 * 0 = t.val / 16; omega
  · show win0_3.index t (1 : Fin 3) * 1024 + 1 * d.val = d.val; omega
  · show win0_3.index t (2 : Fin 3) * 1024 + 1 * e.val = e.val; omega

/-- The same at any index of the block: its first coordinate can only be 0. -/
theorem blockC (c : Dev nD) (l r : Cert.Attn.Seqs) (t : Fin cfg0.N)
    (h : ∀ b : Fin 4, b.val = t.val / 16 → ∀ d e : Fin 1024,
      (outC (F := Ideal) V c t) (ix3 (0 : Fin 1) d e) = Cert.Attn.gram l r b d e)
    (y : S1x1024x1024.Idx) :
    (outC (F := Ideal) V c t) y = Cert.Attn.gramMats l r (((cfg0.win 3).blk t).view.emb y) := by
  have hy : y = ix3 (0 : Fin 1) (y 1 : Fin 1024) (y 2 : Fin 1024) := by
    funext a
    match a with
    | ⟨0, _⟩ => apply Fin.ext; show (y 0).val = 0; have h' : (y 0).val < 1 := (y 0).isLt; omega
    | ⟨1, _⟩ => rfl
    | ⟨2, _⟩ => rfl
  rw [hy]
  exact entryC V c l r t (y 1) (y 2) (fun b hb => h b hb (y 1) (y 2))

/-- An index of the first output array is in point t's block iff on every axis its coordinate is in the block's range. -/
theorem mem_blockC (t : Fin cfg0.N) (i : S4x1024x1024.Idx) :
    i ∈ ((cfg0.win 3).blk t).view.set ↔ ∀ a : Fin 3, win0_3.index t a * S1x1024x1024.size a ≤ (i a).val
      ∧ (i a).val < win0_3.index t a * S1x1024x1024.size a + S1x1024x1024.size a := by
  show i ∈ ((View.whole main_v0_0).slice (win0_3.rect t)).set ↔ _
  rw [View.set_slice_whole, Rect.mem_set_unit]
  exact Iff.rfl

/-- Index (b, d, e) is in the block of point 16·b + 15, the last block of batch b, which is written back. -/
theorem coveredC (i : S4x1024x1024.Idx) :
    ∃ t : Fin cfg0.N, (cfg0.win 3).flush t = true ∧ i ∈ ((cfg0.win 3).blk t).view.set := by
  have h0 : (i 0).val < 4 := (i 0).isLt
  have h1 : (i 1).val < 1024 := (i 1).isLt
  have h2 : (i 2).val < 1024 := (i 2).isLt
  have hN : cfg0.N = 64 := N_0
  have ht : 16 * (i 0).val + 15 < cfg0.N := by omega
  obtain ⟨o0, o1, o2, -⟩ := out_idx_facts ⟨16 * (i 0).val + 15, ht⟩
  refine ⟨⟨16 * (i 0).val + 15, ht⟩, (flush0_3 _).mpr (by show (16 * (i 0).val + 15) % 16 = 15; omega), ?_⟩
  rw [mem_blockC]
  intro a
  match a with
  | ⟨0, _⟩ =>
    show win0_3.index ⟨16 * (i 0).val + 15, ht⟩ (0 : Fin 3) * 1 ≤ (i 0).val
      ∧ (i 0).val < win0_3.index ⟨16 * (i 0).val + 15, ht⟩ (0 : Fin 3) * 1 + 1
    rw [o0]; show (16 * (i 0).val + 15) / 16 * 1 ≤ _ ∧ _ < (16 * (i 0).val + 15) / 16 * 1 + 1; omega
  | ⟨1, _⟩ =>
    show win0_3.index ⟨16 * (i 0).val + 15, ht⟩ (1 : Fin 3) * 1024 ≤ (i 1).val
      ∧ (i 1).val < win0_3.index ⟨16 * (i 0).val + 15, ht⟩ (1 : Fin 3) * 1024 + 1024
    rw [o1]; omega
  | ⟨2, _⟩ =>
    show win0_3.index ⟨16 * (i 0).val + 15, ht⟩ (2 : Fin 3) * 1024 ≤ (i 2).val
      ∧ (i 2).val < win0_3.index ⟨16 * (i 0).val + 15, ht⟩ (2 : Fin 3) * 1024 + 1024
    rw [o2]; omega

/-- If at the last block of every batch the first output buffer holds that batch of the specification's first product,
    the first output array ends at the whole product. -/
theorem region0_C_of (c : Dev nD)
    (hentry : ∀ (t : Fin cfg0.N), t.val % 16 = 15 → ∀ (b : Fin 4), b.val = t.val / 16 → ∀ (d e : Fin 1024),
      (outC (F := Ideal) V c t) (ix3 (0 : Fin 1) d e) = Cert.Attn.gram (V c main_arg0) (V c main_arg1) b d e) :
    (dat0 (F := Ideal) V c).arrAt 3 cfg0.N = Cert.Attn.gramMats (V c main_arg0) (V c main_arg1) :=
  (dat0 V c).arrAt_eq_of_cover 3 (Cert.Attn.gramMats (V c main_arg0) (V c main_arg1))
    (fun t hf => by
      show (cfg0.win 3).cut (grid0.coords t) ((dat0 V c).after 3 t) = _
      rw [dat0_after3]
      funext j
      exact blockC V c (V c main_arg0) (V c main_arg1) t (hentry t ((flush0_3 t).mp hf)) j)
    coveredC

/-! ## The second output (the product of the last two arrays) -/

/-- Entry (0, d, e) of the second output buffer at a last block is the specification's array at the place it is written
    back to. -/
theorem entryX (c : Dev nD) (l r : Cert.Attn.Seqs) (t : Fin cfg0.N) (d e : Fin 1024)
    (h : ∀ b : Fin 4, b.val = t.val / 16 →
      (outX (F := Ideal) V c t) (ix3 (0 : Fin 1) d e) = Cert.Attn.gram l r b d e) :
    (outX (F := Ideal) V c t) (ix3 (0 : Fin 1) d e)
      = Cert.Attn.gramMats l r (((cfg0.win 4).blk t).view.emb (ix3 (0 : Fin 1) d e)) := by
  obtain ⟨-, -, -, o0, o1, o2⟩ := out_idx_facts t
  have hN : cfg0.N = 64 := N_0
  have hb : t.val / 16 < 4 := by have := t.isLt; omega
  refine (h ⟨t.val / 16, hb⟩ rfl).trans ?_
  refine (gramMats_at l r (((cfg0.win 4).blk t).view.emb (ix3 (0 : Fin 1) d e)) ⟨t.val / 16, hb⟩ d e ?_ ?_ ?_).symm
  · show win0_4.index t (0 : Fin 3) * 1 + 1 * 0 = t.val / 16; omega
  · show win0_4.index t (1 : Fin 3) * 1024 + 1 * d.val = d.val; omega
  · show win0_4.index t (2 : Fin 3) * 1024 + 1 * e.val = e.val; omega

/-- The same at any index of the block. -/
theorem blockX (c : Dev nD) (l r : Cert.Attn.Seqs) (t : Fin cfg0.N)
    (h : ∀ b : Fin 4, b.val = t.val / 16 → ∀ d e : Fin 1024,
      (outX (F := Ideal) V c t) (ix3 (0 : Fin 1) d e) = Cert.Attn.gram l r b d e)
    (y : S1x1024x1024.Idx) :
    (outX (F := Ideal) V c t) y = Cert.Attn.gramMats l r (((cfg0.win 4).blk t).view.emb y) := by
  have hy : y = ix3 (0 : Fin 1) (y 1 : Fin 1024) (y 2 : Fin 1024) := by
    funext a
    match a with
    | ⟨0, _⟩ => apply Fin.ext; show (y 0).val = 0; have h' : (y 0).val < 1 := (y 0).isLt; omega
    | ⟨1, _⟩ => rfl
    | ⟨2, _⟩ => rfl
  rw [hy]
  exact entryX V c l r t (y 1) (y 2) (fun b hb => h b hb (y 1) (y 2))

/-- An index of the second output array is in point t's block iff on every axis its coordinate is in the block's range. -/
theorem mem_blockX (t : Fin cfg0.N) (i : S4x1024x1024.Idx) :
    i ∈ ((cfg0.win 4).blk t).view.set ↔ ∀ a : Fin 3, win0_4.index t a * S1x1024x1024.size a ≤ (i a).val
      ∧ (i a).val < win0_4.index t a * S1x1024x1024.size a + S1x1024x1024.size a := by
  show i ∈ ((View.whole main_v0_1).slice (win0_4.rect t)).set ↔ _
  rw [View.set_slice_whole, Rect.mem_set_unit]
  exact Iff.rfl

/-- Index (b, d, e) is in the block of point 16·b + 15, which is written back. -/
theorem coveredX (i : S4x1024x1024.Idx) :
    ∃ t : Fin cfg0.N, (cfg0.win 4).flush t = true ∧ i ∈ ((cfg0.win 4).blk t).view.set := by
  have h0 : (i 0).val < 4 := (i 0).isLt
  have h1 : (i 1).val < 1024 := (i 1).isLt
  have h2 : (i 2).val < 1024 := (i 2).isLt
  have hN : cfg0.N = 64 := N_0
  have ht : 16 * (i 0).val + 15 < cfg0.N := by omega
  obtain ⟨-, -, -, o0, o1, o2⟩ := out_idx_facts ⟨16 * (i 0).val + 15, ht⟩
  refine ⟨⟨16 * (i 0).val + 15, ht⟩, (flush0_4 _).mpr (by show (16 * (i 0).val + 15) % 16 = 15; omega), ?_⟩
  rw [mem_blockX]
  intro a
  match a with
  | ⟨0, _⟩ =>
    show win0_4.index ⟨16 * (i 0).val + 15, ht⟩ (0 : Fin 3) * 1 ≤ (i 0).val
      ∧ (i 0).val < win0_4.index ⟨16 * (i 0).val + 15, ht⟩ (0 : Fin 3) * 1 + 1
    rw [o0]; show (16 * (i 0).val + 15) / 16 * 1 ≤ _ ∧ _ < (16 * (i 0).val + 15) / 16 * 1 + 1; omega
  | ⟨1, _⟩ =>
    show win0_4.index ⟨16 * (i 0).val + 15, ht⟩ (1 : Fin 3) * 1024 ≤ (i 1).val
      ∧ (i 1).val < win0_4.index ⟨16 * (i 0).val + 15, ht⟩ (1 : Fin 3) * 1024 + 1024
    rw [o1]; omega
  | ⟨2, _⟩ =>
    show win0_4.index ⟨16 * (i 0).val + 15, ht⟩ (2 : Fin 3) * 1024 ≤ (i 2).val
      ∧ (i 2).val < win0_4.index ⟨16 * (i 0).val + 15, ht⟩ (2 : Fin 3) * 1024 + 1024
    rw [o2]; omega

/-- If at the last block of every batch the second output buffer holds that batch of the specification's second
    product, the second output array ends at the whole product. -/
theorem region0_X_of (c : Dev nD)
    (hentry : ∀ (t : Fin cfg0.N), t.val % 16 = 15 → ∀ (b : Fin 4), b.val = t.val / 16 → ∀ (d e : Fin 1024),
      (outX (F := Ideal) V c t) (ix3 (0 : Fin 1) d e) = Cert.Attn.gram (V c main_arg1) (V c main_arg2) b d e) :
    (dat0 (F := Ideal) V c).arrAt 4 cfg0.N = Cert.Attn.gramMats (V c main_arg1) (V c main_arg2) :=
  (dat0 V c).arrAt_eq_of_cover 4 (Cert.Attn.gramMats (V c main_arg1) (V c main_arg2))
    (fun t hf => by
      show (cfg0.win 4).cut (grid0.coords t) ((dat0 V c).after 4 t) = _
      rw [dat0_after4]
      funext j
      exact blockX V c (V c main_arg1) (V c main_arg2) t (hentry t ((flush0_4 t).mp hf)) j)
    coveredX

end Cert.KernelIdeal.HandVal

end
-- ==== Proof.Val.R0Pieces.lean ====
import proofs.«175285_j78357383348331_2_alg».proof.Proof.KI.R0RunFirst
import proofs.«175285_j78357383348331_2_alg».proof.Proof.KI.R0RunMiddle
import proofs.«175285_j78357383348331_2_alg».proof.Proof.KI.R0RunLast
import proofs.«175285_j78357383348331_2_alg».proof.Proof.KI.R0Data
import Idealize.ShloMosaic.Lib.Pipeline.Value
import Idealize.ShloMosaic.Lib.ValueIdx

set_option maxRecDepth 16384

noncomputable section

namespace Cert.KernelIdeal.HandVal

open Cert.KernelIdeal Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-! ## The stores each run of the body leaves, read back as values

Each run leaves, in a buffer, a last store that covers it; what the buffer then holds is that store's value, over the
blocks the run was given and (where the body reads an accumulator it has just written) the value just stored.  The
buffer is read through any view of its shape. -/

/-- First block: the first accumulator ends at the zero fill plus the block's first product. -/
theorem first_C (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x256x1024 .f32) (harg4 : arg4.IsWhole) (arg5 : Memref sig .tc .vmem S1x1024x1024 .f32) (harg5 : arg5.IsWhole) (arg6 : Memref sig .tc .vmem S1x1024x1024 .bf16) (harg6 : arg6.IsWhole) (arg7 : Memref sig .tc .vmem S1024x1024 .f32) (harg7 : arg7.IsWhole) (arg8 : Memref sig .tc .vmem S1024x1024 .f32) (harg8 : arg8.IsWhole) (hc0 : isFirst i) (hc1 : ¬isLast i)
    (x0 x1 x2 : Vec F S1x256x1024 .f32) (v : View sig .tc .vmem S1024x1024 .f32) (f : v.ty.Contents (Elt F)) :
    v.read (Elt F) (v.writes (Elt F) f (runFirst (F := F) c i arg2 harg2 arg3 harg3 arg4 harg4 arg5 harg5 arg6 harg6 arg7 harg7 arg8 harg8 hc0 hc1 x0 x1 x2).1)
      = k0_pay4 x0 x1 k0_pay1 := by
  rw [View.read_writes_eq_canon _ _ _ (fun y => View.cover_of_tiledL _ S1024x1024.size (by sl_kernel_rfl) y)]
  unfold runFirst
  dsimp only
  sl_unfold_words
  first
    | rw [View.canon_cons_unit_zero (S := S1024x1024) hz2, View.readCov_unit_zero (S := S1024x1024) _ hz2]
    | rw [View.canon_unit_zero hz2]
  try simp only [View.readAt_eq_ld, harg2.read_unread, harg3.read_unread, harg4.read_unread, harg7.read_unread, harg8.read_unread, View.ld_unit_zero (S := S1x256x1024) hz3, View.ld_unit_zero (S := S1024x1024) hz2]
  try rfl

/-- First block: the second accumulator ends at the zero fill plus the block's second product. -/
theorem first_X (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x256x1024 .f32) (harg4 : arg4.IsWhole) (arg5 : Memref sig .tc .vmem S1x1024x1024 .f32) (harg5 : arg5.IsWhole) (arg6 : Memref sig .tc .vmem S1x1024x1024 .bf16) (harg6 : arg6.IsWhole) (arg7 : Memref sig .tc .vmem S1024x1024 .f32) (harg7 : arg7.IsWhole) (arg8 : Memref sig .tc .vmem S1024x1024 .f32) (harg8 : arg8.IsWhole) (hc0 : isFirst i) (hc1 : ¬isLast i)
    (x0 x1 x2 : Vec F S1x256x1024 .f32) (v : View sig .tc .vmem S1024x1024 .f32) (f : v.ty.Contents (Elt F)) :
    v.read (Elt F) (v.writes (Elt F) f (runFirst (F := F) c i arg2 harg2 arg3 harg3 arg4 harg4 arg5 harg5 arg6 harg6 arg7 harg7 arg8 harg8 hc0 hc1 x0 x1 x2).2.1)
      = k0_pay5 x1 x2 k0_pay2 := by
  rw [View.read_writes_eq_canon _ _ _ (fun y => View.cover_of_tiledL _ S1024x1024.size (by sl_kernel_rfl) y)]
  unfold runFirst
  dsimp only
  sl_unfold_words
  first
    | rw [View.canon_cons_unit_zero (S := S1024x1024) hz2, View.readCov_unit_zero (S := S1024x1024) _ hz2]
    | rw [View.canon_unit_zero hz2]
  try simp only [View.readAt_eq_ld, harg2.read_unread, harg3.read_unread, harg4.read_unread, harg7.read_unread, harg8.read_unread, View.ld_unit_zero (S := S1x256x1024) hz3, View.ld_unit_zero (S := S1024x1024) hz2]
  try rfl

/-- Middle block: the first accumulator ends at what it held plus the block's first product. -/
theorem middle_C (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x256x1024 .f32) (harg4 : arg4.IsWhole) (arg5 : Memref sig .tc .vmem S1x1024x1024 .f32) (harg5 : arg5.IsWhole) (arg6 : Memref sig .tc .vmem S1x1024x1024 .bf16) (harg6 : arg6.IsWhole) (arg7 : Memref sig .tc .vmem S1024x1024 .f32) (harg7 : arg7.IsWhole) (arg8 : Memref sig .tc .vmem S1024x1024 .f32) (harg8 : arg8.IsWhole) (hc0 : ¬isFirst i) (hc1 : ¬isLast i)
    (x0 x1 x2 : Vec F S1x256x1024 .f32) (aC aX : Vec F S1024x1024 .f32) (v : View sig .tc .vmem S1024x1024 .f32) (f : v.ty.Contents (Elt F)) :
    v.read (Elt F) (v.writes (Elt F) f (runMiddle (F := F) c i arg2 harg2 arg3 harg3 arg4 harg4 arg5 harg5 arg6 harg6 arg7 harg7 arg8 harg8 hc0 hc1 x0 x1 x2 aC aX).1)
      = k0_pay4 x0 x1 aC := by
  rw [View.read_writes_eq_canon _ _ _ (fun y => View.cover_of_tiledL _ S1024x1024.size (by sl_kernel_rfl) y)]
  unfold runMiddle
  dsimp only
  sl_unfold_words
  first
    | rw [View.canon_cons_unit_zero (S := S1024x1024) hz2, View.readCov_unit_zero (S := S1024x1024) _ hz2]
    | rw [View.canon_unit_zero hz2]
  try simp only [View.readAt_eq_ld, harg2.read_unread, harg3.read_unread, harg4.read_unread, harg7.read_unread, harg8.read_unread, View.ld_unit_zero (S := S1x256x1024) hz3, View.ld_unit_zero (S := S1024x1024) hz2]
  try rfl

/-- Middle block: the second accumulator ends at what it held plus the block's second product. -/
theorem middle_X (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x256x1024 .f32) (harg4 : arg4.IsWhole) (arg5 : Memref sig .tc .vmem S1x1024x1024 .f32) (harg5 : arg5.IsWhole) (arg6 : Memref sig .tc .vmem S1x1024x1024 .bf16) (harg6 : arg6.IsWhole) (arg7 : Memref sig .tc .vmem S1024x1024 .f32) (harg7 : arg7.IsWhole) (arg8 : Memref sig .tc .vmem S1024x1024 .f32) (harg8 : arg8.IsWhole) (hc0 : ¬isFirst i) (hc1 : ¬isLast i)
    (x0 x1 x2 : Vec F S1x256x1024 .f32) (aC aX : Vec F S1024x1024 .f32) (v : View sig .tc .vmem S1024x1024 .f32) (f : v.ty.Contents (Elt F)) :
    v.read (Elt F) (v.writes (Elt F) f (runMiddle (F := F) c i arg2 harg2 arg3 harg3 arg4 harg4 arg5 harg5 arg6 harg6 arg7 harg7 arg8 harg8 hc0 hc1 x0 x1 x2 aC aX).2.1)
      = k0_pay5 x1 x2 aX := by
  rw [View.read_writes_eq_canon _ _ _ (fun y => View.cover_of_tiledL _ S1024x1024.size (by sl_kernel_rfl) y)]
  unfold runMiddle
  dsimp only
  sl_unfold_words
  first
    | rw [View.canon_cons_unit_zero (S := S1024x1024) hz2, View.readCov_unit_zero (S := S1024x1024) _ hz2]
    | rw [View.canon_unit_zero hz2]
  try simp only [View.readAt_eq_ld, harg2.read_unread, harg3.read_unread, harg4.read_unread, harg7.read_unread, harg8.read_unread, View.ld_unit_zero (S := S1x256x1024) hz3, View.ld_unit_zero (S := S1024x1024) hz2]
  try rfl

/-- Last block: the first accumulator ends at what it held plus the block's first product. -/
theorem last_C (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x256x1024 .f32) (harg4 : arg4.IsWhole) (arg5 : Memref sig .tc .vmem S1x1024x1024 .f32) (harg5 : arg5.IsWhole) (arg6 : Memref sig .tc .vmem S1x1024x1024 .bf16) (harg6 : arg6.IsWhole) (arg7 : Memref sig .tc .vmem S1024x1024 .f32) (harg7 : arg7.IsWhole) (arg8 : Memref sig .tc .vmem S1024x1024 .f32) (harg8 : arg8.IsWhole) (hc0 : ¬isFirst i) (hc1 : isLast i)
    (x0 x1 x2 : Vec F S1x256x1024 .f32) (aC aX : Vec F S1024x1024 .f32) (v : View sig .tc .vmem S1024x1024 .f32) (f : v.ty.Contents (Elt F)) :
    v.read (Elt F) (v.writes (Elt F) f (runLast (F := F) c i arg2 harg2 arg3 harg3 arg4 harg4 arg5 harg5 arg6 harg6 arg7 harg7 arg8 harg8 hc0 hc1 x0 x1 x2 aC aX).2.2.1)
      = k0_pay4 x0 x1 aC := by
  rw [View.read_writes_eq_canon _ _ _ (fun y => View.cover_of_tiledL _ S1024x1024.size (by sl_kernel_rfl) y)]
  unfold runLast
  dsimp only
  sl_unfold_words
  first
    | rw [View.canon_cons_unit_zero (S := S1024x1024) hz2, View.readCov_unit_zero (S := S1024x1024) _ hz2]
    | rw [View.canon_unit_zero hz2]
  try simp only [View.readAt_eq_ld, harg2.read_unread, harg3.read_unread, harg4.read_unread, harg7.read_unread, harg8.read_unread, View.ld_unit_zero (S := S1x256x1024) hz3, View.ld_unit_zero (S := S1024x1024) hz2]
  try rfl

/-- Last block: the second accumulator ends at what it held plus the block's second product. -/
theorem last_X (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x256x1024 .f32) (harg4 : arg4.IsWhole) (arg5 : Memref sig .tc .vmem S1x1024x1024 .f32) (harg5 : arg5.IsWhole) (arg6 : Memref sig .tc .vmem S1x1024x1024 .bf16) (harg6 : arg6.IsWhole) (arg7 : Memref sig .tc .vmem S1024x1024 .f32) (harg7 : arg7.IsWhole) (arg8 : Memref sig .tc .vmem S1024x1024 .f32) (harg8 : arg8.IsWhole) (hc0 : ¬isFirst i) (hc1 : isLast i)
    (x0 x1 x2 : Vec F S1x256x1024 .f32) (aC aX : Vec F S1024x1024 .f32) (v : View sig .tc .vmem S1024x1024 .f32) (f : v.ty.Contents (Elt F)) :
    v.read (Elt F) (v.writes (Elt F) f (runLast (F := F) c i arg2 harg2 arg3 harg3 arg4 harg4 arg5 harg5 arg6 harg6 arg7 harg7 arg8 harg8 hc0 hc1 x0 x1 x2 aC aX).2.2.2.1)
      = k0_pay5 x1 x2 aX := by
  rw [View.read_writes_eq_canon _ _ _ (fun y => View.cover_of_tiledL _ S1024x1024.size (by sl_kernel_rfl) y)]
  unfold runLast
  dsimp only
  sl_unfold_words
  first
    | rw [View.canon_cons_unit_zero (S := S1024x1024) hz2, View.readCov_unit_zero (S := S1024x1024) _ hz2]
    | rw [View.canon_unit_zero hz2]
  try simp only [View.readAt_eq_ld, harg2.read_unread, harg3.read_unread, harg4.read_unread, harg7.read_unread, harg8.read_unread, View.ld_unit_zero (S := S1x256x1024) hz3, View.ld_unit_zero (S := S1024x1024) hz2]
  try rfl

/-- Last block: the first output buffer ends at the copy of the first accumulator's final value. -/
theorem last_3 (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x256x1024 .f32) (harg4 : arg4.IsWhole) (arg5 : Memref sig .tc .vmem S1x1024x1024 .f32) (harg5 : arg5.IsWhole) (arg6 : Memref sig .tc .vmem S1x1024x1024 .bf16) (harg6 : arg6.IsWhole) (arg7 : Memref sig .tc .vmem S1024x1024 .f32) (harg7 : arg7.IsWhole) (arg8 : Memref sig .tc .vmem S1024x1024 .f32) (harg8 : arg8.IsWhole) (hc0 : ¬isFirst i) (hc1 : isLast i)
    (x0 x1 x2 : Vec F S1x256x1024 .f32) (aC aX : Vec F S1024x1024 .f32) (v : View sig .tc .vmem S1x1024x1024 .f32) (f : v.ty.Contents (Elt F)) :
    v.read (Elt F) (v.writes (Elt F) f (runLast (F := F) c i arg2 harg2 arg3 harg3 arg4 harg4 arg5 harg5 arg6 harg6 arg7 harg7 arg8 harg8 hc0 hc1 x0 x1 x2 aC aX).1)
      = k0_pay6 (k0_pay4 x0 x1 aC) := by
  rw [View.read_writes_eq_canon _ _ _ (fun y => View.cover_of_tiledL _ S1x1024x1024.size (by sl_kernel_rfl) y)]
  unfold runLast
  dsimp only
  sl_unfold_words
  first
    | rw [View.canon_cons_unit_zero (S := S1x1024x1024) hz3, View.readCov_unit_zero (S := S1x1024x1024) _ hz3]
    | rw [View.canon_unit_zero hz3]
  try rw [View.readCov_unit_zero (S := S1024x1024) _ hz2]
  try simp only [View.readAt_eq_ld, harg2.read_unread, harg3.read_unread, harg4.read_unread, harg7.read_unread, harg8.read_unread, View.ld_unit_zero (S := S1x256x1024) hz3, View.ld_unit_zero (S := S1024x1024) hz2]
  try rfl

/-- Last block: the second output buffer ends at the copy of the second accumulator's final value. -/
theorem last_4 (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x256x1024 .f32) (harg4 : arg4.IsWhole) (arg5 : Memref sig .tc .vmem S1x1024x1024 .f32) (harg5 : arg5.IsWhole) (arg6 : Memref sig .tc .vmem S1x1024x1024 .bf16) (harg6 : arg6.IsWhole) (arg7 : Memref sig .tc .vmem S1024x1024 .f32) (harg7 : arg7.IsWhole) (arg8 : Memref sig .tc .vmem S1024x1024 .f32) (harg8 : arg8.IsWhole) (hc0 : ¬isFirst i) (hc1 : isLast i)
    (x0 x1 x2 : Vec F S1x256x1024 .f32) (aC aX : Vec F S1024x1024 .f32) (v : View sig .tc .vmem S1x1024x1024 .bf16) (f : v.ty.Contents (Elt F)) :
    v.read (Elt F) (v.writes (Elt F) f (runLast (F := F) c i arg2 harg2 arg3 harg3 arg4 harg4 arg5 harg5 arg6 harg6 arg7 harg7 arg8 harg8 hc0 hc1 x0 x1 x2 aC aX).2.1)
      = k0_pay7 (k0_pay5 x1 x2 aX) := by
  rw [View.read_writes_eq_canon _ _ _ (fun y => View.cover_of_tiledL _ S1x1024x1024.size (by sl_kernel_rfl) y)]
  unfold runLast
  dsimp only
  sl_unfold_words
  first
    | rw [View.canon_cons_unit_zero (S := S1x1024x1024) hz3, View.readCov_unit_zero (S := S1x1024x1024) _ hz3]
    | rw [View.canon_unit_zero hz3]
  try rw [View.readCov_unit_zero (S := S1024x1024) _ hz2]
  try simp only [View.readAt_eq_ld, harg2.read_unread, harg3.read_unread, harg4.read_unread, harg7.read_unread, harg8.read_unread, View.ld_unit_zero (S := S1x256x1024) hz3, View.ld_unit_zero (S := S1024x1024) hz2]
  try rfl

section Steps

variable (V : (c : Dev nD) → (b : Ref sig .tc) → Buf (Elt F) ((c : Thread nD τ).loc b))

/-! ## One grid point's effect on the accumulators and the output buffers, as arithmetic on the point's blocks -/

/-- First block of a batch: both accumulators restart from the zero fill and take the block's products. -/
theorem stepFirst_eq (c : Dev nD) (t : Fin cfg0.N) (h0 : t.val % 16 = 0) :
    stepFirst V c t h0
      = (k0_pay4 (blk0 V c 0 t) (blk0 V c 1 t) k0_pay1, k0_pay5 (blk0 V c 1 t) (blk0 V c 2 t) k0_pay2) := by
  unfold stepFirst
  exact congrArg₂ Prod.mk
    (first_C c (grid0.coords t) (sm0_0 t) (hsm0_0 t) (sm0_1 t) (hsm0_1 t) (sm0_2 t) (hsm0_2 t) (sm0_3 t) (hsm0_3 t) (sm0_4 t) (hsm0_4 t) accC (Memref.isWhole_whole _) accX (Memref.isWhole_whole _) ((isFirst_iff t).mpr h0) (notLast_of_first t h0) (blk0 V c 0 t) (blk0 V c 1 t) (blk0 V c 2 t) _ _)
    (first_X c (grid0.coords t) (sm0_0 t) (hsm0_0 t) (sm0_1 t) (hsm0_1 t) (sm0_2 t) (hsm0_2 t) (sm0_3 t) (hsm0_3 t) (sm0_4 t) (hsm0_4 t) accC (Memref.isWhole_whole _) accX (Memref.isWhole_whole _) ((isFirst_iff t).mpr h0) (notLast_of_first t h0) (blk0 V c 0 t) (blk0 V c 1 t) (blk0 V c 2 t) _ _)

/-- Middle block: both accumulators take the block's products on top of what they held. -/
theorem stepMiddle_eq (c : Dev nD) (t : Fin cfg0.N) (h0 : ¬t.val % 16 = 0) (h1 : ¬t.val % 16 = 15)
    (a : Vec F S1024x1024 .f32 × Vec F S1024x1024 .f32) :
    stepMiddle V c t h0 h1 a
      = (k0_pay4 (blk0 V c 0 t) (blk0 V c 1 t) a.1, k0_pay5 (blk0 V c 1 t) (blk0 V c 2 t) a.2) := by
  unfold stepMiddle
  exact congrArg₂ Prod.mk
    (middle_C c (grid0.coords t) (sm0_0 t) (hsm0_0 t) (sm0_1 t) (hsm0_1 t) (sm0_2 t) (hsm0_2 t) (sm0_3 t) (hsm0_3 t) (sm0_4 t) (hsm0_4 t) accC (Memref.isWhole_whole _) accX (Memref.isWhole_whole _) (fun h => h0 ((isFirst_iff t).mp h)) (fun h => h1 ((isLast_iff t).mp h)) (blk0 V c 0 t) (blk0 V c 1 t) (blk0 V c 2 t) a.1 a.2 _ _)
    (middle_X c (grid0.coords t) (sm0_0 t) (hsm0_0 t) (sm0_1 t) (hsm0_1 t) (sm0_2 t) (hsm0_2 t) (sm0_3 t) (hsm0_3 t) (sm0_4 t) (hsm0_4 t) accC (Memref.isWhole_whole _) accX (Memref.isWhole_whole _) (fun h => h0 ((isFirst_iff t).mp h)) (fun h => h1 ((isLast_iff t).mp h)) (blk0 V c 0 t) (blk0 V c 1 t) (blk0 V c 2 t) a.1 a.2 _ _)

/-- Last block: the same for the accumulators. -/
theorem stepLast_eq (c : Dev nD) (t : Fin cfg0.N) (h0 : ¬t.val % 16 = 0) (h1 : t.val % 16 = 15)
    (a : Vec F S1024x1024 .f32 × Vec F S1024x1024 .f32) :
    stepLast V c t h0 h1 a
      = (k0_pay4 (blk0 V c 0 t) (blk0 V c 1 t) a.1, k0_pay5 (blk0 V c 1 t) (blk0 V c 2 t) a.2) := by
  unfold stepLast
  exact congrArg₂ Prod.mk
    (last_C c (grid0.coords t) (sm0_0 t) (hsm0_0 t) (sm0_1 t) (hsm0_1 t) (sm0_2 t) (hsm0_2 t) (sm0_3 t) (hsm0_3 t) (sm0_4 t) (hsm0_4 t) accC (Memref.isWhole_whole _) accX (Memref.isWhole_whole _) (fun h => h0 ((isFirst_iff t).mp h)) ((isLast_iff t).mpr h1) (blk0 V c 0 t) (blk0 V c 1 t) (blk0 V c 2 t) a.1 a.2 _ _)
    (last_X c (grid0.coords t) (sm0_0 t) (hsm0_0 t) (sm0_1 t) (hsm0_1 t) (sm0_2 t) (hsm0_2 t) (sm0_3 t) (hsm0_3 t) (sm0_4 t) (hsm0_4 t) accC (Memref.isWhole_whole _) accX (Memref.isWhole_whole _) (fun h => h0 ((isFirst_iff t).mp h)) ((isLast_iff t).mpr h1) (blk0 V c 0 t) (blk0 V c 1 t) (blk0 V c 2 t) a.1 a.2 _ _)

/-- First block of a batch: the first accumulator restarts from the zero fill and takes the block's first product. -/
theorem stepFirst_C (c : Dev nD) (t : Fin cfg0.N) (h0 : t.val % 16 = 0) :
    (stepFirst V c t h0).1 = k0_pay4 (blk0 V c 0 t) (blk0 V c 1 t) k0_pay1 :=
  congrArg Prod.fst (stepFirst_eq V c t h0)

/-- First block of a batch: the second accumulator restarts from the zero fill and takes the block's second product. -/
theorem stepFirst_X (c : Dev nD) (t : Fin cfg0.N) (h0 : t.val % 16 = 0) :
    (stepFirst V c t h0).2 = k0_pay5 (blk0 V c 1 t) (blk0 V c 2 t) k0_pay2 :=
  congrArg Prod.snd (stepFirst_eq V c t h0)

/-- Middle block: the first accumulator takes the block's first product on top of what it held. -/
theorem stepMiddle_C (c : Dev nD) (t : Fin cfg0.N) (h0 : ¬t.val % 16 = 0) (h1 : ¬t.val % 16 = 15)
    (a : Vec F S1024x1024 .f32 × Vec F S1024x1024 .f32) :
    (stepMiddle V c t h0 h1 a).1 = k0_pay4 (blk0 V c 0 t) (blk0 V c 1 t) a.1 :=
  congrArg Prod.fst (stepMiddle_eq V c t h0 h1 a)

/-- Middle block: the second accumulator takes the block's second product on top of what it held. -/
theorem stepMiddle_X (c : Dev nD) (t : Fin cfg0.N) (h0 : ¬t.val % 16 = 0) (h1 : ¬t.val % 16 = 15)
    (a : Vec F S1024x1024 .f32 × Vec F S1024x1024 .f32) :
    (stepMiddle V c t h0 h1 a).2 = k0_pay5 (blk0 V c 1 t) (blk0 V c 2 t) a.2 :=
  congrArg Prod.snd (stepMiddle_eq V c t h0 h1 a)

/-- Last block: the first accumulator takes the block's first product on top of what it held. -/
theorem stepLast_C (c : Dev nD) (t : Fin cfg0.N) (h0 : ¬t.val % 16 = 0) (h1 : t.val % 16 = 15)
    (a : Vec F S1024x1024 .f32 × Vec F S1024x1024 .f32) :
    (stepLast V c t h0 h1 a).1 = k0_pay4 (blk0 V c 0 t) (blk0 V c 1 t) a.1 :=
  congrArg Prod.fst (stepLast_eq V c t h0 h1 a)

/-- Last block: the second accumulator takes the block's second product on top of what it held. -/
theorem stepLast_X (c : Dev nD) (t : Fin cfg0.N) (h0 : ¬t.val % 16 = 0) (h1 : t.val % 16 = 15)
    (a : Vec F S1024x1024 .f32 × Vec F S1024x1024 .f32) :
    (stepLast V c t h0 h1 a).2 = k0_pay5 (blk0 V c 1 t) (blk0 V c 2 t) a.2 :=
  congrArg Prod.snd (stepLast_eq V c t h0 h1 a)

/-- Last block: the first output buffer takes a copy of the first accumulator's value after this block's addition. -/
theorem copyLast3_eq (c : Dev nD) (t : Fin cfg0.N) (h0 : ¬t.val % 16 = 0) (h1 : t.val % 16 = 15)
    (a : Vec F S1024x1024 .f32 × Vec F S1024x1024 .f32) :
    copyLast3 V c t h0 h1 a = k0_pay6 (k0_pay4 (blk0 V c 0 t) (blk0 V c 1 t) a.1) := by
  unfold copyLast3
  exact last_3 c (grid0.coords t) (sm0_0 t) (hsm0_0 t) (sm0_1 t) (hsm0_1 t) (sm0_2 t) (hsm0_2 t) (sm0_3 t) (hsm0_3 t) (sm0_4 t) (hsm0_4 t) accC (Memref.isWhole_whole _) accX (Memref.isWhole_whole _) (fun h => h0 ((isFirst_iff t).mp h)) ((isLast_iff t).mpr h1) (blk0 V c 0 t) (blk0 V c 1 t) (blk0 V c 2 t) a.1 a.2 _ _

/-- Last block: the second output buffer takes a copy of the second accumulator's value after this block's addition. -/
theorem copyLast4_eq (c : Dev nD) (t : Fin cfg0.N) (h0 : ¬t.val % 16 = 0) (h1 : t.val % 16 = 15)
    (a : Vec F S1024x1024 .f32 × Vec F S1024x1024 .f32) :
    copyLast4 V c t h0 h1 a = k0_pay7 (k0_pay5 (blk0 V c 1 t) (blk0 V c 2 t) a.2) := by
  unfold copyLast4
  exact last_4 c (grid0.coords t) (sm0_0 t) (hsm0_0 t) (sm0_1 t) (hsm0_1 t) (sm0_2 t) (hsm0_2 t) (sm0_3 t) (hsm0_3 t) (sm0_4 t) (hsm0_4 t) accC (Memref.isWhole_whole _) accX (Memref.isWhole_whole _) (fun h => h0 ((isFirst_iff t).mp h)) ((isLast_iff t).mpr h1) (blk0 V c 0 t) (blk0 V c 1 t) (blk0 V c 2 t) a.1 a.2 _ _

end Steps

end Cert.KernelIdeal.HandVal

end
-- ==== Proof.Val.R0Acc.lean ====
/-
  The first region's two outputs, entry by entry.

  The grid is 4 × 16: point t works on batch t / 16 and on the block of 256 consecutive positions number t % 16.  It
  reads rows 256·(t % 16) … 256·(t % 16) + 255 of batch t / 16 of q, k and v.  At the first block of a batch the two
  accumulators are set to zero plus the block's two products (over the block's 256 rows); at every later block the
  block's products are added to them; at the last block they are copied out.  So after the block number j of batch b an
  accumulator's entry (d, e) is the sum, over the blocks 0 … j and the 256 rows of each, of left (b, row, d) ·
  right (b, row, e), and what is copied out after block 15 is the sum over all 4096 positions, grouped in 16 blocks of 256.
-/
import proofs.«175285_j78357383348331_2_alg».proof.Proof.Val.R0Pieces
import proofs.«175285_j78357383348331_2_alg».proof.Proof.Payloads
import proofs.«175285_j78357383348331_2_alg».proof.Proof.Spec
import proofs.«175285_j78357383348331_2_alg».proof.Proof.KI.R0Data
import Idealize.ShloMosaic.Lib.Pipeline.Value
import Idealize.ShloMosaic.Lib.ValueIdx

set_option maxRecDepth 16384

noncomputable section

open scoped BigOperators

namespace Cert.KernelIdeal.HandVal

open Cert.KernelIdeal Cert.KernelIdeal.Gen Cert.KernelIdeal.Hand Cert.KernelIdeal.Pay
open Idealize.ShloMosaic Idealize.ShloMosaic.TcCoe Idealize.ShloMosaic.ValueIdx Idealize.SL.Sem
open Idealize.ShloMosaic.Pipeline (Dat)

/-! ## Where each input window's block sits in its array -/

/-- The three input windows' index maps over the grid: point t is batch t / 16 and position block t % 16. -/
theorem block_index0 : ∀ t : Fin cfg0.N,
    win0_0.index t (0 : Fin 3) = t.val / 16 ∧ win0_0.index t (1 : Fin 3) = t.val % 16 ∧ win0_0.index t (2 : Fin 3) = 0
    ∧ win0_1.index t (0 : Fin 3) = t.val / 16 ∧ win0_1.index t (1 : Fin 3) = t.val % 16 ∧ win0_1.index t (2 : Fin 3) = 0
    ∧ win0_2.index t (0 : Fin 3) = t.val / 16 ∧ win0_2.index t (1 : Fin 3) = t.val % 16 ∧ win0_2.index t (2 : Fin 3) = 0 :=
  (by decide +kernel : ∀ t : Fin grid0.N, _)

variable (V : (c : Dev nD) → (b : Ref sig .tc) → Buf (Elt Ideal) ((c : Thread nD τ).loc b))

/-- Row r of point t's block of q is row 256·(t % 16) + r of batch t / 16 of q: on each axis an entry of a block sits at
    the block's index times the block's extent plus its coordinate inside the block. -/
theorem qrows_apply (c : Dev nD) (t : Fin cfg0.N) (r : Fin 256) (d : Fin 1024) (b : Fin 4) (S : Fin 4096)
    (hb : b.val = t.val / 16) (hS : S.val = (t.val % 16) * 256 + r.val) :
    (blk0 V c 0 t : Vec Ideal S1x256x1024 .f32) (ix3 (0 : Fin 1) r d)
      = (V c main_arg0 : S4x4096x1024.Idx → EReal) (ix3 b S d) := by
  obtain ⟨f0, f1, f2, -⟩ := block_index0 t
  unfold blk0
  rw [View.read_apply]
  show V c main_arg0 _ = V c main_arg0 _
  refine congrArg (V c main_arg0) (funext fun a => Fin.ext ?_)
  match a with
  | ⟨0, _⟩ => show win0_0.index t (0 : Fin 3) * 1 + 1 * 0 = b.val; omega
  | ⟨1, _⟩ => show win0_0.index t (1 : Fin 3) * 256 + 1 * r.val = S.val; omega
  | ⟨2, _⟩ => show win0_0.index t (2 : Fin 3) * 1024 + 1 * d.val = d.val; omega

/-- The same for k. -/
theorem krows_apply (c : Dev nD) (t : Fin cfg0.N) (r : Fin 256) (d : Fin 1024) (b : Fin 4) (S : Fin 4096)
    (hb : b.val = t.val / 16) (hS : S.val = (t.val % 16) * 256 + r.val) :
    (blk0 V c 1 t : Vec Ideal S1x256x1024 .f32) (ix3 (0 : Fin 1) r d)
      = (V c main_arg1 : S4x4096x1024.Idx → EReal) (ix3 b S d) := by
  obtain ⟨-, -, -, f0, f1, f2, -⟩ := block_index0 t
  unfold blk0
  rw [View.read_apply]
  show V c main_arg1 _ = V c main_arg1 _
  refine congrArg (V c main_arg1) (funext fun a => Fin.ext ?_)
  match a with
  | ⟨0, _⟩ => show win0_1.index t (0 : Fin 3) * 1 + 1 * 0 = b.val; omega
  | ⟨1, _⟩ => show win0_1.index t (1 : Fin 3) * 256 + 1 * r.val = S.val; omega
  | ⟨2, _⟩ => show win0_1.index t (2 : Fin 3) * 1024 + 1 * d.val = d.val; omega

/-- The same for v. -/
theorem vrows_apply (c : Dev nD) (t : Fin cfg0.N) (r : Fin 256) (d : Fin 1024) (b : Fin 4) (S : Fin 4096)
    (hb : b.val = t.val / 16) (hS : S.val = (t.val % 16) * 256 + r.val) :
    (blk0 V c 2 t : Vec Ideal S1x256x1024 .f32) (ix3 (0 : Fin 1) r d)
      = (V c main_arg2 : S4x4096x1024.Idx → EReal) (ix3 b S d) := by
  obtain ⟨-, -, -, -, -, -, f0, f1, f2⟩ := block_index0 t
  unfold blk0
  rw [View.read_apply]
  show V c main_arg2 _ = V c main_arg2 _
  refine congrArg (V c main_arg2) (funext fun a => Fin.ext ?_)
  match a with
  | ⟨0, _⟩ => show win0_2.index t (0 : Fin 3) * 1 + 1 * 0 = b.val; omega
  | ⟨1, _⟩ => show win0_2.index t (1 : Fin 3) * 256 + 1 * r.val = S.val; omega
  | ⟨2, _⟩ => show win0_2.index t (2 : Fin 3) * 1024 + 1 * d.val = d.val; omega

/-! ## One block's contribution, and all sixteen -/

/-- The position with block number j and row x inside the block (below 4096 whenever j < 16). -/
def rowOf (j : ℕ) (x : Fin 256) : Fin 4096 := ⟨(j * 256 + x.val) % 4096, Nat.mod_lt _ (by decide)⟩

/-- Block j's contribution to entry (d, e) of the product of batch b: the sum over the block's 256 rows. -/
def blockTerm (l r : Cert.Attn.Seqs) (b : Fin 4) (d e : Fin 1024) (j : ℕ) : EReal :=
  ∑ x : Fin 256, l (ix3 b (rowOf j x) d) * r (ix3 b (rowOf j x) e)

/-- The sixteen blocks' contributions add up to the sum over all 4096 positions. -/
theorem blocks_total (l r : Cert.Attn.Seqs) (b : Fin 4) (d e : Fin 1024) :
    ∑ j ∈ Finset.range 16, blockTerm l r b d e j = Cert.Attn.gram l r b d e := by
  rw [Cert.Attn.gram_blocks, Finset.sum_range]
  refine Finset.sum_congr rfl fun j _ => ?_
  unfold blockTerm
  refine Finset.sum_congr rfl fun x _ => ?_
  have hx : rowOf j.val x = ⟨j.val * 256 + x.val, Cert.SumBlocks.block_index_lt j x⟩ := Fin.ext (by
    show (j.val * 256 + x.val) % 4096 = j.val * 256 + x.val
    have := j.isLt; have := x.isLt; omega)
  rw [hx]

/-! ## The accumulators, block after block -/

/-- One accumulation step of the first product at point t adds the contribution of block t % 16 of batch t / 16. -/
theorem stepC_apply (c : Dev nD) (t : Fin cfg0.N) (b : Fin 4) (hb : b.val = t.val / 16)
    (A : Vec Ideal S1024x1024 .f32) (d e : Fin 1024) :
    k0_pay4 (blk0 V c 0 t) (blk0 V c 1 t) A (ix2 d e)
      = A (ix2 d e) + blockTerm (V c main_arg0) (V c main_arg1) b d e (t.val % 16) := by
  refine (pay4_apply _ _ A d e).trans (congrArg (fun s => A (ix2 d e) + s) ?_)
  unfold blockTerm
  refine Finset.sum_congr rfl fun x _ => ?_
  have hx : (rowOf (t.val % 16) x).val = (t.val % 16) * 256 + x.val := by
    show ((t.val % 16) * 256 + x.val) % 4096 = _
    have := x.isLt; omega
  exact congrArg₂ (· * ·) (qrows_apply V c t x d b _ hb hx) (krows_apply V c t x e b _ hb hx)

/-- After the point at position n the first accumulator's entry (d, e) is the sum of the contributions of the blocks
    0 … n % 16 of batch n / 16. -/
theorem accC_apply (c : Dev nD) : ∀ (n : ℕ) (hn : n < cfg0.N) (b : Fin 4), b.val = n / 16 → ∀ d e : Fin 1024,
    (accAt V c n hn).1 (ix2 d e)
      = ∑ j ∈ Finset.range (n % 16 + 1), blockTerm (V c main_arg0) (V c main_arg1) b d e j := by
  intro n
  induction n with
  | zero =>
    intro hn b hb d e
    have h0 : (⟨0, hn⟩ : Fin cfg0.N).val % 16 = 0 := rfl
    refine (congrFun (congrArg Prod.fst (accAt_first V c ⟨0, hn⟩ h0)) (ix2 d e)).trans ?_
    refine (congrFun (stepFirst_C V c ⟨0, hn⟩ h0) (ix2 d e)).trans ?_
    refine (stepC_apply V c ⟨0, hn⟩ b hb _ d e).trans ?_
    rw [pay1_apply, zero_add]
    exact (Finset.sum_range_one _).symm
  | succ n ih =>
    intro hn b hb d e
    by_cases h0 : (n + 1) % 16 = 0
    · refine (congrFun (congrArg Prod.fst (accAt_first V c ⟨n + 1, hn⟩ h0)) (ix2 d e)).trans ?_
      refine (congrFun (stepFirst_C V c ⟨n + 1, hn⟩ h0) (ix2 d e)).trans ?_
      refine (stepC_apply V c ⟨n + 1, hn⟩ b hb _ d e).trans ?_
      rw [pay1_apply, zero_add]
      show blockTerm _ _ b d e ((n + 1) % 16) = ∑ j ∈ Finset.range ((n + 1) % 16 + 1), _
      rw [h0]
      exact (Finset.sum_range_one _).symm
    · have hm : (n + 1) % 16 = n % 16 + 1 := by omega
      have hprev := ih (Nat.lt_of_succ_lt hn) b (by omega) d e
      have hstep : (accAt V c (n + 1) hn).1
          = k0_pay4 (blk0 V c 0 ⟨n + 1, hn⟩) (blk0 V c 1 ⟨n + 1, hn⟩) (accAt V c n (Nat.lt_of_succ_lt hn)).1 := by
        by_cases h1 : (n + 1) % 16 = 15
        · exact (congrArg Prod.fst (accAt_last V c ⟨n + 1, hn⟩ h0 h1)).trans (stepLast_C V c ⟨n + 1, hn⟩ h0 h1 _)
        · exact (congrArg Prod.fst (accAt_middle V c ⟨n + 1, hn⟩ h0 h1)).trans (stepMiddle_C V c ⟨n + 1, hn⟩ h0 h1 _)
      refine (congrFun hstep (ix2 d e)).trans ?_
      refine (stepC_apply V c ⟨n + 1, hn⟩ b hb _ d e).trans ?_
      rw [hprev]
      show _ + blockTerm _ _ b d e ((n + 1) % 16) = ∑ j ∈ Finset.range ((n + 1) % 16 + 1), _
      rw [hm, Finset.sum_range_succ _ (n % 16 + 1)]

/-- What the last block of batch b copies out of the first accumulator: entry (0, d, e) is the sum over all 4096
    positions s of q (b, s, d) · k (b, s, e). -/
theorem outC_entry (c : Dev nD) (t : Fin cfg0.N) (h1 : t.val % 16 = 15) (b : Fin 4) (hb : b.val = t.val / 16) (d e : Fin 1024) :
    (outC (F := Ideal) V c t) (ix3 (0 : Fin 1) d e) = Cert.Attn.gram (V c main_arg0) (V c main_arg1) b d e := by
  have h0 : ¬ t.val % 16 = 0 := by omega
  refine (congrFun (outC_last V c t h0 h1) (ix3 (0 : Fin 1) d e)).trans ?_
  refine (congrFun (copyLast3_eq V c t h0 h1 _) (ix3 (0 : Fin 1) d e)).trans ?_
  refine (pay6_apply _ d e).trans ?_
  refine (stepC_apply V c t b hb _ d e).trans ?_
  rw [accC_apply V c (t.val - 1) (pred_lt t) b (by omega) d e]
  have hm : (t.val - 1) % 16 + 1 = 15 := by omega
  rw [hm, h1, ← Finset.sum_range_succ _ 15]
  exact blocks_total _ _ b d e

/-- One accumulation step of the second product at point t adds the contribution of block t % 16 of batch t / 16. -/
theorem stepX_apply (c : Dev nD) (t : Fin cfg0.N) (b : Fin 4) (hb : b.val = t.val / 16)
    (A : Vec Ideal S1024x1024 .f32) (d e : Fin 1024) :
    k0_pay5 (blk0 V c 1 t) (blk0 V c 2 t) A (ix2 d e)
      = A (ix2 d e) + blockTerm (V c main_arg1) (V c main_arg2) b d e (t.val % 16) := by
  refine (pay5_apply _ _ A d e).trans (congrArg (fun s => A (ix2 d e) + s) ?_)
  unfold blockTerm
  refine Finset.sum_congr rfl fun x _ => ?_
  have hx : (rowOf (t.val % 16) x).val = (t.val % 16) * 256 + x.val := by
    show ((t.val % 16) * 256 + x.val) % 4096 = _
    have := x.isLt; omega
  exact congrArg₂ (· * ·) (krows_apply V c t x d b _ hb hx) (vrows_apply V c t x e b _ hb hx)

/-- After the point at position n the second accumulator's entry (d, e) is the sum of the contributions of the blocks
    0 … n % 16 of batch n / 16. -/
theorem accX_apply (c : Dev nD) : ∀ (n : ℕ) (hn : n < cfg0.N) (b : Fin 4), b.val = n / 16 → ∀ d e : Fin 1024,
    (accAt V c n hn).2 (ix2 d e)
      = ∑ j ∈ Finset.range (n % 16 + 1), blockTerm (V c main_arg1) (V c main_arg2) b d e j := by
  intro n
  induction n with
  | zero =>
    intro hn b hb d e
    have h0 : (⟨0, hn⟩ : Fin cfg0.N).val % 16 = 0 := rfl
    refine (congrFun (congrArg Prod.snd (accAt_first V c ⟨0, hn⟩ h0)) (ix2 d e)).trans ?_
    refine (congrFun (stepFirst_X V c ⟨0, hn⟩ h0) (ix2 d e)).trans ?_
    refine (stepX_apply V c ⟨0, hn⟩ b hb _ d e).trans ?_
    rw [pay2_apply, zero_add]
    exact (Finset.sum_range_one _).symm
  | succ n ih =>
    intro hn b hb d e
    by_cases h0 : (n + 1) % 16 = 0
    · refine (congrFun (congrArg Prod.snd (accAt_first V c ⟨n + 1, hn⟩ h0)) (ix2 d e)).trans ?_
      refine (congrFun (stepFirst_X V c ⟨n + 1, hn⟩ h0) (ix2 d e)).trans ?_
      refine (stepX_apply V c ⟨n + 1, hn⟩ b hb _ d e).trans ?_
      rw [pay2_apply, zero_add]
      show blockTerm _ _ b d e ((n + 1) % 16) = ∑ j ∈ Finset.range ((n + 1) % 16 + 1), _
      rw [h0]
      exact (Finset.sum_range_one _).symm
    · have hm : (n + 1) % 16 = n % 16 + 1 := by omega
      have hprev := ih (Nat.lt_of_succ_lt hn) b (by omega) d e
      have hstep : (accAt V c (n + 1) hn).2
          = k0_pay5 (blk0 V c 1 ⟨n + 1, hn⟩) (blk0 V c 2 ⟨n + 1, hn⟩) (accAt V c n (Nat.lt_of_succ_lt hn)).2 := by
        by_cases h1 : (n + 1) % 16 = 15
        · exact (congrArg Prod.snd (accAt_last V c ⟨n + 1, hn⟩ h0 h1)).trans (stepLast_X V c ⟨n + 1, hn⟩ h0 h1 _)
        · exact (congrArg Prod.snd (accAt_middle V c ⟨n + 1, hn⟩ h0 h1)).trans (stepMiddle_X V c ⟨n + 1, hn⟩ h0 h1 _)
      refine (congrFun hstep (ix2 d e)).trans ?_
      refine (stepX_apply V c ⟨n + 1, hn⟩ b hb _ d e).trans ?_
      rw [hprev]
      show _ + blockTerm _ _ b d e ((n + 1) % 16) = ∑ j ∈ Finset.range ((n + 1) % 16 + 1), _
      rw [hm, Finset.sum_range_succ _ (n % 16 + 1)]

/-- What the last block of batch b copies out of the second accumulator: entry (0, d, e) is the sum over all 4096
    positions s of k (b, s, d) · v (b, s, e). -/
theorem outX_entry (c : Dev nD) (t : Fin cfg0.N) (h1 : t.val % 16 = 15) (b : Fin 4) (hb : b.val = t.val / 16) (d e : Fin 1024) :
    (outX (F := Ideal) V c t) (ix3 (0 : Fin 1) d e) = Cert.Attn.gram (V c main_arg1) (V c main_arg2) b d e := by
  have h0 : ¬ t.val % 16 = 0 := by omega
  refine (congrFun (outX_last V c t h0 h1) (ix3 (0 : Fin 1) d e)).trans ?_
  refine (congrFun (copyLast4_eq V c t h0 h1 _) (ix3 (0 : Fin 1) d e)).trans ?_
  refine (pay7_apply _ d e).trans ?_
  refine (stepX_apply V c t b hb _ d e).trans ?_
  rw [accX_apply V c (t.val - 1) (pred_lt t) b (by omega) d e]
  have hm : (t.val - 1) % 16 + 1 = 15 := by omega
  rw [hm, h1, ← Finset.sum_range_succ _ 15]
  exact blocks_total _ _ b d e

end Cert.KernelIdeal.HandVal

end
-- ==== Proof.Val.Final.lean ====
/-
  What the kernel program leaves in its result array, on the extended reals: the second region's output, read at the
  contents the first region leaves, is the specification's function of the four arguments.
-/
import proofs.«175285_j78357383348331_2_alg».proof.Proof.KI.Run
import proofs.«175285_j78357383348331_2_alg».proof.Proof.Val.R1Value
import proofs.«175285_j78357383348331_2_alg».proof.Proof.Val.R0Blocks
import proofs.«175285_j78357383348331_2_alg».proof.Proof.Val.R0Acc
import proofs.«175285_j78357383348331_2_alg».proof.Proof.Spec

noncomputable section

namespace Cert.KernelIdeal.HandVal

open Cert.KernelIdeal Cert.KernelIdeal.Gen Cert.KernelIdeal.Hand
open Idealize.ShloMosaic Idealize.ShloMosaic.TcCoe Idealize.SL.Sem

/-- The result array after the run: the second region computes the softmax-weighted product from the query, the filter
    and the two matrices the first region accumulated, and those are the two whole-sequence products of the arguments. -/
theorem kernel_final (m : (ℓ : Loc nD τ sig) → Buf (Elt Ideal) ℓ) (ρ : Dev nD → PrngReg) (c : Dev nD) :
    (dat1 (F := Ideal) (E1 m ρ) c).arrAt 4 cfg1.N
      = Cert.Attn.result (m ((c.tc : Thread nD τ).loc main_arg0)) (m ((c.tc : Thread nD τ).loc main_arg1))
          (m ((c.tc : Thread nD τ).loc main_arg2)) (m ((c.tc : Thread nD τ).loc main_arg3)) := by
  rw [region1_final (E1 m ρ) c, E1_arg0, E1_arg3, E1_out0, E1_out1,
    region0_C_of (E0 m ρ) c (fun t h1 b hb d e => outC_entry (E0 m ρ) c t h1 b hb d e),
    region0_X_of (E0 m ρ) c (fun t h1 b hb d e => outX_entry (E0 m ρ) c t h1 b hb d e)]
  rfl

end Cert.KernelIdeal.HandVal

end
-- ==== Proof.lean ====
/-
  The certificate's claims.

  The kernel program computes, in two passes over the sequence, what the reference computes with whole-array
  contractions.  Its first pass accumulates, per batch, the two 1024 × 1024 matrices C = qᵀ k and X = kᵀ v over 16
  blocks of 256 sequence positions (cleared at the first block, written out after the last); its second pass forms, per
  block of 512 positions, the filtered query q w, the logits (q w) C, their row softmax, and the product of the softmax
  weights with X.  On the extended reals the block-wise sums are the whole sums regrouped (addition there is
  commutative and associative, with no finiteness needed), and every other operation is the same on both sides, so the
  two results are one function of the arguments, entry by entry (`Cert.Attn.result`).

  The three frames: each kernel program's run is the composition of its two regions' runs (the arguments are only ever
  read); the reference is a straight line of host operations whose run leaves the arguments untouched.  The idealization
  rewrote nothing, so it preserves the kernel trivially.
-/
import proofs.«175285_j78357383348331_2_alg».proof.Defs
import proofs.«175285_j78357383348331_2_alg».proof.Proof.Gen.Kernel
import proofs.«175285_j78357383348331_2_alg».proof.Proof.Gen.KernelIdeal
import proofs.«175285_j78357383348331_2_alg».proof.Proof.Gen.ReferenceIdeal
import proofs.«175285_j78357383348331_2_alg».proof.Proof.Gen.ReferenceIdeal.Run
import proofs.«175285_j78357383348331_2_alg».proof.Proof.Gen.ReferenceIdeal.Read
import proofs.«175285_j78357383348331_2_alg».proof.Proof.Gen.Pre_finite_inputs
import proofs.«175285_j78357383348331_2_alg».proof.Proof.K.Run
import proofs.«175285_j78357383348331_2_alg».proof.Proof.KI.Run
import proofs.«175285_j78357383348331_2_alg».proof.Proof.RefSide
import proofs.«175285_j78357383348331_2_alg».proof.Proof.Val.Final
import Idealize.ShloMosaic.Adequacy
import Idealize.ShloMosaic.Init

noncomputable section

namespace Cert.Proof

open Idealize.ShloMosaic Idealize.ShloMosaic.TcCoe Idealize.SL.Sem

/-- The word-level kernel program runs to the end and leaves its four arguments as launched. -/
theorem frame_kernel : Cert.frame_Kernel := fun m ρ _ =>
  (θ_run Cert.Kernel.defs _ _).mono (fun _ h c => (h c).2) (Cert.Kernel.Hand.run_all (F := Bits) m ρ)

/-- So does the same program read on the extended reals. -/
theorem frame_kernelIdeal : Cert.frame_KernelIdeal := fun m ρ _ =>
  (θ_run Cert.KernelIdeal.defs _ _).mono (fun _ h c => (h c).2) (Cert.KernelIdeal.Hand.run_all (F := Ideal) m ρ)

/-- The reference is host operations only: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Nothing was rewritten on the way to the extended reals. -/
theorem preserves : Cert.preserves_Kernel_KernelIdeal := trivial

/-- On the extended reals, from memories that agree on the arguments, both programs end with the same array: the
    function `Cert.Attn.result` of the four arguments. -/
theorem algebraic : Cert.algebraic_KernelIdeal_ReferenceIdeal := by
  intro m ρ m' ρ' _ hagree
  refine ⟨fun c => Cert.Attn.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono
      (fun _ h c => ⟨(h c).1.trans (Cert.KernelIdeal.HandVal.kernel_final m ρ c), (h c).2⟩)
      (Cert.KernelIdeal.Hand.run_all (F := Ideal) m ρ)
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2.1, (hagree c).2.2.2]
    exact (Cert.ReferenceIdeal.Read.val_main_v15_eq _ _ _ _).trans (Cert.RefSide.ref_result _ _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
